-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v37) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x300 : Shape := ⟨2, ![131072, 300]⟩
abbrev S131072x15 : Shape := ⟨2, ![131072, 15]⟩
abbrev S8x1 : Shape := ⟨2, ![8, 1]⟩
abbrev S1 : Shape := ⟨1, ![1]⟩
abbrev S600x300 : Shape := ⟨2, ![600, 300]⟩
abbrev S300 : Shape := ⟨1, ![300]⟩
abbrev S300x1 : Shape := ⟨2, ![300, 1]⟩
abbrev S_ : Shape := ⟨0, ![]⟩

class Facts : Prop where
  bcast_S_S131072x300 : S_.BroadcastsInDim S131072x300 (![] : Fin 0 → Fin S131072x300.rank)
  reducesTo_S131072x300_S_d0_1 : S131072x300.ReducesTo [0, 1] S_
  h_S_ : 0 < S_.numel
  bcast_S_S131072x15 : S_.BroadcastsInDim S131072x15 (![] : Fin 0 → Fin S131072x15.rank)
  reducesTo_S131072x15_S_d0_1 : S131072x15.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S600x300 : S_.BroadcastsInDim S600x300 (![] : Fin 0 → Fin S600x300.rank)
  reducesTo_S600x300_S_d0_1 : S600x300.ReducesTo [0, 1] S_
  bcast_S_S300 : S_.BroadcastsInDim S300 (![] : Fin 0 → Fin S300.rank)
  reducesTo_S300_S_d0 : S300.ReducesTo [0] S_
  bcast_S_S300x1 : S_.BroadcastsInDim S300x1 (![] : Fin 0 → Fin S300x1.rank)
  reducesTo_S300x1_S_d0_1 : S300x1.ReducesTo [0, 1] S_

variable [Facts]

def fn_part2 {F : FTy → Type} [FloatOps F] (main_arg7 : FVec F S300x1 .f32) (main_arg8 : FVec F S1 .f32) (main_v33 : IVec S_ 1) : IVec S_ 1 :=
  let main_v34 : FVec F S300x1 .f32 := Host.absf main_arg7
  let main_cst_12 : FVec F S_ .f32 := constant S_ .f32 0x7F800000#32
  let main_v35 : FVec F S300x1 .f32 := broadcastInDim S300x1 ![] bcast_S_S300x1 main_cst_12
  let main_v36 : IVec S300x1 1 := cmpf .olt main_v34 main_v35
  let main_c_13 : IVec S_ 1 := constantI S_ 1 1#1
  let main_v37 : IVec S_ 1 := (fun x v => Host.reduce IntOp.andi x v reducesTo_S300x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1 .f32) (main_arg5 : FVec F S600x300 .f32) (main_arg6 : FVec F S300 .f32) (main_arg7 : FVec F S300x1 .f32) (main_arg8 : FVec F S1 .f32) (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S600x300 .f32 := Host.absf main_arg5
  let main_cst_8 : FVec F S_ .f32 := constant S_ .f32 0x7F800000#32
  let main_v25 : FVec F S600x300 .f32 := broadcastInDim S600x300 ![] bcast_S_S600x300 main_cst_8
  let main_v26 : IVec S600x300 1 := cmpf .olt main_v24 main_v25
  let main_c_9 : IVec S_ 1 := constantI S_ 1 1#1
  let main_v27 : IVec S_ 1 := (fun x v => Host.reduce IntOp.andi x v reducesTo_S600x300_S_d0_1 h_S_) main_v26 main_c_9
  let main_v28 : IVec S_ 1 := andi main_v23 main_v27
  let main_v29 : FVec F S300 .f32 := Host.absf main_arg6
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg7 main_arg8 main_v33

def fn {F : FTy → Type} [FloatOps F] (main_arg0 : FVec F S131072x300 .f32) (main_arg1 : FVec F S131072x300 .f32) (main_arg2 : FVec F S131072x15 .f32) (main_arg3 : FVec F S8x1 .f32) (main_arg4 : FVec F S1 .f32) (main_arg5 : FVec F S600x300 .f32) (main_arg6 : FVec F S300 .f32) (main_arg7 : FVec F S300x1 .f32) (main_arg8 : FVec F S1 .f32) : IVec S_ 1 :=
  let main_v0 : FVec F S131072x300 .f32 := Host.absf main_arg0
  let main_cst : FVec F S_ .f32 := constant S_ .f32 0x7F800000#32
  let main_v1 : FVec F S131072x300 .f32 := broadcastInDim S131072x300 ![] bcast_S_S131072x300 main_cst
  let main_v2 : IVec S131072x300 1 := cmpf .olt main_v0 main_v1
  let main_c : IVec S_ 1 := constantI S_ 1 1#1
  let main_v3 : IVec S_ 1 := (fun x v => Host.reduce IntOp.andi x v reducesTo_S131072x300_S_d0_1 h_S_) main_v2 main_c
  let main_v4 : FVec F S131072x300 .f32 := Host.absf main_arg1
  let main_cst_0 : FVec F S_ .f32 := constant S_ .f32 0x7F800000#32
  let main_v5 : FVec F S131072x300 .f32 := broadcastInDim S131072x300 ![] bcast_S_S131072x300 main_cst_0
  let main_v6 : IVec S131072x300 1 := cmpf .olt main_v4 main_v5
  let main_c_1 : IVec S_ 1 := constantI S_ 1 1#1
  let main_v7 : IVec S_ 1 := (fun x v => Host.reduce IntOp.andi x v reducesTo_S131072x300_S_d0_1 h_S_) main_v6 main_c_1
  let main_v8 : IVec S_ 1 := andi main_v3 main_v7
  let main_v9 : FVec F S131072x15 .f32 := Host.absf main_arg2
  let main_cst_2 : FVec F S_ .f32 := constant S_ .f32 0x7F800000#32
  let main_v10 : FVec F S131072x15 .f32 := broadcastInDim S131072x15 ![] bcast_S_S131072x15 main_cst_2
  let main_v11 : IVec S131072x15 1 := cmpf .olt main_v9 main_v10
  let main_c_3 : IVec S_ 1 := constantI S_ 1 1#1
  let main_v12 : IVec S_ 1 := (fun x v => Host.reduce IntOp.andi x v reducesTo_S131072x15_S_d0_1 h_S_) main_v11 main_c_3
  let main_v13 : IVec S_ 1 := andi main_v8 main_v12
  let main_v14 : FVec F S8x1 .f32 := Host.absf main_arg3
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_arg4 main_arg5 main_arg6 main_arg7 main_arg8 main_v13 main_v16
-- ==== Kernel.lean ====
abbrev S131072x300 : Shape := ⟨2, ![131072, 300]⟩
abbrev S131072x15 : Shape := ⟨2, ![131072, 15]⟩
abbrev S8x1 : Shape := ⟨2, ![8, 1]⟩
abbrev S1 : Shape := ⟨1, ![1]⟩
abbrev S600x300 : Shape := ⟨2, ![600, 300]⟩
abbrev S300 : Shape := ⟨1, ![300]⟩
abbrev S300x1 : Shape := ⟨2, ![300, 1]⟩
abbrev S1x300 : Shape := ⟨2, ![1, 300]⟩
abbrev S1x1 : Shape := ⟨2, ![1, 1]⟩
abbrev S15x131072 : Shape := ⟨2, ![15, 131072]⟩
abbrev S131072x1 : Shape := ⟨2, ![131072, 1]⟩
abbrev S16x128 : Shape := ⟨2, ![16, 128]⟩
abbrev S2048x300 : Shape := ⟨2, ![2048, 300]⟩
abbrev S15x2048 : Shape := ⟨2, ![15, 2048]⟩
abbrev S2048x1 : Shape := ⟨2, ![2048, 1]⟩
abbrev S8x128 : Shape := ⟨2, ![8, 128]⟩
abbrev S1x2048 : Shape := ⟨2, ![1, 2048]⟩
abbrev S8x2048 : Shape := ⟨2, ![8, 2048]⟩
abbrev S2048 : Shape := ⟨1, ![2048]⟩
abbrev S300x300 : Shape := ⟨2, ![300, 300]⟩
abbrev S_ : Shape := ⟨0, ![]⟩

abbrev nBuf : Space → Nat
  | .hbm => 49
  | .vmem => 17
  | .smem => 0
  | _ => 0

abbrev bufTy : (tb : Table) → Fin (tcTables nBuf tb) → BufTy
  | .hbm, ⟨0, _⟩ => ⟨S131072x300, .f32⟩
  | .hbm, ⟨1, _⟩ => ⟨S131072x300, .f32⟩
  | .hbm, ⟨2, _⟩ => ⟨S131072x15, .f32⟩
  | .hbm, ⟨3, _⟩ => ⟨S8x1, .f32⟩
  | .hbm, ⟨4, _⟩ => ⟨S1, .f32⟩
  | .hbm, ⟨5, _⟩ => ⟨S600x300, .f32⟩
  | .hbm, ⟨6, _⟩ => ⟨S300, .f32⟩
  | .hbm, ⟨7, _⟩ => ⟨S300x1, .f32⟩
  | .hbm, ⟨8, _⟩ => ⟨S1, .f32⟩
  | .hbm, ⟨9, _⟩ => ⟨S600x300, .bf16⟩
  | .hbm, ⟨10, _⟩ => ⟨S300x1, .bf16⟩
  | .hbm, ⟨11, _⟩ => ⟨S1x300, .f32⟩
  | .hbm, ⟨12, _⟩ => ⟨S1x1, .f32⟩
  | .hbm, ⟨13, _⟩ => ⟨S1x1, .f32⟩
  | .hbm, ⟨14, _⟩ => ⟨S15x131072, .f32⟩
  | .hbm, ⟨15, _⟩ => ⟨S131072x1, .f32⟩
  | .hbm, ⟨16, _⟩ => ⟨S16x128, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S1x1, .f32⟩
  | .hbm, ⟨38, _⟩ => ⟨S_, .f32⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S2048x300, .f32⟩
  | .local _ .vmem, ⟨1, _⟩ => ⟨S2048x300, .f32⟩
  | .local _ .vmem, ⟨2, _⟩ => ⟨S2048x300, .f32⟩
  | .local _ .vmem, ⟨3, _⟩ => ⟨S2048x300, .f32⟩
  | .local _ .vmem, ⟨4, _⟩ => ⟨S15x2048, .f32⟩
  | .local _ .vmem, ⟨5, _⟩ => ⟨S15x2048, .f32⟩
  | .local _ .vmem, ⟨6, _⟩ => ⟨S600x300, .bf16⟩
  | .local _ .vmem, ⟨7, _⟩ => ⟨S1x300, .f32⟩
  | .local _ .vmem, ⟨8, _⟩ => ⟨S300x1, .bf16⟩
  | .local _ .vmem, ⟨9, _⟩ => ⟨S1x1, .f32⟩
  | .local _ .vmem, ⟨10, _⟩ => ⟨S8x1, .f32⟩
  | .local _ .vmem, ⟨11, _⟩ => ⟨S1x1, .f32⟩
  | .local _ .vmem, ⟨12, _⟩ => ⟨S2048x1, .f32⟩
  | .local _ .vmem, ⟨13, _⟩ => ⟨S2048x1, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | _, _ => ⟨S131072x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v164 : BitVec 1 := Scalar.cmpi .eq arg1 c31_i32
  let v165 : BitVec 32 := Scalar.extui v164
  let c0_i32_69 : BitVec 32 := 0#32
  let v166 : BitVec 1 := Scalar.cmpi .ne v165 c0_i32_69
  v166

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S15x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S600x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S300x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bitsLt_bf16_f32 : FTy.bits .bf16 < FTy.bits .f32
  shapeCasts_S300_S1x300 : S300.ShapeCasts S1x300
  shapeCasts_S1_S1x1 : S1.ShapeCasts S1x1
  transposes_S131072x15_S15x131072_1_0 : S131072x15.Transposes [1, 0] S15x131072
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S15x2048_S1x2048_5_0 : ∀ a, (![5, 0] : Fin 2 → Nat) a + S1x2048.size a ≤ S15x2048.size a
  h_S1x2048 : 0 < S1x2048.numel
  shapeCasts_S1x2048_S1x2048 : S1x2048.ShapeCasts S1x2048
  inb_S15x2048_S1x2048_6_0 : ∀ a, (![6, 0] : Fin 2 → Nat) a + S1x2048.size a ≤ S15x2048.size a
  inb_S15x2048_S1x2048_7_0 : ∀ a, (![7, 0] : Fin 2 → Nat) a + S1x2048.size a ≤ S15x2048.size a
  inb_S15x2048_S1x2048_8_0 : ∀ a, (![8, 0] : Fin 2 → Nat) a + S1x2048.size a ≤ S15x2048.size a
  inb_S15x2048_S1x2048_10_0 : ∀ a, (![10, 0] : Fin 2 → Nat) a + S1x2048.size a ≤ S15x2048.size a
  inb_S15x2048_S1x2048_11_0 : ∀ a, (![11, 0] : Fin 2 → Nat) a + S1x2048.size a ≤ S15x2048.size a
  inb_S15x2048_S1x2048_12_0 : ∀ a, (![12, 0] : Fin 2 → Nat) a + S1x2048.size a ≤ S15x2048.size a
  inb_S15x2048_S1x2048_13_0 : ∀ a, (![13, 0] : Fin 2 → Nat) a + S1x2048.size a ≤ S15x2048.size a
  concatenates_S1x2048_S1x2048_S1x2048_S1x2048_S1x2048_S1x2048_S1x2048_S1x2048_S8x2048_d0 : Shape.Concatenates [S1x2048, S1x2048, S1x2048, S1x2048, S1x2048, S1x2048, S1x2048, S1x2048] S8x2048 0
  inb_S8x1_S8x1_0_0 : ∀ a, (![0, 0] : Fin 2 → Nat) a + S8x1.size a ≤ S8x1.size a
  h_S8x1 : 0 < S8x1.numel
  broadcasts_S8x1_S8x2048 : S8x1.Broadcasts S8x2048
  reduces_S8x2048_S2048 : S8x2048.Reduces [0] S2048
  shapeCasts_S2048_S1x2048 : S2048.ShapeCasts S1x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S15x2048_S1x2048_4_0 : ∀ a, (![4, 0] : Fin 2 → Nat) a + S1x2048.size a ≤ S15x2048.size a
  natLt_1_32 : 1 < 32
  inb_S2048x300_S2048x300_0_0 : ∀ a, (![0, 0] : Fin 2 → Nat) a + S2048x300.size a ≤ S2048x300.size a
  h_S2048x300 : 0 < S2048x300.numel
  inb_S600x300_S600x300_0_0 : ∀ a, (![0, 0] : Fin 2 → Nat) a + S600x300.size a ≤ S600x300.size a
  h_S600x300 : 0 < S600x300.numel
  shapeCasts_S600x300_S600x300 : S600x300.ShapeCasts S600x300
  slices_S600x300_o0_0_S300x300 : S600x300.Slices ![0, 0] S300x300
  slices_S600x300_o300_0_S300x300 : S600x300.Slices ![300, 0] S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  inb_S300x1_S300x1_0_0 : ∀ a, (![0, 0] : Fin 2 → Nat) a + S300x1.size a ≤ S300x1.size a
  h_S300x1 : 0 < S300x1.numel
  shapeCasts_S300x1_S300x1 : S300x1.ShapeCasts S300x1
  shapeCasts_S1x1_S1x1 : S1x1.ShapeCasts S1x1
  broadcasts_S1x1_S2048x1 : S1x1.Broadcasts S2048x1
  transposes_S2048x1_p1_0_S1x2048 : S2048x1.Transposes [1, 0] S1x2048
  transposes_S1x2048_p1_0_S2048x1 : S1x2048.Transposes [1, 0] S2048x1
  inb_S2048x1_S2048x1_0_0 : ∀ a, (![0, 0] : Fin 2 → Nat) a + S2048x1.size a ≤ S2048x1.size a
  h_S2048x1 : 0 < S2048x1.numel
  reduces_S1x2048_S1 : S1x2048.Reduces [1] S1
  inb_S8x128_S1x1_0_0 : ∀ a, (![0, 0] : Fin 2 → Nat) a + S1x1.size a ≤ S8x128.size a
  inb_S8x128_S1x1_1_0 : ∀ a, (![1, 0] : Fin 2 → Nat) a + S1x1.size a ≤ S8x128.size a
  inb_S8x128_S1x1_2_0 : ∀ a, (![2, 0] : Fin 2 → Nat) a + S1x1.size a ≤ S8x128.size a
  inb_S8x128_S1x1_3_0 : ∀ a, (![3, 0] : Fin 2 → Nat) a + S1x1.size a ≤ S8x128.size a
  inb_S8x128_S1x1_4_0 : ∀ a, (![4, 0] : Fin 2 → Nat) a + S1x1.size a ≤ S8x128.size a
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_1_0 : S16x128.Slices ![1, 0] S1x1
  slices_S16x128_S1x1_9_0 : S16x128.Slices ![9, 0] S1x1
  slices_S16x128_S1x1_2_0 : S16x128.Slices ![2, 0] S1x1
  slices_S16x128_S1x1_10_0 : S16x128.Slices ![10, 0] S1x1
  slices_S16x128_S1x1_3_0 : S16x128.Slices ![3, 0] S1x1
  slices_S16x128_S1x1_11_0 : S16x128.Slices ![11, 0] S1x1
  slices_S16x128_S1x1_4_0 : S16x128.Slices ![4, 0] S1x1
  slices_S16x128_S1x1_12_0 : S16x128.Slices ![12, 0] S1x1
  dot_S2048x300_S300x300_S2048x300_1_0_0_1_n_n_wf : DotDims.WF S2048x300 S300x300 S2048x300 [1] [0] [0] [1] [] []
  dot_S2048x300_S300x1_S2048x1_1_0_0_1_n_n_wf : DotDims.WF S2048x300 S300x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x300.size a ≤ S131072x300.size a
  hwx0_0 : ∀ i : grid0.Coords, EltTy.bits .f32 = 32 ∨ (Rect.block (s := S131072x300) S2048x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x300.size a ≤ S131072x300.size a
  hwx0_1 : ∀ i : grid0.Coords, EltTy.bits .f32 = 32 ∨ (Rect.block (s := S131072x300) S2048x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S15x2048.size a ≤ S15x131072.size a
  hwx0_2 : ∀ i : grid0.Coords, EltTy.bits .f32 = 32 ∨ (Rect.block (s := S15x131072) S15x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600x300.size a ≤ S600x300.size a
  hwx0_3 : ∀ i : grid0.Coords, EltTy.bits .bf16 = 32 ∨ (Rect.block (s := S600x300) S600x300.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x1.size a ≤ S300x1.size a
  hwx0_5 : ∀ i : grid0.Coords, EltTy.bits .bf16 = 32 ∨ (Rect.block (s := S300x1) S300x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .f32 = 32 ∨ (Rect.block (s := S8x1) S8x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S131072x1.size a
  hwx0_9 : ∀ i : grid0.Coords, EltTy.bits .f32 = 32 ∨ (Rect.block (s := S131072x1) S2048x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S16x128.size a
  hwx0_10 : ∀ i : grid0.Coords, EltTy.bits .f32 = 32 ∨ (Rect.block (s := S16x128) S8x128.size (cc0_transform_10 i) (hinb0_10 i)).WholeWords (EltTy.packing .f32)

variable [Facts₀]

def dot_S2048x300_S300x300_S2048x300_1_0_0_1_n_n : DotDims S2048x300 S300x300 S2048x300 where
  lhsContracting := [1]
  rhsContracting := [0]
  lhsNonContracting := [0]
  rhsNonContracting := [1]
  lhsBatch := []
  rhsBatch := []
  wf := dot_S2048x300_S300x300_S2048x300_1_0_0_1_n_n_wf
def dot_S2048x300_S300x1_S2048x1_1_0_0_1_n_n : DotDims S2048x300 S300x1 S2048x1 where
  lhsContracting := [1]
  rhsContracting := [0]
  lhsNonContracting := [0]
  rhsNonContracting := [1]
  lhsBatch := []
  rhsBatch := []
  wf := dot_S2048x300_S300x1_S2048x1_1_0_0_1_n_n_wf

abbrev win0_0 : Pipeline.Window sig grid0 :=
  Pipeline.Window.ofSpec (Memref.whole main_arg0) S2048x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S15x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S600x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S300x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S2048x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S131072x300 : Shape := ⟨2, ![131072, 300]⟩
abbrev S131072x15 : Shape := ⟨2, ![131072, 15]⟩
abbrev S8x1 : Shape := ⟨2, ![8, 1]⟩
abbrev S1 : Shape := ⟨1, ![1]⟩
abbrev S600x300 : Shape := ⟨2, ![600, 300]⟩
abbrev S300 : Shape := ⟨1, ![300]⟩
abbrev S300x1 : Shape := ⟨2, ![300, 1]⟩
abbrev S131072x4 : Shape := ⟨2, ![131072, 4]⟩
abbrev S131072x1 : Shape := ⟨2, ![131072, 1]⟩
abbrev S131072 : Shape := ⟨1, ![131072]⟩
abbrev S131072x600 : Shape := ⟨2, ![131072, 600]⟩
abbrev S131072x8 : Shape := ⟨2, ![131072, 8]⟩
abbrev S_ : Shape := ⟨0, ![]⟩
abbrev S1x300 : Shape := ⟨2, ![1, 300]⟩
abbrev S1x1 : Shape := ⟨2, ![1, 1]⟩

abbrev nBuf : Space → Nat
  | .hbm => 178
  | .vmem => 0
  | .smem => 0
  | _ => 0

abbrev hbmTy0_0 (i : Nat) : BufTy := match i % 128 with
  | 0 => ⟨S131072x300, .f32⟩
  | 1 => ⟨S131072x300, .f32⟩
  | 2 => ⟨S131072x15, .f32⟩
  | 3 => ⟨S8x1, .f32⟩
  | 4 => ⟨S1, .f32⟩
  | 5 => ⟨S600x300, .f32⟩
  | 6 => ⟨S300, .f32⟩
  | 7 => ⟨S300x1, .f32⟩
  | 8 => ⟨S1, .f32⟩
  | 9 => ⟨S131072x4, .f32⟩
  | 10 => ⟨S131072x4, .f32⟩
  | 11 => ⟨S131072x1, .f32⟩
  | 12 => ⟨S131072, .f32⟩
  | 13 => ⟨S131072x1, .f32⟩
  | 14 => ⟨S131072, .f32⟩
  | 15 => ⟨S131072, .f32⟩
  | 16 => ⟨S131072x1, .f32⟩
  | 17 => ⟨S131072, .f32⟩
  | 18 => ⟨S131072x1, .f32⟩
  | 19 => ⟨S131072, .f32⟩
  | 20 => ⟨S131072, .f32⟩
  | 21 => ⟨S131072x1, .f32⟩
  | 22 => ⟨S131072, .f32⟩
  | 23 => ⟨S131072x1, .f32⟩
  | 24 => ⟨S131072, .f32⟩
  | 25 => ⟨S131072, .f32⟩
  | 26 => ⟨S131072x1, .f32⟩
  | 27 => ⟨S131072, .f32⟩
  | 28 => ⟨S131072x1, .f32⟩
  | 29 => ⟨S131072, .f32⟩
  | 30 => ⟨S131072, .f32⟩
  | 31 => ⟨S131072x1, .f32⟩
  | 32 => ⟨S131072, .f32⟩
  | 33 => ⟨S131072x1, .f32⟩
  | 34 => ⟨S131072, .f32⟩
  | 35 => ⟨S131072, .f32⟩
  | 36 => ⟨S131072, .f32⟩
  | 37 => ⟨S131072x1, .f32⟩
  | 38 => ⟨S131072, .f32⟩
  | 39 => ⟨S131072x1, .f32⟩
  | 40 => ⟨S131072, .f32⟩
  | 41 => ⟨S131072, .f32⟩
  | 42 => ⟨S131072, .f32⟩
  | 43 => ⟨S131072, .f32⟩
  | 44 => ⟨S131072, .f32⟩
  | 45 => ⟨S131072, .f32⟩
  | 46 => ⟨S131072, .f32⟩
  | 47 => ⟨S131072x1, .f32⟩
  | 48 => ⟨S131072x1, .f32⟩
  | 49 => ⟨S131072x1, .f32⟩
  | 50 => ⟨S131072x1, .f32⟩
  | 51 => ⟨S131072x4, .f32⟩
  | 52 => ⟨S131072x1, .f32⟩
  | 53 => ⟨S131072, .f32⟩
  | 54 => ⟨S131072x1, .f32⟩
  | 55 => ⟨S131072, .f32⟩
  | 56 => ⟨S131072, .f32⟩
  | 57 => ⟨S131072, .f32⟩
  | 58 => ⟨S131072x1, .f32⟩
  | 59 => ⟨S131072, .f32⟩
  | 60 => ⟨S131072x1, .f32⟩
  | 61 => ⟨S131072, .f32⟩
  | 62 => ⟨S131072, .f32⟩
  | 63 => ⟨S131072, .f32⟩
  | 64 => ⟨S131072, .f32⟩
  | 65 => ⟨S131072, .f32⟩
  | 66 => ⟨S131072, .f32⟩
  | 67 => ⟨S131072, .f32⟩
  | 68 => ⟨S131072x1, .f32⟩
  | 69 => ⟨S131072x1, .f32⟩
  | 70 => ⟨S131072x1, .f32⟩
  | 71 => ⟨S131072x1, .f32⟩
  | 72 => ⟨S131072x4, .f32⟩
  | 73 => ⟨S131072x600, .f32⟩
  | 74 => ⟨S131072x8, .f32⟩
  | 75 => ⟨S_, .f32⟩
  | 76 => ⟨S131072x600, .f32⟩
  | 77 => ⟨S131072x600, .f32⟩
  | 78 => ⟨S131072x300, .f32⟩
  | 79 => ⟨S1x300, .f32⟩
  | 80 => ⟨S131072x300, .f32⟩
  | 81 => ⟨S131072x300, .f32⟩
  | 82 => ⟨S_, .f32⟩
  | 83 => ⟨S131072x300, .f32⟩
  | 84 => ⟨S131072x300, .f32⟩
  | 85 => ⟨S131072x1, .f32⟩
  | 86 => ⟨S1x1, .f32⟩
  | 87 => ⟨S131072x1, .f32⟩
  | 88 => ⟨S131072x1, .f32⟩
  | 89 => ⟨S131072x1, .f32⟩
  | 90 => ⟨S1x1, .f32⟩
  | 91 => ⟨S131072x1, .f32⟩
  | 92 => ⟨S131072x1, .f32⟩
  | 93 => ⟨S131072x1, .f32⟩
  | 94 => ⟨S131072x1, .f32⟩
  | 95 => ⟨S131072x1, .f32⟩
  | 96 => ⟨S_, .f32⟩
  | 97 => ⟨S131072x1, .f32⟩
  | 98 => ⟨S131072x1, .f32⟩
  | 99 => ⟨S_, .f32⟩
  | 100 => ⟨S131072x1, .f32⟩
  | 101 => ⟨S131072x1, .f32⟩
  | 102 => ⟨S131072x1, .f32⟩
  | 103 => ⟨S131072, .f32⟩
  | 104 => ⟨S_, .f32⟩
  | 105 => ⟨S131072, .f32⟩
  | 106 => ⟨S131072, .i1⟩
  | 107 => ⟨S131072, .f32⟩
  | 108 => ⟨S131072, .f32⟩
  | 109 => ⟨S_, .f32⟩
  | 110 => ⟨S_, .f32⟩
  | 111 => ⟨S_, .f32⟩
  | 112 => ⟨S131072, .f32⟩
  | 113 => ⟨S131072, .f32⟩
  | 114 => ⟨S_, .f32⟩
  | 115 => ⟨S131072, .f32⟩
  | 116 => ⟨S131072, .f32⟩
  | 117 => ⟨S131072, .f32⟩
  | 118 => ⟨S_, .f32⟩
  | 119 => ⟨S_, .f32⟩
  | 120 => ⟨S131072, .f32⟩
  | 121 => ⟨S131072, .f32⟩
  | 122 => ⟨S_, .f32⟩
  | 123 => ⟨S131072, .f32⟩
  | 124 => ⟨S131072, .f32⟩
  | 125 => ⟨S_, .f32⟩
  | 126 => ⟨S_, .f32⟩
  | 127 => ⟨S_, .f32⟩
  | _ => ⟨S131072x300, .f32⟩

abbrev hbmTy0_1 (i : Nat) : BufTy := match i % 128 with
  | 0 => ⟨S131072, .f32⟩
  | 1 => ⟨S131072, .f32⟩
  | 2 => ⟨S_, .f32⟩
  | 3 => ⟨S131072, .f32⟩
  | 4 => ⟨S131072, .f32⟩
  | 5 => ⟨S131072, .f32⟩
  | 6 => ⟨S_, .f32⟩
  | 7 => ⟨S_, .f32⟩
  | 8 => ⟨S131072, .f32⟩
  | 9 => ⟨S131072, .f32⟩
  | 10 => ⟨S131072, .f32⟩
  | 11 => ⟨S_, .f32⟩
  | 12 => ⟨S131072, .f32⟩
  | 13 => ⟨S131072, .f32⟩
  | 14 => ⟨S131072, .f32⟩
  | 15 => ⟨S131072, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S131072, .f32⟩
  | 23 => ⟨S131072, .i1⟩
  | 24 => ⟨S131072, .i1⟩
  | 25 => ⟨S131072, .f32⟩
  | 26 => ⟨S_, .f32⟩
  | 27 => ⟨S_, .f32⟩
  | 28 => ⟨S131072, .f32⟩
  | 29 => ⟨S_, .f32⟩
  | 30 => ⟨S_, .f32⟩
  | 31 => ⟨S_, .f32⟩
  | 32 => ⟨S131072, .f32⟩
  | 33 => ⟨S131072, .i1⟩
  | 34 => ⟨S131072, .i1⟩
  | 35 => ⟨S131072, .f32⟩
  | 36 => ⟨S_, .f32⟩
  | 37 => ⟨S_, .f32⟩
  | 38 => ⟨S_, .f32⟩
  | 39 => ⟨S131072, .f32⟩
  | 40 => ⟨S131072, .i1⟩
  | 41 => ⟨S131072, .i1⟩
  | 42 => ⟨S131072, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | _ => ⟨S131072x300, .f32⟩

abbrev hbmTy (i : Nat) : BufTy := match i / 128 with
  | 0 => hbmTy0_0 i
  | 1 => hbmTy0_1 i
  | _ => ⟨S131072x300, .f32⟩

abbrev bufTy : (tb : Table) → Fin (tcTables nBuf tb) → BufTy
  | .hbm, ⟨i, _⟩ => hbmTy i
  | _, _ => ⟨S131072x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_call0_cst : Ref sig .tc := ⟨.hbm, 75, rfl⟩
abbrev main_call0_v0 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_call1_cst : Ref sig .tc := ⟨.hbm, 82, rfl⟩
abbrev main_call1_v0 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst : Ref sig .tc := ⟨.hbm, 96, rfl⟩
abbrev main_v83 : Ref sig .tc := ⟨.hbm, 97, rfl⟩
abbrev main_v84 : Ref sig .tc := ⟨.hbm, 98, rfl⟩
abbrev main_cst_0 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_1 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_2 : Ref sig .tc := ⟨.hbm, 109, rfl⟩
abbrev main_cst_3 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_v93 : Ref sig .tc := ⟨.hbm, 116, rfl⟩
abbrev main_v94 : Ref sig .tc := ⟨.hbm, 117, rfl⟩
abbrev main_cst_4 : Ref sig .tc := ⟨.hbm, 118, rfl⟩
abbrev main_call3_v0 : Ref sig .tc := ⟨.hbm, 119, rfl⟩
abbrev main_call3_v1 : Ref sig .tc := ⟨.hbm, 120, rfl⟩
abbrev main_v95 : Ref sig .tc := ⟨.hbm, 121, rfl⟩
abbrev main_cst_5 : Ref sig .tc := ⟨.hbm, 122, rfl⟩
abbrev main_v96 : Ref sig .tc := ⟨.hbm, 123, rfl⟩
abbrev main_v97 : Ref sig .tc := ⟨.hbm, 124, rfl⟩
abbrev main_cst_6 : Ref sig .tc := ⟨.hbm, 125, rfl⟩
abbrev main_cst_7 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_v98 : Ref sig .tc := ⟨.hbm, 132, rfl⟩
abbrev main_v99 : Ref sig .tc := ⟨.hbm, 133, rfl⟩
abbrev main_cst_8 : Ref sig .tc := ⟨.hbm, 134, rfl⟩
abbrev main_call5_v0 : Ref sig .tc := ⟨.hbm, 135, rfl⟩
abbrev main_call5_v1 : Ref sig .tc := ⟨.hbm, 136, rfl⟩
abbrev main_v100 : Ref sig .tc := ⟨.hbm, 137, rfl⟩
abbrev main_v101 : Ref sig .tc := ⟨.hbm, 138, rfl⟩
abbrev main_cst_9 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_10 : Ref sig .tc := ⟨.hbm, 144, rfl⟩
abbrev main_v106 : Ref sig .tc := ⟨.hbm, 145, rfl⟩
abbrev main_cst_11 : Ref sig .tc := ⟨.hbm, 146, rfl⟩
abbrev main_v107 : Ref sig .tc := ⟨.hbm, 147, rfl⟩
abbrev main_v108 : Ref sig .tc := ⟨.hbm, 148, rfl⟩
abbrev main_cst_12 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_13 : Ref sig .tc := ⟨.hbm, 154, rfl⟩
abbrev main_v113 : Ref sig .tc := ⟨.hbm, 155, rfl⟩
abbrev main_v114 : Ref sig .tc := ⟨.hbm, 156, rfl⟩
abbrev main_cst_14 : Ref sig .tc := ⟨.hbm, 157, rfl⟩
abbrev main_v115 : Ref sig .tc := ⟨.hbm, 158, rfl⟩
abbrev main_cst_15 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_16 : Ref sig .tc := ⟨.hbm, 164, rfl⟩
abbrev main_v120 : Ref sig .tc := ⟨.hbm, 165, rfl⟩
abbrev main_cst_17 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_18 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩

abbrev nD : Nat := 1
abbrev τ : Topo := Topo.v7x

variable {F : FTy → Type} [FloatOps F]

class Facts₀ : Prop where
  slices_S131072x15_S131072x4_0_5 : S131072x15.Slices ![0, 5] S131072x4
  slices_S131072x15_S131072x4_0_10 : S131072x15.Slices ![0, 10] S131072x4
  slices_S131072x4_S131072x1_0_2 : S131072x4.Slices ![0, 2] S131072x1
  shapeCasts_S131072x1_S131072 : S131072x1.ShapeCasts S131072
  slices_S131072x4_S131072x1_0_0 : S131072x4.Slices ![0, 0] S131072x1
  slices_S131072x4_S131072x1_0_3 : S131072x4.Slices ![0, 3] S131072x1
  slices_S131072x4_S131072x1_0_1 : S131072x4.Slices ![0, 1] S131072x1
  bcast_S131072_S131072x1_0 : S131072.BroadcastsInDim S131072x1 (![0] : Fin 1 → Fin S131072x1.rank)
  concatenates_S131072x1_S131072x1_S131072x1_S131072x1_S131072x4_d1 : Shape.Concatenates [S131072x1, S131072x1, S131072x1, S131072x1] S131072x4 1
  concatenates_S131072x300_S131072x300_S131072x600_d1 : Shape.Concatenates [S131072x300, S131072x300] S131072x600 1
  concatenates_S131072x4_S131072x4_S131072x8_d1 : Shape.Concatenates [S131072x4, S131072x4] S131072x8 1
  bcast_S_S131072x600 : S_.BroadcastsInDim S131072x600 (![] : Fin 0 → Fin S131072x600.rank)
  bcast_S300_S1x300_1 : S300.BroadcastsInDim S1x300 (![1] : Fin 1 → Fin S1x300.rank)
  bcast_S1x300_S131072x300_0_1 : S1x300.BroadcastsInDim S131072x300 (![0, 1] : Fin 2 → Fin S131072x300.rank)
  bcast_S_S131072x300 : S_.BroadcastsInDim S131072x300 (![] : Fin 0 → Fin S131072x300.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  slices_S131072x15_S131072x1_0_4 : S131072x15.Slices ![0, 4] S131072x1
  bcast_S_S131072 : S_.BroadcastsInDim S131072 (![] : Fin 0 → Fin S131072.rank)
  reducesTo_S131072_S_d0 : S131072.ReducesTo [0] S_
  h_S_ : 0 < S_.numel
  dot_S131072x600_S600x300_S131072x300_1_0_0_1_n_n_wf : DotDims.WF S131072x600 S600x300 S131072x300 [1] [0] [0] [1] [] []
  dot_S131072x300_S300x1_S131072x1_1_0_0_1_n_n_wf : DotDims.WF S131072x300 S300x1 S131072x1 [1] [0] [0] [1] [] []
  dot_S131072x8_S8x1_S131072x1_1_0_0_1_n_n_wf : DotDims.WF S131072x8 S8x1 S131072x1 [1] [0] [0] [1] [] []

variable [Facts₀]

def dot_S131072x600_S600x300_S131072x300_1_0_0_1_n_n : DotDims S131072x600 S600x300 S131072x300 where
  lhsContracting := [1]
  rhsContracting := [0]
  lhsNonContracting := [0]
  rhsNonContracting := [1]
  lhsBatch := []
  rhsBatch := []
  wf := dot_S131072x600_S600x300_S131072x300_1_0_0_1_n_n_wf
def dot_S131072x300_S300x1_S131072x1_1_0_0_1_n_n : DotDims S131072x300 S300x1 S131072x1 where
  lhsContracting := [1]
  rhsContracting := [0]
  lhsNonContracting := [0]
  rhsNonContracting := [1]
  lhsBatch := []
  rhsBatch := []
  wf := dot_S131072x300_S300x1_S131072x1_1_0_0_1_n_n_wf
def dot_S131072x8_S8x1_S131072x1_1_0_0_1_n_n : DotDims S131072x8 S8x1 S131072x1 where
  lhsContracting := [1]
  rhsContracting := [0]
  lhsNonContracting := [0]
  rhsNonContracting := [1]
  lhsBatch := []
  rhsBatch := []
  wf := dot_S131072x8_S8x1_S131072x1_1_0_0_1_n_n_wf

class Facts : Prop extends Facts₀ where

variable [Facts]
-- ==== Proof.Spec.lean ====
/-
  The mathematics of the relation scorer, stated once, index by index, over the nine argument arrays
  (no program is imported here).

  For row n of the 131072 rows:
    * eight box features from columns 5..8 (subject box x1,y1,x2,y2) and 10..13 (object box) of the row:
      offsets divided by widths/heights, and logarithms of width and height ratios;
    * box score    = sum over the 8 features of feature * spa_w + spa_b;
    * hidden layer = relu (relu(sbj row) . W1[0:300] + relu(obj row) . W1[300:600] + b1)   (300 units);
    * language score = hidden . w2 + b2;
    * score        = logistic (language score + box score);
    * label y      = 1 if column 4 is positive, else 0;
    * cross-entropy term = y * L(score) + (1 - y) * L(1 - score), with L s = max (log (clamp s to [eps, 1])) (-100);
    * four 0/1 indicators: "negative" (y = 0), "positive" (not negative), negative with score >= 1/2,
      positive with score < 1/2.
  The results: the score column; minus the mean of the cross-entropy terms; and three quotients of the indicator counts.

  The last section states the order in which a two-core, 32-blocks-per-core accumulation adds the same terms:
  a block's 2048 rows are summed, and a core adds its 32 block sums one after the other.
-/
import Idealize.ShloMosaic.PureOps.Ideal
import Idealize.ShloMosaic.Lib.ValueIdx

noncomputable section

open scoped BigOperators

namespace Cert.RelScore

open Idealize.ShloMosaic Idealize.ShloMosaic.ValueIdx

/-- A rank-2 array of extended reals, by index. -/
abbrev Arr2 (a b : Nat) : Type := (⟨2, ![a, b]⟩ : Shape).Idx → EReal
/-- A rank-1 array of extended reals, by index. -/
abbrev Arr1 (a : Nat) : Type := (⟨1, ![a]⟩ : Shape).Idx → EReal
/-- A scalar array. -/
abbrev Arr0 : Type := (⟨0, ![]⟩ : Shape).Idx → EReal

/-- The float literals of both programs, as the extended reals their binary words denote. -/
abbrev zeroW : EReal := Ideal.ofBits .f32 0x00000000#32
/-- 9.99999996e-13, the lower clamp of a probability. -/
abbrev epsW : EReal := Ideal.ofBits .f32 0x2B8CBCCC#32
/-- 1.0 -/
abbrev oneW : EReal := Ideal.ofBits .f32 0x3F800000#32
/-- -100.0, the floor of a clamped logarithm. -/
abbrev floorW : EReal := Ideal.ofBits .f32 0xC2C80000#32
/-- 0.5 -/
abbrev halfW : EReal := Ideal.ofBits .f32 0x3F000000#32
/-- 131072.0, the number of rows. -/
abbrev countW : EReal := Ideal.ofBits .f32 0x48000000#32

/-- The nine argument arrays, for a table of N rows (N = 131072 for the whole problem, N = 2048 for one block of rows:
    a row's score, label and indicators depend only on that row and on the weights). -/
structure Args (N : Nat) where
  sbj : Arr2 N 300
  obj : Arr2 N 300
  rl : Arr2 N 15
  sw : Arr2 8 1
  sb : Arr1 1
  w1 : Arr2 600 300
  b1 : Arr1 300
  w2 : Arr2 300 1
  b2 : Arr1 1

variable {N : Nat} (A : Args N)

/-- Column k of row n of the relation table. -/
def col (n : Fin N) (k : Fin 15) : EReal := A.rl (ix2 n k)

/-- Subject box width x2 - x1. -/
def sWid (n : Fin N) : EReal := col A n 7 - col A n 5
/-- Subject box height y2 - y1. -/
def sHgt (n : Fin N) : EReal := col A n 8 - col A n 6
/-- Object box width. -/
def oWid (n : Fin N) : EReal := col A n 12 - col A n 10
/-- Object box height. -/
def oHgt (n : Fin N) : EReal := col A n 13 - col A n 11

/-- The eight box features of row n. -/
def feat (n : Fin N) : Fin 8 → EReal :=
  ![Ideal.div (col A n 5 - col A n 10) (sWid A n),
    Ideal.div (col A n 6 - col A n 11) (sHgt A n),
    Ideal.log (Ideal.div (sWid A n) (oWid A n)),
    Ideal.log (Ideal.div (sHgt A n) (oHgt A n)),
    Ideal.div (col A n 10 - col A n 5) (oWid A n),
    Ideal.div (col A n 11 - col A n 6) (oHgt A n),
    Ideal.log (Ideal.div (oWid A n) (sWid A n)),
    Ideal.log (Ideal.div (oHgt A n) (sHgt A n))]

/-- The box score of row n. -/
def box (n : Fin N) : EReal := (∑ k : Fin 8, feat A n k * A.sw (ix2 k 0)) + A.sb (ix1 0)

/-- relu -/
def relu (x : EReal) : EReal := max x zeroW

/-- Unit j of the hidden layer before its relu: the subject half and the object half of the 600-long
    contraction, each over its own 300 rows of W1, then the bias. -/
def pre (n : Fin N) (j : Fin 300) : EReal :=
  ((∑ k : Fin 300, relu (A.sbj (ix2 n k)) * A.w1 (ix2 (⟨k.val, by omega⟩ : Fin 600) j))
    + ∑ k : Fin 300, relu (A.obj (ix2 n k)) * A.w1 (ix2 (⟨300 + k.val, by omega⟩ : Fin 600) j))
  + A.b1 (ix1 j)

/-- The language score of row n. -/
def lan (n : Fin N) : EReal := (∑ j : Fin 300, relu (pre A n j) * A.w2 (ix2 j 0)) + A.b2 (ix1 0)

/-- The score of row n. -/
def score (n : Fin N) : EReal := Ideal.logistic (lan A n + box A n)

/-- The label bit of row n: column 4 positive. -/
def lab (n : Fin N) : BitVec 1 := Ideal.cmp .ogt (col A n 4) zeroW

/-- A bit as the extended real 0 or 1. -/
def ind (b : BitVec 1) : EReal := ((b.toNat : ℝ) : EReal)

/-- The label of row n as 0 or 1. -/
def y (n : Fin N) : EReal := ind (lab A n)

/-- The clamped logarithm: log of s clamped to [eps, 1], floored at -100. -/
def clampLog (s : EReal) : EReal := max (Ideal.log (min oneW (max epsW s))) floorW

/-- The cross-entropy term of row n (before the sign). -/
def term (n : Fin N) : EReal :=
  y A n * clampLog (score A n) + (oneW - y A n) * clampLog (oneW - score A n)

/-- Row n is a negative: its label is 0. -/
def isNeg (n : Fin N) : BitVec 1 := Ideal.cmp .oeq (y A n) zeroW
/-- Row n is a positive. -/
def isPos (n : Fin N) : BitVec 1 := ~~~ (isNeg A n)
/-- A negative scored at least one half. -/
def negHigh (n : Fin N) : BitVec 1 := isNeg A n &&& Ideal.cmp .oge (score A n) halfW
/-- A positive scored below one half. -/
def posLow (n : Fin N) : BitVec 1 := isPos A n &&& Ideal.cmp .olt (score A n) halfW

/-- The sum over all rows. -/
def total (f : Fin 131072 → EReal) : EReal := ∑ n, f n

/-! ## The five results -/

section Results

variable (A : Args 131072)

/-- Result 0: the score column. -/
def scores : Arr2 131072 1 := fun i => score A (i 0)
/-- Result 1: minus the mean cross-entropy term. -/
def loss : EReal := -(Ideal.div (total (term A)) countW)
/-- The four counts. -/
def nPos : EReal := total fun n => ind (isPos A n)
def nNeg : EReal := total fun n => ind (isNeg A n)
def nNegHigh : EReal := total fun n => ind (negHigh A n)
def nPosLow : EReal := total fun n => ind (posLow A n)
/-- Results 2, 3, 4. -/
def ratio1 : EReal := Ideal.div (nNegHigh A) (nPos A)
def ratio2 : EReal := Ideal.div (nPosLow A) (nNeg A)
def ratio3 : EReal := Ideal.div (nNegHigh A + nPosLow A) (nPos A + nNeg A)

end Results

/-! ## The blocked order of summation -/

/-- Row l of block b (64 blocks of 2048 rows). -/
def rowOf (b : Fin 64) (l : Fin 2048) : Fin 131072 := ⟨b.val * 2048 + l.val, by omega⟩

/-- The sum of f over the 2048 rows of block b (zero for a block number out of range). -/
def blockSum (f : Fin 131072 → EReal) (b : ℕ) : EReal :=
  if h : b < 64 then ∑ l : Fin 2048, f (rowOf ⟨b, h⟩ l) else 0

/-- Core c's running total after its block k: the block sums 32c, 32c+1, …, 32c+k added one after the other. -/
def running (f : Fin 131072 → EReal) (c : ℕ) : ℕ → EReal
  | 0 => blockSum f (32 * c)
  | k + 1 => running f c k + blockSum f (32 * c + (k + 1))

end Cert.RelScore

end
-- ==== Proof.RefSide1.lean ====
/-
  The reference program read at an index, part 1: the eight box features.

  Each lemma says what one intermediate array of the reference holds at row n, in the words of the
  specification: a column of the relation table, a box width or height, a quotient or a logarithm of
  quotients, and the 8-column feature table assembled by three concatenations.
-/
import proofs.«119460_j32547262169374_2_alg».proof.Proof.RefReadP
import proofs.«119460_j32547262169374_2_alg».proof.Proof.Spec
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.RelScore.Ref

open Cert.ReferenceIdeal Cert.ReferenceIdeal.Gen Cert.ReferenceIdeal.Read Idealize.ShloMosaic Idealize.ShloMosaic.ValueIdx Cert.RelScore

/-- Two rank-2 indices with the same coordinates are equal. -/
theorem idx2_ext {n0 n1 : Nat} {p q : (⟨2, ![n0, n1]⟩ : Shape).Idx}
    (h0 : (p 0).val = (q 0).val) (h1 : (p 1).val = (q 1).val) : p = q :=
  funext fun a => Fin.ext (by match a with | ⟨0, _⟩ => exact h0 | ⟨1, _⟩ => exact h1)

/-- Two rank-1 indices with the same coordinate are equal. -/
theorem idx1_ext {n0 : Nat} {p q : (⟨1, ![n0]⟩ : Shape).Idx} (h0 : (p 0).val = (q 0).val) : p = q :=
  funext fun a => Fin.ext (by match a with | ⟨0, _⟩ => exact h0)

variable (A : Args 131072)

/-! ## Columns of the relation table -/

theorem v3_ix (n : Fin 131072) : val_main_v3 (F := Ideal) A.rl (ix1 n) = col A n 7 := by
  rw [val_main_v3_apply, val_main_v2_apply, val_main_v0_apply]
  exact congrArg A.rl (idx2_ext (Nat.div_one _) rfl)
theorem v5_ix (n : Fin 131072) : val_main_v5 (F := Ideal) A.rl (ix1 n) = col A n 5 := by
  rw [val_main_v5_apply, val_main_v4_apply, val_main_v0_apply]
  exact congrArg A.rl (idx2_ext (Nat.div_one _) rfl)
theorem v8_ix (n : Fin 131072) : val_main_v8 (F := Ideal) A.rl (ix1 n) = col A n 8 := by
  rw [val_main_v8_apply, val_main_v7_apply, val_main_v0_apply]
  exact congrArg A.rl (idx2_ext (Nat.div_one _) rfl)
theorem v10_ix (n : Fin 131072) : val_main_v10 (F := Ideal) A.rl (ix1 n) = col A n 6 := by
  rw [val_main_v10_apply, val_main_v9_apply, val_main_v0_apply]
  exact congrArg A.rl (idx2_ext (Nat.div_one _) rfl)
theorem v13_ix (n : Fin 131072) : val_main_v13 (F := Ideal) A.rl (ix1 n) = col A n 12 := by
  rw [val_main_v13_apply, val_main_v12_apply, val_main_v1_apply]
  exact congrArg A.rl (idx2_ext (Nat.div_one _) rfl)
theorem v15_ix (n : Fin 131072) : val_main_v15 (F := Ideal) A.rl (ix1 n) = col A n 10 := by
  rw [val_main_v15_apply, val_main_v14_apply, val_main_v1_apply]
  exact congrArg A.rl (idx2_ext (Nat.div_one _) rfl)
theorem v18_ix (n : Fin 131072) : val_main_v18 (F := Ideal) A.rl (ix1 n) = col A n 13 := by
  rw [val_main_v18_apply, val_main_v17_apply, val_main_v1_apply]
  exact congrArg A.rl (idx2_ext (Nat.div_one _) rfl)
theorem v20_ix (n : Fin 131072) : val_main_v20 (F := Ideal) A.rl (ix1 n) = col A n 11 := by
  rw [val_main_v20_apply, val_main_v19_apply, val_main_v1_apply]
  exact congrArg A.rl (idx2_ext (Nat.div_one _) rfl)
theorem v23_ix (n : Fin 131072) : val_main_v23 (F := Ideal) A.rl (ix1 n) = col A n 5 := by
  rw [val_main_v23_apply, val_main_v22_apply, val_main_v0_apply]
  exact congrArg A.rl (idx2_ext (Nat.div_one _) rfl)
theorem v25_ix (n : Fin 131072) : val_main_v25 (F := Ideal) A.rl (ix1 n) = col A n 10 := by
  rw [val_main_v25_apply, val_main_v24_apply, val_main_v1_apply]
  exact congrArg A.rl (idx2_ext (Nat.div_one _) rfl)
theorem v29_ix (n : Fin 131072) : val_main_v29 (F := Ideal) A.rl (ix1 n) = col A n 6 := by
  rw [val_main_v29_apply, val_main_v28_apply, val_main_v0_apply]
  exact congrArg A.rl (idx2_ext (Nat.div_one _) rfl)
theorem v31_ix (n : Fin 131072) : val_main_v31 (F := Ideal) A.rl (ix1 n) = col A n 11 := by
  rw [val_main_v31_apply, val_main_v30_apply, val_main_v1_apply]
  exact congrArg A.rl (idx2_ext (Nat.div_one _) rfl)
theorem v44_ix (n : Fin 131072) : val_main_v44 (F := Ideal) A.rl (ix1 n) = col A n 10 := by
  rw [val_main_v44_apply, val_main_v43_apply, val_main_v1_apply]
  exact congrArg A.rl (idx2_ext (Nat.div_one _) rfl)
theorem v46_ix (n : Fin 131072) : val_main_v46 (F := Ideal) A.rl (ix1 n) = col A n 5 := by
  rw [val_main_v46_apply, val_main_v45_apply, val_main_v0_apply]
  exact congrArg A.rl (idx2_ext (Nat.div_one _) rfl)
theorem v50_ix (n : Fin 131072) : val_main_v50 (F := Ideal) A.rl (ix1 n) = col A n 11 := by
  rw [val_main_v50_apply, val_main_v49_apply, val_main_v1_apply]
  exact congrArg A.rl (idx2_ext (Nat.div_one _) rfl)
theorem v52_ix (n : Fin 131072) : val_main_v52 (F := Ideal) A.rl (ix1 n) = col A n 6 := by
  rw [val_main_v52_apply, val_main_v51_apply, val_main_v0_apply]
  exact congrArg A.rl (idx2_ext (Nat.div_one _) rfl)

/-! ## Widths and heights -/

theorem v6_ix (n : Fin 131072) : val_main_v6 (F := Ideal) A.rl (ix1 n) = sWid A n := by
  rw [val_main_v6_apply, v3_ix, v5_ix]; rfl
theorem v11_ix (n : Fin 131072) : val_main_v11 (F := Ideal) A.rl (ix1 n) = sHgt A n := by
  rw [val_main_v11_apply, v8_ix, v10_ix]; rfl
theorem v16_ix (n : Fin 131072) : val_main_v16 (F := Ideal) A.rl (ix1 n) = oWid A n := by
  rw [val_main_v16_apply, v13_ix, v15_ix]; rfl
theorem v21_ix (n : Fin 131072) : val_main_v21 (F := Ideal) A.rl (ix1 n) = oHgt A n := by
  rw [val_main_v21_apply, v18_ix, v20_ix]; rfl

/-! ## The eight features, one array each -/

theorem v27_ix (n : Fin 131072) : val_main_v27 (F := Ideal) A.rl (ix1 n) = feat A n 0 := by
  rw [val_main_v27_apply, val_main_v26_apply, v23_ix, v25_ix, v6_ix]; rfl
theorem v33_ix (n : Fin 131072) : val_main_v33 (F := Ideal) A.rl (ix1 n) = feat A n 1 := by
  rw [val_main_v33_apply, val_main_v32_apply, v29_ix, v31_ix, v11_ix]; rfl
theorem v35_ix (n : Fin 131072) : val_main_v35 (F := Ideal) A.rl (ix1 n) = feat A n 2 := by
  rw [val_main_v35_apply, val_main_v34_apply, v6_ix, v16_ix]; rfl
theorem v37_ix (n : Fin 131072) : val_main_v37 (F := Ideal) A.rl (ix1 n) = feat A n 3 := by
  rw [val_main_v37_apply, val_main_v36_apply, v11_ix, v21_ix]; rfl
theorem v48_ix (n : Fin 131072) : val_main_v48 (F := Ideal) A.rl (ix1 n) = feat A n 4 := by
  rw [val_main_v48_apply, val_main_v47_apply, v44_ix, v46_ix, v16_ix]; rfl
theorem v54_ix (n : Fin 131072) : val_main_v54 (F := Ideal) A.rl (ix1 n) = feat A n 5 := by
  rw [val_main_v54_apply, val_main_v53_apply, v50_ix, v52_ix, v21_ix]; rfl
theorem v56_ix (n : Fin 131072) : val_main_v56 (F := Ideal) A.rl (ix1 n) = feat A n 6 := by
  rw [val_main_v56_apply, val_main_v55_apply, v16_ix, v6_ix]; rfl
theorem v58_ix (n : Fin 131072) : val_main_v58 (F := Ideal) A.rl (ix1 n) = feat A n 7 := by
  rw [val_main_v58_apply, val_main_v57_apply, v21_ix, v11_ix]; rfl

end Cert.RelScore.Ref

end
-- ==== Proof.RefSide2.lean ====
/-
  The reference program read at an index, part 2: the feature table, the box score, the hidden layer,
  the language score and the score.

  A concatenation is read by naming the piece that holds the joined coordinate. The reference contracts one
  600-long row (relu of the subject vector followed by relu of the object vector) against W1; the sum over
  Fin 600 splits into its first 300 and its last 300 terms, which are the two halves of the specification.
-/
import proofs.«119460_j32547262169374_2_alg».proof.Proof.RefSide1
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.RelScore.Ref

open Cert.ReferenceIdeal Cert.ReferenceIdeal.Gen Cert.ReferenceIdeal.Read Idealize.ShloMosaic Idealize.ShloMosaic.ValueIdx Cert.RelScore

variable (A : Args 131072)

/-! ## The feature columns and their concatenations -/

theorem v38_ix (n : Fin 131072) : val_main_v38 (F := Ideal) A.rl (ix2 n 0) = feat A n 0 :=
  (val_main_v38_apply _ _).trans ((congrArg (val_main_v27 (F := Ideal) A.rl) (idx1_ext (q := ix1 n) rfl)).trans (v27_ix A n))
theorem v39_ix (n : Fin 131072) : val_main_v39 (F := Ideal) A.rl (ix2 n 0) = feat A n 1 :=
  (val_main_v39_apply _ _).trans ((congrArg (val_main_v33 (F := Ideal) A.rl) (idx1_ext (q := ix1 n) rfl)).trans (v33_ix A n))
theorem v40_ix (n : Fin 131072) : val_main_v40 (F := Ideal) A.rl (ix2 n 0) = feat A n 2 :=
  (val_main_v40_apply _ _).trans ((congrArg (val_main_v35 (F := Ideal) A.rl) (idx1_ext (q := ix1 n) rfl)).trans (v35_ix A n))
theorem v41_ix (n : Fin 131072) : val_main_v41 (F := Ideal) A.rl (ix2 n 0) = feat A n 3 :=
  (val_main_v41_apply _ _).trans ((congrArg (val_main_v37 (F := Ideal) A.rl) (idx1_ext (q := ix1 n) rfl)).trans (v37_ix A n))
theorem v59_ix (n : Fin 131072) : val_main_v59 (F := Ideal) A.rl (ix2 n 0) = feat A n 4 :=
  (val_main_v59_apply _ _).trans ((congrArg (val_main_v48 (F := Ideal) A.rl) (idx1_ext (q := ix1 n) rfl)).trans (v48_ix A n))
theorem v60_ix (n : Fin 131072) : val_main_v60 (F := Ideal) A.rl (ix2 n 0) = feat A n 5 :=
  (val_main_v60_apply _ _).trans ((congrArg (val_main_v54 (F := Ideal) A.rl) (idx1_ext (q := ix1 n) rfl)).trans (v54_ix A n))
theorem v61_ix (n : Fin 131072) : val_main_v61 (F := Ideal) A.rl (ix2 n 0) = feat A n 6 :=
  (val_main_v61_apply _ _).trans ((congrArg (val_main_v56 (F := Ideal) A.rl) (idx1_ext (q := ix1 n) rfl)).trans (v56_ix A n))
theorem v62_ix (n : Fin 131072) : val_main_v62 (F := Ideal) A.rl (ix2 n 0) = feat A n 7 :=
  (val_main_v62_apply _ _).trans ((congrArg (val_main_v58 (F := Ideal) A.rl) (idx1_ext (q := ix1 n) rfl)).trans (v58_ix A n))

/-- Column c of the subject half of the feature table is piece c of a four-piece concatenation. -/
theorem v42_0 (n : Fin 131072) : val_main_v42 (F := Ideal) A.rl (ix2 n 0) = feat A n 0 := by
  unfold val_main_v42
  exact (concatenate_apply_piece (t := S131072x4) 1 [⟨S131072x1, val_main_v38 (F := Ideal) A.rl⟩, ⟨S131072x1, val_main_v39 (F := Ideal) A.rl⟩, ⟨S131072x1, val_main_v40 (F := Ideal) A.rl⟩, ⟨S131072x1, val_main_v41 (F := Ideal) A.rl⟩]
    concatenates_S131072x1_S131072x1_S131072x1_S131072x1_S131072x4_d1 (ix2 n 0) 0 (by show (0 : Nat) < 4; decide) S131072x1 (val_main_v38 (F := Ideal) A.rl) rfl rfl 0 rfl
    (ix2 n 0) (fun b hb => by match b with | ⟨0, _⟩ => rfl | ⟨1, _⟩ => exact absurd rfl hb) rfl).trans (v38_ix A n)
theorem v42_1 (n : Fin 131072) : val_main_v42 (F := Ideal) A.rl (ix2 n 1) = feat A n 1 := by
  unfold val_main_v42
  exact (concatenate_apply_piece (t := S131072x4) 1 [⟨S131072x1, val_main_v38 (F := Ideal) A.rl⟩, ⟨S131072x1, val_main_v39 (F := Ideal) A.rl⟩, ⟨S131072x1, val_main_v40 (F := Ideal) A.rl⟩, ⟨S131072x1, val_main_v41 (F := Ideal) A.rl⟩]
    concatenates_S131072x1_S131072x1_S131072x1_S131072x1_S131072x4_d1 (ix2 n 1) 1 (by show (1 : Nat) < 4; decide) S131072x1 (val_main_v39 (F := Ideal) A.rl) rfl rfl 1 rfl
    (ix2 n 0) (fun b hb => by match b with | ⟨0, _⟩ => rfl | ⟨1, _⟩ => exact absurd rfl hb) rfl).trans (v39_ix A n)
theorem v42_2 (n : Fin 131072) : val_main_v42 (F := Ideal) A.rl (ix2 n 2) = feat A n 2 := by
  unfold val_main_v42
  exact (concatenate_apply_piece (t := S131072x4) 1 [⟨S131072x1, val_main_v38 (F := Ideal) A.rl⟩, ⟨S131072x1, val_main_v39 (F := Ideal) A.rl⟩, ⟨S131072x1, val_main_v40 (F := Ideal) A.rl⟩, ⟨S131072x1, val_main_v41 (F := Ideal) A.rl⟩]
    concatenates_S131072x1_S131072x1_S131072x1_S131072x1_S131072x4_d1 (ix2 n 2) 2 (by show (2 : Nat) < 4; decide) S131072x1 (val_main_v40 (F := Ideal) A.rl) rfl rfl 2 rfl
    (ix2 n 0) (fun b hb => by match b with | ⟨0, _⟩ => rfl | ⟨1, _⟩ => exact absurd rfl hb) rfl).trans (v40_ix A n)
theorem v42_3 (n : Fin 131072) : val_main_v42 (F := Ideal) A.rl (ix2 n 3) = feat A n 3 := by
  unfold val_main_v42
  exact (concatenate_apply_piece (t := S131072x4) 1 [⟨S131072x1, val_main_v38 (F := Ideal) A.rl⟩, ⟨S131072x1, val_main_v39 (F := Ideal) A.rl⟩, ⟨S131072x1, val_main_v40 (F := Ideal) A.rl⟩, ⟨S131072x1, val_main_v41 (F := Ideal) A.rl⟩]
    concatenates_S131072x1_S131072x1_S131072x1_S131072x1_S131072x4_d1 (ix2 n 3) 3 (by show (3 : Nat) < 4; decide) S131072x1 (val_main_v41 (F := Ideal) A.rl) rfl rfl 3 rfl
    (ix2 n 0) (fun b hb => by match b with | ⟨0, _⟩ => rfl | ⟨1, _⟩ => exact absurd rfl hb) rfl).trans (v41_ix A n)

/-- The same for the object half. -/
theorem v63_0 (n : Fin 131072) : val_main_v63 (F := Ideal) A.rl (ix2 n 0) = feat A n 4 := by
  unfold val_main_v63
  exact (concatenate_apply_piece (t := S131072x4) 1 [⟨S131072x1, val_main_v59 (F := Ideal) A.rl⟩, ⟨S131072x1, val_main_v60 (F := Ideal) A.rl⟩, ⟨S131072x1, val_main_v61 (F := Ideal) A.rl⟩, ⟨S131072x1, val_main_v62 (F := Ideal) A.rl⟩]
    concatenates_S131072x1_S131072x1_S131072x1_S131072x1_S131072x4_d1 (ix2 n 0) 0 (by show (0 : Nat) < 4; decide) S131072x1 (val_main_v59 (F := Ideal) A.rl) rfl rfl 0 rfl
    (ix2 n 0) (fun b hb => by match b with | ⟨0, _⟩ => rfl | ⟨1, _⟩ => exact absurd rfl hb) rfl).trans (v59_ix A n)
theorem v63_1 (n : Fin 131072) : val_main_v63 (F := Ideal) A.rl (ix2 n 1) = feat A n 5 := by
  unfold val_main_v63
  exact (concatenate_apply_piece (t := S131072x4) 1 [⟨S131072x1, val_main_v59 (F := Ideal) A.rl⟩, ⟨S131072x1, val_main_v60 (F := Ideal) A.rl⟩, ⟨S131072x1, val_main_v61 (F := Ideal) A.rl⟩, ⟨S131072x1, val_main_v62 (F := Ideal) A.rl⟩]
    concatenates_S131072x1_S131072x1_S131072x1_S131072x1_S131072x4_d1 (ix2 n 1) 1 (by show (1 : Nat) < 4; decide) S131072x1 (val_main_v60 (F := Ideal) A.rl) rfl rfl 1 rfl
    (ix2 n 0) (fun b hb => by match b with | ⟨0, _⟩ => rfl | ⟨1, _⟩ => exact absurd rfl hb) rfl).trans (v60_ix A n)
theorem v63_2 (n : Fin 131072) : val_main_v63 (F := Ideal) A.rl (ix2 n 2) = feat A n 6 := by
  unfold val_main_v63
  exact (concatenate_apply_piece (t := S131072x4) 1 [⟨S131072x1, val_main_v59 (F := Ideal) A.rl⟩, ⟨S131072x1, val_main_v60 (F := Ideal) A.rl⟩, ⟨S131072x1, val_main_v61 (F := Ideal) A.rl⟩, ⟨S131072x1, val_main_v62 (F := Ideal) A.rl⟩]
    concatenates_S131072x1_S131072x1_S131072x1_S131072x1_S131072x4_d1 (ix2 n 2) 2 (by show (2 : Nat) < 4; decide) S131072x1 (val_main_v61 (F := Ideal) A.rl) rfl rfl 2 rfl
    (ix2 n 0) (fun b hb => by match b with | ⟨0, _⟩ => rfl | ⟨1, _⟩ => exact absurd rfl hb) rfl).trans (v61_ix A n)
theorem v63_3 (n : Fin 131072) : val_main_v63 (F := Ideal) A.rl (ix2 n 3) = feat A n 7 := by
  unfold val_main_v63
  exact (concatenate_apply_piece (t := S131072x4) 1 [⟨S131072x1, val_main_v59 (F := Ideal) A.rl⟩, ⟨S131072x1, val_main_v60 (F := Ideal) A.rl⟩, ⟨S131072x1, val_main_v61 (F := Ideal) A.rl⟩, ⟨S131072x1, val_main_v62 (F := Ideal) A.rl⟩]
    concatenates_S131072x1_S131072x1_S131072x1_S131072x1_S131072x4_d1 (ix2 n 3) 3 (by show (3 : Nat) < 4; decide) S131072x1 (val_main_v62 (F := Ideal) A.rl) rfl rfl 3 rfl
    (ix2 n 0) (fun b hb => by match b with | ⟨0, _⟩ => rfl | ⟨1, _⟩ => exact absurd rfl hb) rfl).trans (v62_ix A n)

/-- The first four columns of the 8-column table are the subject half. -/
theorem v65_lo (n : Fin 131072) (c : Fin 4) :
    val_main_v65 (F := Ideal) A.rl (ix2 n (⟨c.val, by omega⟩ : Fin 8)) = val_main_v42 (F := Ideal) A.rl (ix2 n c) := by
  unfold val_main_v65
  exact concatenate_pair_apply_left (t := S131072x8) (s₁ := S131072x4) (s₂ := S131072x4) 1 (val_main_v42 (F := Ideal) A.rl) (val_main_v63 (F := Ideal) A.rl)
    concatenates_S131072x4_S131072x4_S131072x8_d1 (ix2 n (⟨c.val, by omega⟩ : Fin 8)) rfl (ix2 n c)
    (fun b => by match b with | ⟨0, _⟩ => rfl | ⟨1, _⟩ => rfl)
/-- The last four are the object half. -/
theorem v65_hi (n : Fin 131072) (c : Fin 4) :
    val_main_v65 (F := Ideal) A.rl (ix2 n (⟨4 + c.val, by omega⟩ : Fin 8)) = val_main_v63 (F := Ideal) A.rl (ix2 n c) := by
  unfold val_main_v65
  exact concatenate_pair_apply_right (t := S131072x8) (s₁ := S131072x4) (s₂ := S131072x4) 1 (val_main_v42 (F := Ideal) A.rl) (val_main_v63 (F := Ideal) A.rl)
    concatenates_S131072x4_S131072x4_S131072x8_d1 (ix2 n (⟨4 + c.val, by omega⟩ : Fin 8)) rfl rfl (ix2 n c)
    (fun b hb => by match b with | ⟨0, _⟩ => rfl | ⟨1, _⟩ => exact absurd rfl hb)
    (by show c.val + 4 = 4 + c.val; omega)

/-- The 8-column feature table is the specification's feature vector, row by row. -/
theorem v65_ix (n : Fin 131072) (k : Fin 8) : val_main_v65 (F := Ideal) A.rl (ix2 n k) = feat A n k := by
  fin_cases k
  · exact (v65_lo A n 0).trans (v42_0 A n)
  · exact (v65_lo A n 1).trans (v42_1 A n)
  · exact (v65_lo A n 2).trans (v42_2 A n)
  · exact (v65_lo A n 3).trans (v42_3 A n)
  · exact (v65_hi A n 0).trans (v63_0 A n)
  · exact (v65_hi A n 1).trans (v63_1 A n)
  · exact (v65_hi A n 2).trans (v63_2 A n)
  · exact (v65_hi A n 3).trans (v63_3 A n)

/-! ## The box score -/

theorem v76_ix (n : Fin 131072) :
    val_main_v76 (F := Ideal) A.rl A.sw (ix2 n 0) = ∑ k : Fin 8, feat A n k * A.sw (ix2 k 0) := by
  rw [val_main_v76_apply]
  refine Finset.sum_congr rfl fun k _ => ?_
  exact congrArg₂ (· * ·) ((congrArg (val_main_v65 (F := Ideal) A.rl) (show lidx_main_v76 (ix2 n 0) k = ix2 n k from idx2_ext rfl rfl)).trans (v65_ix A n k))
    (congrArg A.sw (idx2_ext rfl rfl))

theorem v79_ix (n : Fin 131072) : val_main_v79 (F := Ideal) A.rl A.sw A.sb (ix2 n 0) = box A n := by
  rw [val_main_v79_apply, v76_ix, val_main_v78_apply, val_main_v77_apply]
  exact congrArg (fun z => (∑ k : Fin 8, feat A n k * A.sw (ix2 k 0)) + A.sb z) (idx1_ext rfl)

/-! ## The 600-long row and the hidden layer -/

/-- A position below 300 of the joined row is in the subject vector. -/
theorem v64_lo (i : S131072x600.Idx) (n : Fin 131072) (k : Fin 300) (h0 : (i 0).val = n.val) (h1 : (i 1).val = k.val) :
    val_main_v64 (F := Ideal) A.sbj A.obj i = A.sbj (ix2 n k) := by
  unfold val_main_v64
  exact concatenate_pair_apply_left (t := S131072x600) (s₁ := S131072x300) (s₂ := S131072x300) 1 A.sbj A.obj
    concatenates_S131072x300_S131072x300_S131072x600_d1 i rfl (ix2 n k)
    (fun b => by match b with | ⟨0, _⟩ => exact h0.symm | ⟨1, _⟩ => exact h1.symm)
/-- A position 300 + k is position k of the object vector. -/
theorem v64_hi (i : S131072x600.Idx) (n : Fin 131072) (k : Fin 300) (h0 : (i 0).val = n.val) (h1 : (i 1).val = 300 + k.val) :
    val_main_v64 (F := Ideal) A.sbj A.obj i = A.obj (ix2 n k) := by
  unfold val_main_v64
  exact concatenate_pair_apply_right (t := S131072x600) (s₁ := S131072x300) (s₂ := S131072x300) 1 A.sbj A.obj
    concatenates_S131072x300_S131072x300_S131072x600_d1 i rfl rfl (ix2 n k)
    (fun b hb => by match b with | ⟨0, _⟩ => exact h0.symm | ⟨1, _⟩ => exact absurd rfl hb)
    (by show k.val + 300 = (i 1).val; omega)

theorem v66_lo (i : S131072x600.Idx) (n : Fin 131072) (k : Fin 300) (h0 : (i 0).val = n.val) (h1 : (i 1).val = k.val) :
    val_main_v66 (F := Ideal) A.sbj A.obj i = relu (A.sbj (ix2 n k)) := by
  rw [val_main_v66_apply, v64_lo A i n k h0 h1, val_main_call0_v0_apply]; rfl
theorem v66_hi (i : S131072x600.Idx) (n : Fin 131072) (k : Fin 300) (h0 : (i 0).val = n.val) (h1 : (i 1).val = 300 + k.val) :
    val_main_v66 (F := Ideal) A.sbj A.obj i = relu (A.obj (ix2 n k)) := by
  rw [val_main_v66_apply, v64_hi A i n k h0 h1, val_main_call0_v0_apply]; rfl

/-- The 600-long contraction is the sum of its two 300-long halves. -/
theorem v67_ix (n : Fin 131072) (j : Fin 300) :
    val_main_v67 (F := Ideal) A.sbj A.obj A.w1 (ix2 n j)
      = (∑ k : Fin 300, relu (A.sbj (ix2 n k)) * A.w1 (ix2 (⟨k.val, by omega⟩ : Fin 600) j))
        + ∑ k : Fin 300, relu (A.obj (ix2 n k)) * A.w1 (ix2 (⟨300 + k.val, by omega⟩ : Fin 600) j) := by
  rw [val_main_v67_apply]
  refine (Fin.sum_univ_add (a := 300) (b := 300) _).trans ?_
  refine congrArg₂ (· + ·) (Finset.sum_congr rfl fun k _ => ?_) (Finset.sum_congr rfl fun k _ => ?_)
  · exact congrArg₂ (· * ·) (v66_lo A (lidx_main_v67 (ix2 n j) (Fin.castAdd 300 k)) n k rfl rfl)
      (congrArg A.w1 (idx2_ext rfl rfl))
  · exact congrArg₂ (· * ·) (v66_hi A (lidx_main_v67 (ix2 n j) (Fin.natAdd 300 k)) n k rfl rfl)
      (congrArg A.w1 (idx2_ext rfl rfl))

theorem v70_ix (n : Fin 131072) (j : Fin 300) :
    val_main_v70 (F := Ideal) A.sbj A.obj A.w1 A.b1 (ix2 n j) = pre A n j := by
  rw [val_main_v70_apply, v67_ix, val_main_v69_apply, val_main_v68_apply]
  exact congrArg (fun z => ((∑ k : Fin 300, relu (A.sbj (ix2 n k)) * A.w1 (ix2 (⟨k.val, by omega⟩ : Fin 600) j))
        + ∑ k : Fin 300, relu (A.obj (ix2 n k)) * A.w1 (ix2 (⟨300 + k.val, by omega⟩ : Fin 600) j)) + A.b1 z) (idx1_ext rfl)

theorem v71_ix (n : Fin 131072) (j : Fin 300) :
    val_main_v71 (F := Ideal) A.sbj A.obj A.w1 A.b1 (ix2 n j) = relu (pre A n j) := by
  rw [val_main_v71_apply, v70_ix, val_main_call1_v0_apply]; rfl

/-! ## The language score and the score -/

theorem v72_ix (n : Fin 131072) :
    val_main_v72 (F := Ideal) A.sbj A.obj A.w1 A.b1 A.w2 (ix2 n 0) = ∑ j : Fin 300, relu (pre A n j) * A.w2 (ix2 j 0) := by
  rw [val_main_v72_apply]
  refine Finset.sum_congr rfl fun k _ => ?_
  exact congrArg₂ (· * ·)
    ((congrArg (val_main_v71 (F := Ideal) A.sbj A.obj A.w1 A.b1) (show lidx_main_v72 (ix2 n 0) k = ix2 n k from idx2_ext rfl rfl)).trans (v71_ix A n k))
    (congrArg A.w2 (idx2_ext rfl rfl))

theorem v75_ix (n : Fin 131072) :
    val_main_v75 (F := Ideal) A.sbj A.obj A.w1 A.b1 A.w2 A.b2 (ix2 n 0) = lan A n := by
  rw [val_main_v75_apply, v72_ix, val_main_v74_apply, val_main_v73_apply]
  exact congrArg (fun z => (∑ j : Fin 300, relu (pre A n j) * A.w2 (ix2 j 0)) + A.b2 z) (idx1_ext rfl)

/-- The reference's sigmoid, spelled with negate, exponential, add and divide over the word 1.0, is the logistic. -/
theorem v86_ix (n : Fin 131072) :
    val_main_v86 (F := Ideal) A.sbj A.obj A.rl A.sw A.sb A.w1 A.b1 A.w2 A.b2 (ix2 n 0) = score A n := by
  rw [val_main_v86_apply, val_main_v85_apply, val_main_v84_apply, val_main_v83_apply, val_main_v82_apply,
    val_main_v81_apply, val_main_v80_apply, v75_ix, v79_ix]
  show Ideal.div (Ideal.ofBits .f32 0x3F800000#32) (Ideal.ofBits .f32 0x3F800000#32 + Ideal.exp (-(lan A n + box A n))) = _
  rw [Ideal.ofBits_one_f32]; rfl

/-- Result 0 of the reference is the score column. -/
theorem scores_eq :
    val_main_v86 (F := Ideal) A.sbj A.obj A.rl A.sw A.sb A.w1 A.b1 A.w2 A.b2 = scores A := by
  funext i
  obtain ⟨n, q, rfl⟩ : ∃ (n : Fin 131072) (q : Fin 1), i = ix2 n q := ⟨i 0, i 1, eq_ix2 i⟩
  obtain rfl : q = 0 := Subsingleton.elim _ _
  exact v86_ix A n

end Cert.RelScore.Ref

end
-- ==== Proof.RefSide3.lean ====
/-
  The reference program read at an index, part 3: the label, the cross-entropy term, the four indicators,
  the five sums over all rows and the five results.

  A sum over the rank-1 index set of 131072 rows is the sum over the row number; the reference starts each
  sum from the zero word, which adds nothing.
-/
import proofs.«119460_j32547262169374_2_alg».proof.Proof.RefSide2
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.RelScore.Ref

open Cert.ReferenceIdeal Cert.ReferenceIdeal.Gen Cert.ReferenceIdeal.Read Idealize.ShloMosaic Idealize.ShloMosaic.ValueIdx Cert.RelScore

/-- A rank-1 index is its one coordinate. -/
def idxEquiv1 {m : Nat} : (⟨1, ![m]⟩ : Shape).Idx ≃ Fin m where
  toFun j := j 0
  invFun n := ix1 n
  left_inv j := (eq_ix1 j).symm
  right_inv _ := rfl

/-- A sum over the rank-1 index set is the sum over the coordinate. -/
theorem sum_idx1 {M : Type*} [AddCommMonoid M] {m : Nat} (f : (⟨1, ![m]⟩ : Shape).Idx → M) :
    ∑ j, f j = ∑ n : Fin m, f (ix1 n) :=
  (Equiv.sum_comp (idxEquiv1 (m := m)).symm f).symm

/-- The reference's sum over all rows, started from the zero word, is the total. -/
theorem reduce_eq (c : EReal) (hc : c = Ideal.ofBits .f32 0x00000000#32) (f : S131072.Idx → EReal)
    (g : Fin 131072 → EReal) (h : ∀ n, f (ix1 n) = g n) :
    c + ∑ j : S131072.Idx, f j = total g := by
  rw [hc, Ideal.ofBits_zero_f32, zero_add, sum_idx1]
  exact Finset.sum_congr rfl fun n _ => h n

variable (A : Args 131072)

/-! ## The label and the score as rank-1 arrays -/

theorem v88_ix (n : Fin 131072) : val_main_v88 (F := Ideal) A.rl (ix1 n) = col A n 4 := by
  rw [val_main_v88_apply, val_main_v87_apply]
  exact congrArg A.rl (idx2_ext (Nat.div_one _) rfl)
theorem v90_ix (n : Fin 131072) : val_main_v90 (F := Ideal) A.rl (ix1 n) = lab A n := by
  rw [val_main_v90_apply, v88_ix, val_main_v89_apply]; rfl
theorem v91_ix (n : Fin 131072) : val_main_v91 (F := Ideal) A.rl (ix1 n) = y A n := by
  rw [val_main_v91_apply, v90_ix]; rfl
theorem v92_ix (n : Fin 131072) : val_main_v92 (F := Ideal) A.sbj A.obj A.rl A.sw A.sb A.w1 A.b1 A.w2 A.b2 (ix1 n) = score A n := by
  rw [val_main_v92_apply]
  exact (congrArg (val_main_v86 (F := Ideal) A.sbj A.obj A.rl A.sw A.sb A.w1 A.b1 A.w2 A.b2) (show idx_main_v92 (ix1 n) = ix2 n 0 from idx2_ext (Nat.div_one _) rfl)).trans (v86_ix A n)

/-! ## The two clamped logarithms and the cross-entropy term -/

/-- The reference floors the logarithm with the floor as the first operand of the maximum; the maximum is symmetric. -/
theorem v95_ix (n : Fin 131072) : val_main_v95 (F := Ideal) A.sbj A.obj A.rl A.sw A.sb A.w1 A.b1 A.w2 A.b2 (ix1 n) = clampLog (score A n) := by
  rw [val_main_v95_apply, val_main_call3_v1_apply, val_main_v94_apply, val_main_v93_apply, val_main_call2_v4_apply,
    val_main_call2_v2_apply, val_main_call2_v1_apply, v92_ix]
  show max floorW (Ideal.log (min oneW (max epsW (score A n)))) = _
  exact max_comm _ _
theorem v97_ix (n : Fin 131072) : val_main_v97 (F := Ideal) A.sbj A.obj A.rl A.sw A.sb A.w1 A.b1 A.w2 A.b2 (ix1 n) = oneW - score A n := by
  rw [val_main_v97_apply, val_main_v96_apply, v92_ix]; rfl
theorem v100_ix (n : Fin 131072) : val_main_v100 (F := Ideal) A.sbj A.obj A.rl A.sw A.sb A.w1 A.b1 A.w2 A.b2 (ix1 n) = clampLog (oneW - score A n) := by
  rw [val_main_v100_apply, val_main_call5_v1_apply, val_main_v99_apply, val_main_v98_apply, val_main_call4_v4_apply,
    val_main_call4_v2_apply, val_main_call4_v1_apply, v97_ix]
  show max floorW (Ideal.log (min oneW (max epsW (oneW - score A n)))) = _
  exact max_comm _ _
theorem v105_ix (n : Fin 131072) : val_main_v105 (F := Ideal) A.sbj A.obj A.rl A.sw A.sb A.w1 A.b1 A.w2 A.b2 (ix1 n) = term A n := by
  rw [val_main_v105_apply, val_main_v101_apply, val_main_v104_apply, val_main_v103_apply, val_main_v102_apply,
    v91_ix, v95_ix, v100_ix]; rfl

/-! ## The indicators -/

theorem v110_ix (n : Fin 131072) : val_main_v110 (F := Ideal) A.rl (ix1 n) = isNeg A n := by
  rw [val_main_v110_apply, v91_ix, val_main_v109_apply]; rfl
theorem v111_ix (n : Fin 131072) : val_main_v111 (F := Ideal) A.rl (ix1 n) = isPos A n := by
  rw [val_main_v111_apply, v110_ix]; rfl
theorem v112_ix (n : Fin 131072) : val_main_v112 (F := Ideal) A.rl (ix1 n) = ind (isPos A n) := by
  rw [val_main_v112_apply, v111_ix]; rfl
theorem v114_ix (n : Fin 131072) : val_main_v114 (F := Ideal) A.rl (ix1 n) = ind (isNeg A n) := by
  rw [val_main_v114_apply, v110_ix]; rfl
theorem v118_ix (n : Fin 131072) : val_main_v118 (F := Ideal) A.sbj A.obj A.rl A.sw A.sb A.w1 A.b1 A.w2 A.b2 (ix1 n) = negHigh A n := by
  rw [val_main_v118_apply, v110_ix, val_main_v117_apply, v92_ix, val_main_v116_apply]; rfl
theorem v119_ix (n : Fin 131072) : val_main_v119 (F := Ideal) A.sbj A.obj A.rl A.sw A.sb A.w1 A.b1 A.w2 A.b2 (ix1 n) = ind (negHigh A n) := by
  rw [val_main_v119_apply, v118_ix]; rfl
theorem v123_ix (n : Fin 131072) : val_main_v123 (F := Ideal) A.sbj A.obj A.rl A.sw A.sb A.w1 A.b1 A.w2 A.b2 (ix1 n) = posLow A n := by
  rw [val_main_v123_apply, v111_ix, val_main_v122_apply, v92_ix, val_main_v121_apply]; rfl
theorem v124_ix (n : Fin 131072) : val_main_v124 (F := Ideal) A.sbj A.obj A.rl A.sw A.sb A.w1 A.b1 A.w2 A.b2 (ix1 n) = ind (posLow A n) := by
  rw [val_main_v124_apply, v123_ix]; rfl

/-! ## The five sums over all rows -/

theorem v106_eq (i : S_.Idx) : val_main_v106 (F := Ideal) A.sbj A.obj A.rl A.sw A.sb A.w1 A.b1 A.w2 A.b2 i = total (term A) :=
  (val_main_v106_apply _ _ _ _ _ _ _ _ _ i).trans (reduce_eq _ rfl _ _ (v105_ix A))
theorem v113_eq (i : S_.Idx) : val_main_v113 (F := Ideal) A.rl i = nPos A :=
  (val_main_v113_apply _ i).trans (reduce_eq _ rfl _ _ (v112_ix A))
theorem v115_eq (i : S_.Idx) : val_main_v115 (F := Ideal) A.rl i = nNeg A :=
  (val_main_v115_apply _ i).trans (reduce_eq _ rfl _ _ (v114_ix A))
theorem v120_eq (i : S_.Idx) : val_main_v120 (F := Ideal) A.sbj A.obj A.rl A.sw A.sb A.w1 A.b1 A.w2 A.b2 i = nNegHigh A :=
  (val_main_v120_apply _ _ _ _ _ _ _ _ _ i).trans (reduce_eq _ rfl _ _ (v119_ix A))
theorem v125_eq (i : S_.Idx) : val_main_v125 (F := Ideal) A.sbj A.obj A.rl A.sw A.sb A.w1 A.b1 A.w2 A.b2 i = nPosLow A :=
  (val_main_v125_apply _ _ _ _ _ _ _ _ _ i).trans (reduce_eq _ rfl _ _ (v124_ix A))

/-! ## The results -/

theorem loss_eq (i : S_.Idx) : val_main_v108 (F := Ideal) A.sbj A.obj A.rl A.sw A.sb A.w1 A.b1 A.w2 A.b2 i = loss A := by
  rw [val_main_v108_apply, val_main_v107_apply, v106_eq]; rfl
theorem ratio1_eq (i : S_.Idx) : val_main_v126 (F := Ideal) A.sbj A.obj A.rl A.sw A.sb A.w1 A.b1 A.w2 A.b2 i = ratio1 A := by
  rw [val_main_v126_apply, v120_eq, v113_eq]; rfl
theorem ratio2_eq (i : S_.Idx) : val_main_v127 (F := Ideal) A.sbj A.obj A.rl A.sw A.sb A.w1 A.b1 A.w2 A.b2 i = ratio2 A := by
  rw [val_main_v127_apply, v125_eq, v115_eq]; rfl
theorem ratio3_eq (i : S_.Idx) : val_main_v130 (F := Ideal) A.sbj A.obj A.rl A.sw A.sb A.w1 A.b1 A.w2 A.b2 i = ratio3 A := by
  rw [val_main_v130_apply, val_main_v128_apply, val_main_v129_apply, v120_eq, v125_eq, v113_eq, v115_eq]; rfl

end Cert.RelScore.Ref

end
-- ==== Proof.RefSide.lean ====
/-
  The reference side: the five results of the reference program, as functions of its nine argument arrays,
  are the five results of the specification.
-/
import proofs.«119460_j32547262169374_2_alg».proof.Proof.RefSide3
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.RelScore.Ref

open Cert.ReferenceIdeal Cert.ReferenceIdeal.Gen Cert.ReferenceIdeal.Read Idealize.ShloMosaic Idealize.ShloMosaic.ValueIdx Cert.RelScore

/-- The specification's argument record built from the reference's nine argument arrays. -/
def argsOf (x0 x1 : (⟨S131072x300, .f32⟩ : BufTy).Contents (Elt Ideal)) (x2 : (⟨S131072x15, .f32⟩ : BufTy).Contents (Elt Ideal))
    (x3 : (⟨S8x1, .f32⟩ : BufTy).Contents (Elt Ideal)) (x4 : (⟨S1, .f32⟩ : BufTy).Contents (Elt Ideal))
    (x5 : (⟨S600x300, .f32⟩ : BufTy).Contents (Elt Ideal)) (x6 : (⟨S300, .f32⟩ : BufTy).Contents (Elt Ideal))
    (x7 : (⟨S300x1, .f32⟩ : BufTy).Contents (Elt Ideal)) (x8 : (⟨S1, .f32⟩ : BufTy).Contents (Elt Ideal)) : Args 131072 :=
  { sbj := x0, obj := x1, rl := x2, sw := x3, sb := x4, w1 := x5, b1 := x6, w2 := x7, b2 := x8 }

variable (x0 x1 : (⟨S131072x300, .f32⟩ : BufTy).Contents (Elt Ideal)) (x2 : (⟨S131072x15, .f32⟩ : BufTy).Contents (Elt Ideal))
    (x3 : (⟨S8x1, .f32⟩ : BufTy).Contents (Elt Ideal)) (x4 : (⟨S1, .f32⟩ : BufTy).Contents (Elt Ideal))
    (x5 : (⟨S600x300, .f32⟩ : BufTy).Contents (Elt Ideal)) (x6 : (⟨S300, .f32⟩ : BufTy).Contents (Elt Ideal))
    (x7 : (⟨S300x1, .f32⟩ : BufTy).Contents (Elt Ideal)) (x8 : (⟨S1, .f32⟩ : BufTy).Contents (Elt Ideal))

theorem ref_scores : val_main_v86 (F := Ideal) x0 x1 x2 x3 x4 x5 x6 x7 x8 = scores (argsOf x0 x1 x2 x3 x4 x5 x6 x7 x8) :=
  scores_eq (argsOf x0 x1 x2 x3 x4 x5 x6 x7 x8)

theorem ref_loss : val_main_v108 (F := Ideal) x0 x1 x2 x3 x4 x5 x6 x7 x8 = fun _ => loss (argsOf x0 x1 x2 x3 x4 x5 x6 x7 x8) :=
  funext fun i => loss_eq (argsOf x0 x1 x2 x3 x4 x5 x6 x7 x8) i

theorem ref_ratio1 : val_main_v126 (F := Ideal) x0 x1 x2 x3 x4 x5 x6 x7 x8 = fun _ => ratio1 (argsOf x0 x1 x2 x3 x4 x5 x6 x7 x8) :=
  funext fun i => ratio1_eq (argsOf x0 x1 x2 x3 x4 x5 x6 x7 x8) i

theorem ref_ratio2 : val_main_v127 (F := Ideal) x0 x1 x2 x3 x4 x5 x6 x7 x8 = fun _ => ratio2 (argsOf x0 x1 x2 x3 x4 x5 x6 x7 x8) :=
  funext fun i => ratio2_eq (argsOf x0 x1 x2 x3 x4 x5 x6 x7 x8) i

theorem ref_ratio3 : val_main_v130 (F := Ideal) x0 x1 x2 x3 x4 x5 x6 x7 x8 = fun _ => ratio3 (argsOf x0 x1 x2 x3 x4 x5 x6 x7 x8) :=
  funext fun i => ratio3_eq (argsOf x0 x1 x2 x3 x4 x5 x6 x7 x8) i

end Cert.RelScore.Ref

end
-- ==== Proof.SpecRows.lean ====
/-
  A row's score, cross-entropy term and indicators depend only on that row's entries and on the weights:
  two tables (of any numbers of rows) that agree on one row each, and have the same weights, give that row the same values.
  This is what lets one block of 2048 rows be scored by itself.
-/
import proofs.«119460_j32547262169374_2_alg».proof.Proof.Spec

noncomputable section

open scoped BigOperators

namespace Cert.RelScore

open Idealize.ShloMosaic Idealize.ShloMosaic.ValueIdx

variable {N N' : Nat} (A : Args N) (B : Args N') (n : Fin N) (r : Fin N')

/-- Row n of A and row r of B hold the same entries, and A and B have the same weights. -/
structure SameRow : Prop where
  sbj : ∀ k, A.sbj (ix2 n k) = B.sbj (ix2 r k)
  obj : ∀ k, A.obj (ix2 n k) = B.obj (ix2 r k)
  rl : ∀ k, A.rl (ix2 n k) = B.rl (ix2 r k)
  sw : A.sw = B.sw
  sb : A.sb = B.sb
  w1 : A.w1 = B.w1
  b1 : A.b1 = B.b1
  w2 : A.w2 = B.w2
  b2 : A.b2 = B.b2

variable {A B n r}

theorem SameRow.col (h : SameRow A B n r) (k : Fin 15) : col A n k = col B r k := h.rl k

theorem SameRow.feat (h : SameRow A B n r) : feat A n = feat B r := by
  unfold Cert.RelScore.feat sWid sHgt oWid oHgt
  simp only [h.col]

theorem SameRow.box (h : SameRow A B n r) : box A n = box B r := by
  unfold Cert.RelScore.box
  rw [h.feat, h.sw, h.sb]

theorem SameRow.pre (h : SameRow A B n r) (j : Fin 300) : pre A n j = pre B r j := by
  unfold Cert.RelScore.pre
  simp only [h.sbj, h.obj, h.w1, h.b1]

theorem SameRow.lan (h : SameRow A B n r) : lan A n = lan B r := by
  unfold Cert.RelScore.lan
  simp only [h.pre, h.w2, h.b2]

theorem SameRow.score (h : SameRow A B n r) : score A n = score B r := by
  unfold Cert.RelScore.score
  rw [h.lan, h.box]

theorem SameRow.y (h : SameRow A B n r) : y A n = y B r := by
  unfold Cert.RelScore.y lab
  rw [h.col]

theorem SameRow.term (h : SameRow A B n r) : term A n = term B r := by
  unfold Cert.RelScore.term
  rw [h.y, h.score]

theorem SameRow.isNeg (h : SameRow A B n r) : isNeg A n = isNeg B r := by
  unfold Cert.RelScore.isNeg
  rw [h.y]

theorem SameRow.isPos (h : SameRow A B n r) : isPos A n = isPos B r := by
  unfold Cert.RelScore.isPos
  rw [h.isNeg]

theorem SameRow.negHigh (h : SameRow A B n r) : negHigh A n = negHigh B r := by
  unfold Cert.RelScore.negHigh
  rw [h.isNeg, h.score]

theorem SameRow.posLow (h : SameRow A B n r) : posLow A n = posLow B r := by
  unfold Cert.RelScore.posLow
  rw [h.isPos, h.score]

end Cert.RelScore

end
-- ==== Proof.KDefs.lean ====
/-
  The kernel side's vocabulary.

  At grid point t (t = 32 * core + step, 64 points) the kernel's body sees ONE block of 2048 rows: the rows
  2048 t … 2048 t + 2047 of the subject and object tables, the same columns of the TRANSPOSED relation table, and the
  weights (the biases and the two scalars as 1×300 and 1×1 blocks). `blockArgs` reads those nine blocks as an argument
  table of 2048 rows, so that the body's result is the specification's own functions of that small table.
  The body adds five sums over the block's rows — minus the cross-entropy terms, and the four indicator counts — into
  the cells (0,0) … (4,0) of an 8×128 accumulator that is zero elsewhere: `incs`, `accOf`, `accUpd`.
-/
import proofs.«119460_j32547262169374_2_alg».proof.Proof.Gen.KernelIdeal.Frame
import proofs.«119460_j32547262169374_2_alg».proof.Proof.SpecRows
import Idealize.ShloMosaic.Lib.ValueIdx

noncomputable section

open scoped BigOperators

namespace Cert.RelScore.K

open Idealize.ShloMosaic Idealize.ShloMosaic.TcCoe Idealize.SL.Sem Idealize.ShloMosaic.ValueIdx
open Cert.KernelIdeal Cert.KernelIdeal.Gen Cert.RelScore

/-- The nine blocks of one grid point as an argument table of 2048 rows: the relation block arrives transposed
    (15 × 2048), the two biases as 1×300 and 1×1 blocks, the box bias as a 1×1 block. -/
def blockArgs (x0 x1 : Vec Ideal S2048x300 .f32) (x2 : Vec Ideal S15x2048 .f32) (x3 : Vec Ideal S600x300 .bf16)
    (x4 : Vec Ideal S1x300 .f32) (x5 : Vec Ideal S300x1 .bf16) (x6 : Vec Ideal S1x1 .f32) (x7 : Vec Ideal S8x1 .f32)
    (x8 : Vec Ideal S1x1 .f32) : Args 2048 where
  sbj := x0
  obj := x1
  rl := fun i => x2 (ix2 (i 1) (i 0))
  sw := x7
  sb := fun _ => x8 (ix2 0 0)
  w1 := x3
  b1 := fun i => x4 (ix2 0 (i 0))
  w2 := x5
  b2 := fun _ => x6 (ix2 0 0)

/-- The five sums a table contributes: minus the cross-entropy terms, the positives, the negatives, the negatives
    scored at least one half, the positives scored below one half. -/
def incs {N : Nat} (B : Args N) : Fin 5 → EReal
  | ⟨0, _⟩ => ∑ r, (zeroW - term B r)
  | ⟨1, _⟩ => ∑ r, ind (isPos B r)
  | ⟨2, _⟩ => ∑ r, ind (isNeg B r)
  | ⟨3, _⟩ => ∑ r, ind (negHigh B r)
  | ⟨4, _⟩ => ∑ r, ind (posLow B r)
  | ⟨_ + 5, h⟩ => absurd h (by omega)

theorem incs_0 {N : Nat} (B : Args N) : incs B 0 = ∑ r, (zeroW - term B r) := rfl
theorem incs_1 {N : Nat} (B : Args N) : incs B 1 = ∑ r, ind (isPos B r) := rfl
theorem incs_2 {N : Nat} (B : Args N) : incs B 2 = ∑ r, ind (isNeg B r) := rfl
theorem incs_3 {N : Nat} (B : Args N) : incs B 3 = ∑ r, ind (negHigh B r) := rfl
theorem incs_4 {N : Nat} (B : Args N) : incs B 4 = ∑ r, ind (posLow B r) := rfl

/-- The same five quantities row by row, for the whole table. -/
def termsOf (A : Args 131072) : Fin 5 → Fin 131072 → EReal
  | ⟨0, _⟩ => fun n => zeroW - term A n
  | ⟨1, _⟩ => fun n => ind (isPos A n)
  | ⟨2, _⟩ => fun n => ind (isNeg A n)
  | ⟨3, _⟩ => fun n => ind (negHigh A n)
  | ⟨4, _⟩ => fun n => ind (posLow A n)
  | ⟨_ + 5, h⟩ => absurd h (by omega)

/-- An 8×128 accumulator holding g 0 … g 4 in cells (0,0) … (4,0) and zero elsewhere. -/
def accOf (g : Fin 5 → EReal) : Vec Ideal S8x128 .f32 := fun y =>
  if h : (y 1).val = 0 ∧ (y 0).val < 5 then g ⟨(y 0).val, h.2⟩ else zeroW

/-- Adding g 0 … g 4 into cells (0,0) … (4,0) of an accumulator, the other cells kept. -/
def accUpd (g : Fin 5 → EReal) (xs : Vec Ideal S8x128 .f32) : Vec Ideal S8x128 .f32 := fun y =>
  if h : (y 1).val = 0 ∧ (y 0).val < 5 then xs y + g ⟨(y 0).val, h.2⟩ else xs y

theorem accUpd_accOf (g g' : Fin 5 → EReal) : accUpd g (accOf g') = accOf fun j => g' j + g j := by
  funext y
  unfold accUpd accOf
  by_cases h : (y 1).val = 0 ∧ (y 0).val < 5
  · simp only [dif_pos h]
  · simp only [dif_neg h]

variable (m : (ℓ : Loc nD τ sig) → Buf (Elt Ideal) ℓ)

/-- The whole problem's argument table, as launched on core c. -/
def argsOf (c : Dev nD) : Args 131072 where
  sbj := m ((c.tc : Thread nD τ).loc main_arg0)
  obj := m ((c.tc : Thread nD τ).loc main_arg1)
  rl := m ((c.tc : Thread nD τ).loc main_arg2)
  sw := m ((c.tc : Thread nD τ).loc main_arg3)
  sb := m ((c.tc : Thread nD τ).loc main_arg4)
  w1 := m ((c.tc : Thread nD τ).loc main_arg5)
  b1 := m ((c.tc : Thread nD τ).loc main_arg6)
  w2 := m ((c.tc : Thread nD τ).loc main_arg7)
  b2 := m ((c.tc : Thread nD τ).loc main_arg8)

/-- The block table of grid point t: the nine windows' blocks as the region finds them. -/
def blkAt (c : Dev nD) (t : Fin cfg0.N) : Args 2048 :=
  blockArgs (iblk m c 0 t) (iblk m c 1 t) (iblk m c 2 t) (iblk m c 3 t) (iblk m c 4 t) (iblk m c 5 t) (iblk m c 6 t)
    (iblk m c 7 t) (iblk m c 8 t)

/-- Row r of grid point t's block is row 2048 t + r of the table. -/
def rowAt (t : Fin cfg0.N) (r : Fin 2048) : Fin 131072 :=
  ⟨t.val * 2048 + r.val, by have h : t.val < 64 := lt_of_lt_of_eq t.isLt N_0; have := r.isLt; omega⟩

end Cert.RelScore.K

end
-- ==== Proof.KStats.lean ====
/-
  What the two output windows hold, point by point, and what the two result arrays end holding.

  Grid point n = 32 * core + step. After the body at point n:
    * the score window's staging block holds the scores of rows 2048 n … 2048 n + 2047;
    * the carried accumulator holds, in cells (0,0) … (4,0), core n / 32's running totals after its step n % 32
      (block sums 32 core, …, 32 core + step added one after the other), and zero elsewhere;
    * at a core's last step (n % 32 = 31) the statistics window's staging block holds the same.
  So the score array ends as the specification's score column, and the 16×128 statistics array holds core 0's five
  totals in rows 0-4 of column 0, core 1's in rows 8-12 of column 0, and zero elsewhere.
-/
import proofs.«119460_j32547262169374_2_alg».proof.Proof.KDefs

noncomputable section

namespace Cert.RelScore.K

open Idealize.ShloMosaic Idealize.ShloMosaic.TcCoe Idealize.SL.Sem Idealize.ShloMosaic.ValueIdx
open Cert.KernelIdeal Cert.KernelIdeal.Gen Cert.RelScore

variable (m : (ℓ : Loc nD τ sig) → Buf (Elt Ideal) ℓ)

/-- Core (n / 32)'s five running totals after its step n % 32. -/
def runAt (c : Dev nD) (n : ℕ) : Fin 5 → EReal := fun j => running (termsOf (argsOf m c) j) (n / 32) (n % 32)

/-- What the outputs' staging blocks and the carried accumulator hold after the body at point n. -/
def Inv (c : Dev nD) (n : ℕ) (h : n < cfg0.N) : Prop :=
  (outsAt0 m c n h).1 = (fun y => score (argsOf m c) (rowAt ⟨n, h⟩ (y 0)))
  ∧ (n % 32 = 31 → (outsAt0 m c n h).2.1 = accOf (runAt m c n))
  ∧ (outsAt0 m c n h).2.2 = accOf (runAt m c n)

/-- The statistics array after the run: block b (rows 8 b … 8 b + 7) is core b's accumulator after its last step. -/
def statsOf (c : Dev nD) : S16x128.Idx → EReal := fun i =>
  accOf (fun j => running (termsOf (argsOf m c) j) ((i 0).val / 8) 31)
    (ix2 (⟨(i 0).val % 8, Nat.mod_lt _ (by decide)⟩ : Fin 8) (i 1))

end Cert.RelScore.K

end
-- ==== Proof.SumLaws.lean ====
/-
  The summation algebra of the relation scorer: the blocked, two-core order of addition gives the plain sum
  over all rows (extended-real addition is commutative and associative); the cross-entropy term is always a
  real number; negating each term before the blocked sum and the division by the row count is the same as
  negating the mean.
-/
import Mathlib.Algebra.BigOperators.Fin
import Mathlib.Algebra.BigOperators.Group.Finset.Basic
import Mathlib.Data.Fintype.BigOperators
import Mathlib.Data.EReal.Inv
import Idealize.ShloMosaic.PureOps.Ideal
import proofs.«119460_j32547262169374_2_alg».proof.Proof.Spec

noncomputable section

open scoped BigOperators

namespace Cert.RelScore

open Idealize.ShloMosaic

/-! ## (a) The blocked order of addition -/

/-- A core's running total after block k is the sum of its first k+1 block sums. -/
theorem running_eq_sum_range (f : Fin 131072 → EReal) (c k : ℕ) :
    running f c k = ∑ kb ∈ Finset.range (k + 1), blockSum f (32 * c + kb) := by
  induction k with
  | zero => simp [running]
  | succ k ih => rw [running, ih, Finset.sum_range_succ (n := k + 1)]

/-- The rows as pairs (block, row in block): n ↦ (n / 2048, n % 2048), inverse of rowOf. -/
def rowEquiv : Fin 64 × Fin 2048 ≃ Fin 131072 where
  toFun p := rowOf p.1 p.2
  invFun n := (⟨n.val / 2048, by omega⟩, ⟨n.val % 2048, by omega⟩)
  left_inv p := by
    rcases p with ⟨b, l⟩
    apply Prod.ext <;> apply Fin.ext <;> simp only [rowOf] <;> omega
  right_inv n := by
    apply Fin.ext; simp only [rowOf]; omega

/-- The 64 block sums add up to the sum over all rows. -/
theorem sum_blockSum (f : Fin 131072 → EReal) :
    ∑ b ∈ Finset.range 64, blockSum f b = ∑ n, f n := by
  rw [← Fin.sum_univ_eq_sum_range (fun b => blockSum f b) 64]
  have h : ∀ b : Fin 64, blockSum f b.val = ∑ l : Fin 2048, f (rowOf b l) := by
    intro b; rw [blockSum, dif_pos b.isLt]
  simp only [h]
  rw [← Fintype.sum_prod_type' (fun b l => f (rowOf b l))]
  exact Fintype.sum_equiv rowEquiv _ _ (fun _ => rfl)

/-- (a) The two cores' final running totals add up to the sum over all rows. -/
theorem blocked_total (f : Fin 131072 → EReal) : running f 0 31 + running f 1 31 = ∑ n, f n := by
  rw [running_eq_sum_range, running_eq_sum_range, ← sum_blockSum f,
    Finset.sum_range_add (fun b => blockSum f b) 32 32]
  simp only [Nat.mul_zero, Nat.zero_add, Nat.mul_one]

/-- The same for the counts, in the specification's name for the plain sum. -/
theorem count_eq (g : Fin 131072 → EReal) : running g 0 31 + running g 1 31 = total g :=
  blocked_total g

/-! ## The literals -/

theorem zeroW_eq : zeroW = 0 := by
  show Ideal.ofBits .f32 0x00000000#32 = 0
  simp [Ideal.ofBits, Ideal.ieee]

theorem oneW_eq : oneW = ((1 : ℝ) : EReal) := by
  show Ideal.ofBits .f32 0x3F800000#32 = _
  simp [Ideal.ofBits, Ideal.ieee, -EReal.coe_mul]; norm_num

theorem floorW_eq : floorW = ((-100 : ℝ) : EReal) := by
  show Ideal.ofBits .f32 0xC2C80000#32 = _
  simp [Ideal.ofBits, Ideal.ieee, -EReal.coe_mul]; norm_num

theorem countW_eq : countW = ((131072 : ℝ) : EReal) := by
  show Ideal.ofBits .f32 0x48000000#32 = _
  simp [Ideal.ofBits, Ideal.ieee, -EReal.coe_mul]; norm_num

/-- The lower clamp is a positive real. -/
theorem epsW_pos : ∃ e : ℝ, 0 < e ∧ epsW = (e : EReal) := by
  show ∃ e : ℝ, 0 < e ∧ Ideal.ofBits .f32 0x2B8CBCCC#32 = (e : EReal)
  simp [Ideal.ofBits, Ideal.ieee, -EReal.coe_mul]

/-! ## (b) The cross-entropy term is a real number -/

/-- An extended real between a positive real and a real is a positive real. -/
theorem exists_pos_real {x : EReal} {lo hi : ℝ} (hlo : 0 < lo) (h1 : (lo : EReal) ≤ x)
    (h2 : x ≤ (hi : EReal)) : ∃ t : ℝ, 0 < t ∧ x = (t : EReal) := by
  induction x with
  | bot => exact absurd h1 (by simp)
  | top => exact absurd h2 (by simp)
  | coe t => exact ⟨t, lt_of_lt_of_le hlo (EReal.coe_le_coe_iff.1 h1), rfl⟩

/-- The clamped probability is a positive real, whatever the input. -/
theorem clamp_pos_real (s : EReal) : ∃ t : ℝ, 0 < t ∧ min oneW (max epsW s) = (t : EReal) := by
  obtain ⟨e, he, hE⟩ := epsW_pos
  have h1 : ((min 1 e : ℝ) : EReal) ≤ min oneW (max epsW s) := by
    rw [oneW_eq, hE, EReal.coe_strictMono.monotone.map_min]
    exact min_le_min le_rfl (le_max_left _ _)
  have h2 : min oneW (max epsW s) ≤ ((1 : ℝ) : EReal) := by
    rw [oneW_eq]; exact min_le_left _ _
  exact exists_pos_real (lt_min one_pos he) h1 h2

/-- The clamped logarithm is a real number, whatever the input. -/
theorem clampLog_real (s : EReal) : ∃ r : ℝ, clampLog s = (r : EReal) := by
  obtain ⟨t, ht, hT⟩ := clamp_pos_real s
  refine ⟨max (Real.log t) (-100), ?_⟩
  rw [clampLog, hT, Ideal.log_coe, if_neg (not_le.2 ht), floorW_eq,
    EReal.coe_strictMono.monotone.map_max]

/-- A bit, read as 0 or 1, is a real number. -/
theorem ind_real (b : BitVec 1) : ind b = (((b.toNat : ℕ) : ℝ) : EReal) := rfl

/-- (b) The cross-entropy term of every row is a real number, for any number of rows. -/
theorem term_real {N : Nat} (A : Args N) (n : Fin N) : ∃ r : ℝ, term A n = (r : EReal) := by
  obtain ⟨r1, h1⟩ := clampLog_real (score A n)
  obtain ⟨r2, h2⟩ := clampLog_real (oneW - score A n)
  refine ⟨((lab A n).toNat : ℝ) * r1 + (1 - ((lab A n).toNat : ℝ)) * r2, ?_⟩
  rw [term, h1, h2, y, ind_real, oneW_eq, EReal.coe_add, EReal.coe_mul, EReal.coe_mul, EReal.coe_sub]

/-! ## (c) Negating each term, or the mean -/

/-- The sum of real numbers, read as extended reals, is the real sum. -/
theorem coe_sum_real {ι : Type*} (s : Finset ι) (r : ι → ℝ) :
    ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-- (c) Summing the negated terms in the blocked order and dividing by the row count is minus the mean. -/
theorem neg_total (f : Fin 131072 → EReal) (hf : ∀ n, ∃ r : ℝ, f n = (r : EReal)) :
    Ideal.div (running (fun n => zeroW - f n) 0 31 + running (fun n => zeroW - f n) 1 31) countW
      = -(Ideal.div (∑ n, f n) countW) := by
  choose r hr using hf
  have hc : (131072 : ℝ) ≠ 0 := by norm_num
  have hL : ∀ n, zeroW - f n = ((-(r n) : ℝ) : EReal) := by
    intro n; rw [zeroW_eq, hr n, zero_sub, EReal.coe_neg]
  have hR : ∑ n, f n = ((∑ n, r n : ℝ) : EReal) := by
    rw [← coe_sum_real]; exact Finset.sum_congr rfl (fun n _ => hr n)
  rw [blocked_total, countW_eq, Ideal.div_coe hc, Ideal.div_coe hc, hR]
  simp only [hL]
  rw [coe_sum_real, Finset.sum_neg_distrib, ← EReal.coe_mul, ← EReal.coe_mul, ← EReal.coe_neg, neg_mul]

/-- (d) The blocked, negated, divided sum of the cross-entropy terms is the loss. -/
theorem loss_eq (A : Args 131072) :
    Ideal.div (running (fun n => zeroW - term A n) 0 31 + running (fun n => zeroW - term A n) 1 31) countW
      = loss A := by
  rw [neg_total (term A) (term_real A)]; rfl

/-! ## (e) A bit as a number, two ways -/

theorem bit_cases (b : BitVec 1) : b = 0#1 ∨ b = 1#1 := by
  revert b; decide

/-- Zero-extending a bit to 32 bits and reading it as a signed integer gives the same 0 or 1 as reading the
    bit as a natural number. -/
theorem setWidth_toInt_eq_ind (b : BitVec 1) : ((((b.setWidth 32).toInt : ℤ) : ℝ) : EReal) = ind b := by
  rcases bit_cases b with rfl | rfl <;> simp [ind] <;> decide

/-- Exclusive-or with 1 is the complement of a bit. -/
theorem xor_one_eq_not (b : BitVec 1) : b ^^^ 1#1 = ~~~b := by
  revert b; decide

end Cert.RelScore

end
-- ==== Proof.KPayload.lean ====
/-
  The kernel's arithmetic, read at an index: each pure value the kernel body computes from the vectors it has
  loaded, as the extended-real expression of its operands' elements (sums for the stacked-row contraction, the
  two matrix products and the lane sums; everything else elementwise).
-/
import proofs.«119460_j32547262169374_2_alg».proof.Proof.Gen.KernelIdeal.Skeleton
import proofs.«119460_j32547262169374_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.RelScore.Pay

open Idealize.ShloMosaic Idealize.ShloMosaic.ValueIdx Cert.KernelIdeal Cert.KernelIdeal.Gen

/-! ## Layout operations at the shapes of this kernel -/

section Layout
variable {α : Type}

/-- Eight rows stacked along axis 0: row k of the stack is the k-th operand's one row. -/
theorem concat8_apply (x0 x1 x2 x3 x4 x5 x6 x7 : S1x2048.Idx → α)
    (h : Shape.Concatenates [S1x2048, S1x2048, S1x2048, S1x2048, S1x2048, S1x2048, S1x2048, S1x2048] S8x2048 0)
    (k : Fin 8) (r : Fin 2048) :
    concatenate S8x2048 0 [⟨S1x2048, x0⟩, ⟨S1x2048, x1⟩, ⟨S1x2048, x2⟩, ⟨S1x2048, x3⟩, ⟨S1x2048, x4⟩, ⟨S1x2048, x5⟩,
        ⟨S1x2048, x6⟩, ⟨S1x2048, x7⟩] h (ix2 k r)
      = (![x0 (ix2 0 r), x1 (ix2 0 r), x2 (ix2 0 r), x3 (ix2 0 r), x4 (ix2 0 r), x5 (ix2 0 r), x6 (ix2 0 r),
          x7 (ix2 0 r)] k) := by
  have hi : ∀ (k : Fin 8) (b : Fin S1x2048.rank), b.cast (rfl : S1x2048.rank = S8x2048.rank) ≠ (0 : Fin S8x2048.rank) →
      ((ix2 (0 : Fin 1) r : S1x2048.Idx) b).val = ((ix2 k r : S8x2048.Idx) (b.cast rfl)).val := by
    intro k b hb
    match b with
    | ⟨0, _⟩ => exact absurd rfl hb
    | ⟨1, _⟩ => rfl
  let xs : List ((s : Shape) × (s.Idx → α)) := [⟨S1x2048, x0⟩, ⟨S1x2048, x1⟩, ⟨S1x2048, x2⟩, ⟨S1x2048, x3⟩,
    ⟨S1x2048, x4⟩, ⟨S1x2048, x5⟩, ⟨S1x2048, x6⟩, ⟨S1x2048, x7⟩]
  match k with
  | ⟨0, _⟩ => exact concatenate_apply_piece (t := S8x2048) 0 xs h _ 0 (by show 0 < 8; omega) S1x2048 x0 rfl rfl 0 rfl (ix2 0 r) (hi _) rfl
  | ⟨1, _⟩ => exact concatenate_apply_piece (t := S8x2048) 0 xs h _ 1 (by show 1 < 8; omega) S1x2048 x1 rfl rfl 1 rfl (ix2 0 r) (hi _) rfl
  | ⟨2, _⟩ => exact concatenate_apply_piece (t := S8x2048) 0 xs h _ 2 (by show 2 < 8; omega) S1x2048 x2 rfl rfl 2 rfl (ix2 0 r) (hi _) rfl
  | ⟨3, _⟩ => exact concatenate_apply_piece (t := S8x2048) 0 xs h _ 3 (by show 3 < 8; omega) S1x2048 x3 rfl rfl 3 rfl (ix2 0 r) (hi _) rfl
  | ⟨4, _⟩ => exact concatenate_apply_piece (t := S8x2048) 0 xs h _ 4 (by show 4 < 8; omega) S1x2048 x4 rfl rfl 4 rfl (ix2 0 r) (hi _) rfl
  | ⟨5, _⟩ => exact concatenate_apply_piece (t := S8x2048) 0 xs h _ 5 (by show 5 < 8; omega) S1x2048 x5 rfl rfl 5 rfl (ix2 0 r) (hi _) rfl
  | ⟨6, _⟩ => exact concatenate_apply_piece (t := S8x2048) 0 xs h _ 6 (by show 6 < 8; omega) S1x2048 x6 rfl rfl 6 rfl (ix2 0 r) (hi _) rfl
  | ⟨7, _⟩ => exact concatenate_apply_piece (t := S8x2048) 0 xs h _ 7 (by show 7 < 8; omega) S1x2048 x7 rfl rfl 7 rfl (ix2 0 r) (hi _) rfl

/-- A column broadcast along the lanes: [a,1] → [a,b] reads the column's entry of the same row. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a 1×1 array, extracted at position (0, 0). -/
theorem extractAt_11 (v : S1x1.Idx → α) (h : ∀ a, (![0, 0] : Fin 2 → Nat) a < S1x1.size a) :
    extractAt ![0, 0] v h = v (ix2 0 0) :=
  congrArg v (funext fun a => Fin.ext (by match a with | ⟨0, _⟩ => rfl | ⟨1, _⟩ => rfl))

end Layout

/-- The sum over the eight stacked rows, cast back to a row: at lane r, the sum over k of the source at (k, r). -/
theorem reduce8_apply (src : FVec Ideal S8x2048 .f32) (hφ : FKind.Formats .f32)
    (hacc : (0x00000000#32 : BitVec 32) = FKind.add.neutral .f32 hφ) (r : Fin 2048) :
    shapeCast S1x2048 (multiReduction .add [0] S2048 src 0x00000000#32 reduces_S8x2048_S2048 hφ hacc)
        shapeCasts_S2048_S1x2048 (ix2 0 r) = ∑ k : Fin 8, src (ix2 k r) := by
  refine (shapeCast_a_1a_apply _ shapeCasts_S2048_S1x2048 0 r).trans ?_
  refine (Ideal.multiReduction_add_single src 0x00000000#32 reduces_S8x2048_S2048 hφ hacc (ix1 r)).trans ?_
  refine Finset.sum_congr rfl fun k _ => congrArg src ?_
  exact funext fun a => Fin.ext (by match a with | ⟨0, _⟩ => rfl | ⟨1, _⟩ => rfl)

/-! ## The box score -/

theorem pay20_apply (v24 v26 v28 v30 v32 v34 v36 v38 : FVec Ideal S1x2048 .f32) (v40 : Vec Ideal S8x1 .f32)
    (v45 : Vec Ideal S1x1 .f32) (r : Fin 2048) :
    k0_pay20 v24 v26 v28 v30 v32 v34 v36 v38 v40 v45 (ix2 0 r)
      = (∑ k : Fin 8, (![v24 (ix2 0 r), v26 (ix2 0 r), v28 (ix2 0 r), v30 (ix2 0 r), v32 (ix2 0 r), v34 (ix2 0 r),
          v36 (ix2 0 r), v38 (ix2 0 r)] k) * v40 (ix2 k 0)) + v45 (ix2 0 0) := by
  unfold k0_pay20
  refine congrArg₂ (· + ·) ((reduce8_apply _ _ _ r).trans ?_) (extractAt_11 v45 _)
  refine Finset.sum_congr rfl fun k _ => ?_
  exact congrArg₂ (· * ·) (concat8_apply v24 v26 v28 v30 v32 v34 v36 v38 _ k r) (broadcastTo_a1_ab_apply v40 _ k r)

/-! ## The matrix products -/

theorem mmA_lhs0 (i : S2048x300.Idx) (q : dot_S2048x300_S300x300_S2048x300_1_0_0_1_n_n.contr.Idx) : (dot_S2048x300_S300x300_S2048x300_1_0_0_1_n_n.lhsIdx i q 0).val = (i 0).val := by
  unfold DotDims.lhsIdx
  rw [dif_neg (show ¬(0 : Fin S2048x300.rank) ∈ dot_S2048x300_S300x300_S2048x300_1_0_0_1_n_n.lhsBatch by decide),
    dif_pos (show (0 : Fin S2048x300.rank) ∈ dot_S2048x300_S300x300_S2048x300_1_0_0_1_n_n.lhsNonContracting by decide)]
  rfl
theorem mmA_lhs1 (i : S2048x300.Idx) (q : dot_S2048x300_S300x300_S2048x300_1_0_0_1_n_n.contr.Idx) : (dot_S2048x300_S300x300_S2048x300_1_0_0_1_n_n.lhsIdx i q 1).val = (q ⟨0, by decide⟩).val :=
  dot_S2048x300_S300x300_S2048x300_1_0_0_1_n_n.lhsIdx_val_of_single rfl i q
theorem mmA_rhs0 (i : S2048x300.Idx) (q : dot_S2048x300_S300x300_S2048x300_1_0_0_1_n_n.contr.Idx) : (dot_S2048x300_S300x300_S2048x300_1_0_0_1_n_n.rhsIdx i q 0).val = (q ⟨0, by decide⟩).val :=
  dot_S2048x300_S300x300_S2048x300_1_0_0_1_n_n.rhsIdx_val_of_single rfl i q
theorem mmA_rhs1 (i : S2048x300.Idx) (q : dot_S2048x300_S300x300_S2048x300_1_0_0_1_n_n.contr.Idx) : (dot_S2048x300_S300x300_S2048x300_1_0_0_1_n_n.rhsIdx i q 1).val = (i 1).val := by
  unfold DotDims.rhsIdx
  rw [dif_neg (show ¬(1 : Fin S300x300.rank) ∈ dot_S2048x300_S300x300_S2048x300_1_0_0_1_n_n.rhsBatch by decide),
    dif_pos (show (1 : Fin S300x300.rank) ∈ dot_S2048x300_S300x300_S2048x300_1_0_0_1_n_n.rhsNonContracting by decide)]
  rfl

theorem mmB_lhs0 (i : S2048x1.Idx) (q : dot_S2048x300_S300x1_S2048x1_1_0_0_1_n_n.contr.Idx) : (dot_S2048x300_S300x1_S2048x1_1_0_0_1_n_n.lhsIdx i q 0).val = (i 0).val := by
  unfold DotDims.lhsIdx
  rw [dif_neg (show ¬(0 : Fin S2048x300.rank) ∈ dot_S2048x300_S300x1_S2048x1_1_0_0_1_n_n.lhsBatch by decide),
    dif_pos (show (0 : Fin S2048x300.rank) ∈ dot_S2048x300_S300x1_S2048x1_1_0_0_1_n_n.lhsNonContracting by decide)]
  rfl
theorem mmB_lhs1 (i : S2048x1.Idx) (q : dot_S2048x300_S300x1_S2048x1_1_0_0_1_n_n.contr.Idx) : (dot_S2048x300_S300x1_S2048x1_1_0_0_1_n_n.lhsIdx i q 1).val = (q ⟨0, by decide⟩).val :=
  dot_S2048x300_S300x1_S2048x1_1_0_0_1_n_n.lhsIdx_val_of_single rfl i q
theorem mmB_rhs0 (i : S2048x1.Idx) (q : dot_S2048x300_S300x1_S2048x1_1_0_0_1_n_n.contr.Idx) : (dot_S2048x300_S300x1_S2048x1_1_0_0_1_n_n.rhsIdx i q 0).val = (q ⟨0, by decide⟩).val :=
  dot_S2048x300_S300x1_S2048x1_1_0_0_1_n_n.rhsIdx_val_of_single rfl i q
theorem mmB_rhs1 (i : S2048x1.Idx) (q : dot_S2048x300_S300x1_S2048x1_1_0_0_1_n_n.contr.Idx) : (dot_S2048x300_S300x1_S2048x1_1_0_0_1_n_n.rhsIdx i q 1).val = (i 1).val := by
  unfold DotDims.rhsIdx
  rw [dif_neg (show ¬(1 : Fin S300x1.rank) ∈ dot_S2048x300_S300x1_S2048x1_1_0_0_1_n_n.rhsBatch by decide),
    dif_pos (show (1 : Fin S300x1.rank) ∈ dot_S2048x300_S300x1_S2048x1_1_0_0_1_n_n.rhsNonContracting by decide)]
  rfl

/-- The 2048×300 by 300×300 product into a zero accumulator, at (r, j): the sum over the contracted axis. -/
theorem matmul300_apply {φ₁ φ₂ : FTy} (lhs : FVec Ideal S2048x300 φ₁) (rhs : FVec Ideal S300x300 φ₂) (r : Fin 2048)
    (j : Fin 300) :
    matmul dot_S2048x300_S300x300_S2048x300_1_0_0_1_n_n none lhs rhs (constant (F := Ideal) S2048x300 .f32 0x00000000#32)
        (ix2 r j) = ∑ k : Fin 300, lhs (ix2 r k) * rhs (ix2 k j) := by
  refine (Ideal.matmul_constant_zero_apply dot_S2048x300_S300x300_S2048x300_1_0_0_1_n_n none lhs rhs (ix2 r j)).trans ?_
  rw [← Equiv.sum_comp (contrEquiv1 dot_S2048x300_S300x300_S2048x300_1_0_0_1_n_n 300 rfl rfl).symm]
  refine Finset.sum_congr rfl fun k _ => ?_
  have hk := contrEquiv1_symm_val dot_S2048x300_S300x300_S2048x300_1_0_0_1_n_n 300 rfl rfl k
  have el : dot_S2048x300_S300x300_S2048x300_1_0_0_1_n_n.lhsIdx (ix2 r j) ((contrEquiv1 dot_S2048x300_S300x300_S2048x300_1_0_0_1_n_n 300 rfl rfl).symm k) = ix2 r k :=
    funext fun a => Fin.ext (by
      match a with
      | ⟨0, _⟩ => exact mmA_lhs0 _ _
      | ⟨1, _⟩ => exact (mmA_lhs1 _ _).trans hk)
  have er : dot_S2048x300_S300x300_S2048x300_1_0_0_1_n_n.rhsIdx (ix2 r j) ((contrEquiv1 dot_S2048x300_S300x300_S2048x300_1_0_0_1_n_n 300 rfl rfl).symm k) = ix2 k j :=
    funext fun a => Fin.ext (by
      match a with
      | ⟨0, _⟩ => exact (mmA_rhs0 _ _).trans hk
      | ⟨1, _⟩ => exact mmA_rhs1 _ _)
  rw [el, er]

/-- The 2048×300 by 300×1 product into a zero accumulator, at (r, 0). -/
theorem matmul1_apply {φ₁ φ₂ : FTy} (lhs : FVec Ideal S2048x300 φ₁) (rhs : FVec Ideal S300x1 φ₂) (r : Fin 2048) :
    matmul dot_S2048x300_S300x1_S2048x1_1_0_0_1_n_n none lhs rhs (constant (F := Ideal) S2048x1 .f32 0x00000000#32)
        (ix2 r 0) = ∑ k : Fin 300, lhs (ix2 r k) * rhs (ix2 k 0) := by
  refine (Ideal.matmul_constant_zero_apply dot_S2048x300_S300x1_S2048x1_1_0_0_1_n_n none lhs rhs (ix2 r 0)).trans ?_
  rw [← Equiv.sum_comp (contrEquiv1 dot_S2048x300_S300x1_S2048x1_1_0_0_1_n_n 300 rfl rfl).symm]
  refine Finset.sum_congr rfl fun k _ => ?_
  have hk := contrEquiv1_symm_val dot_S2048x300_S300x1_S2048x1_1_0_0_1_n_n 300 rfl rfl k
  have el : dot_S2048x300_S300x1_S2048x1_1_0_0_1_n_n.lhsIdx (ix2 r 0) ((contrEquiv1 dot_S2048x300_S300x1_S2048x1_1_0_0_1_n_n 300 rfl rfl).symm k) = ix2 r k :=
    funext fun a => Fin.ext (by
      match a with
      | ⟨0, _⟩ => exact mmB_lhs0 _ _
      | ⟨1, _⟩ => exact (mmB_lhs1 _ _).trans hk)
  have er : dot_S2048x300_S300x1_S2048x1_1_0_0_1_n_n.rhsIdx (ix2 r 0) ((contrEquiv1 dot_S2048x300_S300x1_S2048x1_1_0_0_1_n_n 300 rfl rfl).symm k) = ix2 k 0 :=
    funext fun a => Fin.ext (by
      match a with
      | ⟨0, _⟩ => exact (mmB_rhs0 _ _).trans hk
      | ⟨1, _⟩ => exact mmB_rhs1 _ _)
  rw [el, er]

/-! ## The label, the hidden layer, the score -/

/-- Unit j of the hidden layer of row r: the two halves of the 600-long contraction, the bias, the relu. -/
theorem pay22_apply (v55 v59 : Vec Ideal S2048x300 .f32) (v63 : Vec Ideal S600x300 .bf16) (v70 : Vec Ideal S1x300 .f32)
    (r : Fin 2048) (j : Fin 300) :
    k0_pay22 v55 v59 v63 v70 (ix2 r j)
      = relu (((∑ k : Fin 300, relu (v55 (ix2 r k)) * v63 (ix2 (⟨k.val, by have := k.isLt; omega⟩ : Fin 600) j))
          + ∑ k : Fin 300, relu (v59 (ix2 r k)) * v63 (ix2 (⟨300 + k.val, by have := k.isLt; omega⟩ : Fin 600) j))
          + v70 (ix2 0 j)) := by
  unfold k0_pay22
  refine congrArg (fun x => max x zeroW) ?_
  refine congrArg₂ (· + ·) (congrArg₂ (· + ·) ((matmul300_apply _ _ r j).trans ?_) ((matmul300_apply _ _ r j).trans ?_)) ?_
  · refine Finset.sum_congr rfl fun k _ => congrArg₂ (· * ·) rfl ?_
    refine (slice2_axis0_apply (n0 := 600) (n1 := 300) (m := 300) 0 (shapeCast S600x300 v63 shapeCasts_S600x300_S600x300)
      slices_S600x300_o0_0_S300x300 k j ⟨k.val, by have := k.isLt; omega⟩ (Nat.zero_add _).symm).trans ?_
    exact congrFun (shapeCast_self v63 _) _
  · refine Finset.sum_congr rfl fun k _ => congrArg₂ (· * ·) rfl ?_
    refine (slice2_axis0_apply (n0 := 600) (n1 := 300) (m := 300) 300 (shapeCast S600x300 v63 shapeCasts_S600x300_S600x300)
      slices_S600x300_o300_0_S300x300 k j ⟨300 + k.val, by have := k.isLt; omega⟩ rfl).trans ?_
    exact congrFun (shapeCast_self v63 _) _
  · exact (broadcastTo_1b_ab_apply _ _ r j).trans (congrFun (shapeCast_self v70 _) _)

/-- The score of lane r: the logistic of the language score plus the box score. -/
theorem pay23_apply (v48 : FVec Ideal S1x2048 .f32) (v76 : FVec Ideal S2048x300 .bf16) (v77 : Vec Ideal S300x1 .bf16)
    (v80 : Vec Ideal S1x1 .f32) (r : Fin 2048) :
    k0_pay23 v48 v76 v77 v80 (ix2 0 r)
      = Ideal.logistic (((∑ j : Fin 300, v76 (ix2 r j) * v77 (ix2 j 0)) + v80 (ix2 0 0)) + v48 (ix2 0 r)) := by
  unfold k0_pay23
  refine congrArg Ideal.logistic ?_
  refine congrArg₂ (· + ·) ?_ rfl
  refine (transpose_ix2_apply _ transposes_S2048x1_p1_0_S1x2048 0 r).trans ?_
  refine congrArg₂ (· + ·) ((matmul1_apply _ _ r).trans ?_) ?_
  · exact Finset.sum_congr rfl fun k _ => congrArg₂ (· * ·) rfl (congrFun (shapeCast_self v77 _) _)
  · exact (broadcastTo_1b_ab_apply _ _ r 0).trans (congrFun (shapeCast_self v80 _) _)

/-- The score column: the transpose back. -/
theorem pay24_apply (v48 : FVec Ideal S1x2048 .f32) (v76 : FVec Ideal S2048x300 .bf16) (v77 : Vec Ideal S300x1 .bf16)
    (v80 : Vec Ideal S1x1 .f32) (r : Fin 2048) :
    k0_pay24 v48 v76 v77 v80 (ix2 r 0) = k0_pay23 v48 v76 v77 v80 (ix2 0 r) := by
  unfold k0_pay24
  exact transpose_ix2_apply _ transposes_S1x2048_p1_0_S2048x1 r 0

/-! ## The cross-entropy term and the indicators -/

/-- The negated cross-entropy term of lane r (elementwise). -/
theorem pay25_apply (v48 v54 : FVec Ideal S1x2048 .f32) (v76 : FVec Ideal S2048x300 .bf16) (v77 : Vec Ideal S300x1 .bf16)
    (v80 : Vec Ideal S1x1 .f32) (r : Fin 2048) :
    k0_pay25 v48 v54 v76 v77 v80 (ix2 0 r)
      = zeroW - (v54 (ix2 0 r) * clampLog (k0_pay23 v48 v76 v77 v80 (ix2 0 r))
          + (oneW - v54 (ix2 0 r)) * clampLog (oneW - k0_pay23 v48 v76 v77 v80 (ix2 0 r))) := rfl

theorem pay26_apply (v54 : FVec Ideal S1x2048 .f32) (r : Fin 2048) :
    k0_pay26 v54 (ix2 0 r) = Ideal.cmp .oeq (v54 (ix2 0 r)) zeroW := rfl

theorem pay28_apply (v48 v54 : FVec Ideal S1x2048 .f32) (v76 : FVec Ideal S2048x300 .bf16) (v77 : Vec Ideal S300x1 .bf16)
    (v80 : Vec Ideal S1x1 .f32) (r : Fin 2048) :
    k0_pay28 v48 v54 v76 v77 v80 (ix2 0 r)
      = Ideal.cmp .oeq (v54 (ix2 0 r)) zeroW &&& Ideal.cmp .oge (k0_pay23 v48 v76 v77 v80 (ix2 0 r)) halfW := rfl

/-! ## The lane sums -/

/-- The sum over the 2048 lanes of a row, as a 1×1 array. -/
theorem laneSum_apply (src : FVec Ideal S1x2048 .f32) (hφ : FKind.Formats .f32)
    (hacc : (0x00000000#32 : BitVec 32) = FKind.add.neutral .f32 hφ) :
    shapeCast S1x1 (multiReduction .add [1] S1 src 0x00000000#32 reduces_S1x2048_S1 hφ hacc) shapeCasts_S1_S1x1 (ix2 0 0)
      = ∑ r : Fin 2048, src (ix2 0 r) := by
  refine (shapeCast_a_1a_apply _ shapeCasts_S1_S1x1 0 0).trans ?_
  refine (Ideal.multiReduction_add_single src 0x00000000#32 reduces_S1x2048_S1 hφ hacc (ix1 0)).trans ?_
  refine Finset.sum_congr rfl fun k _ => congrArg src ?_
  exact funext fun a => Fin.ext (by match a with | ⟨0, _⟩ => rfl | ⟨1, _⟩ => rfl)

theorem pay31_apply (v111 : FVec Ideal S1x2048 .f32) (v139 : Vec Ideal S1x1 .f32) :
    k0_pay31 v111 v139 (ix2 0 0) = v139 (ix2 0 0) + ∑ r : Fin 2048, v111 (ix2 0 r) := by
  unfold k0_pay31
  refine (congrFun (shapeCast_self _ shapeCasts_S1x1_S1x1) (ix2 0 0)).trans ?_
  exact congrArg₂ (· + ·) rfl (laneSum_apply v111 _ _)

/-! ## The accumulator updates and the zero fill -/

theorem pay1_apply (v134 : FVec Ideal S1x1 .f32) (v154 : Vec Ideal S1x1 .f32) :
    k0_pay1 v134 v154 (ix2 0 0) = v154 (ix2 0 0) + v134 (ix2 0 0) := by
  unfold k0_pay1
  exact congrFun (shapeCast_self _ shapeCasts_S1x1_S1x1) (ix2 0 0)

theorem pay2_apply (v138 : FVec Ideal S1x1 .f32) (v159 : Vec Ideal S1x1 .f32) :
    k0_pay2 v138 v159 (ix2 0 0) = v159 (ix2 0 0) + v138 (ix2 0 0) := by
  unfold k0_pay2
  exact congrFun (shapeCast_self _ shapeCasts_S1x1_S1x1) (ix2 0 0)

theorem pay3_apply (i : S8x128.Idx) : k0_pay3 (F := Ideal) i = zeroW := by
  unfold k0_pay3
  exact congrFun (shapeCast_self _ shapeCasts_S8x128_S8x128) i

/-! ## The box features (elementwise; a shape cast of a row to its own shape is the identity) -/

theorem pay4_eq (v3 : Vec Ideal S1x2048 .f32) : k0_pay4 v3 = v3 := shapeCast_self v3 _
theorem pay5_eq (v5 : Vec Ideal S1x2048 .f32) : k0_pay5 v5 = v5 := shapeCast_self v5 _
theorem pay6_eq (v11 : Vec Ideal S1x2048 .f32) : k0_pay6 v11 = v11 := shapeCast_self v11 _
theorem pay7_eq (v13 : Vec Ideal S1x2048 .f32) : k0_pay7 v13 = v13 := shapeCast_self v13 _

theorem pay8_apply (v3 v7 : Vec Ideal S1x2048 .f32) (i : S1x2048.Idx) : k0_pay8 v3 v7 i = v7 i - v3 i := by
  unfold k0_pay8
  show shapeCast S1x2048 v7 shapeCasts_S1x2048_S1x2048 i - k0_pay4 v3 i = _
  rw [pay4_eq, shapeCast_self]
theorem pay9_apply (v5 v9 : Vec Ideal S1x2048 .f32) (i : S1x2048.Idx) : k0_pay9 v5 v9 i = v9 i - v5 i := by
  unfold k0_pay9
  show shapeCast S1x2048 v9 shapeCasts_S1x2048_S1x2048 i - k0_pay5 v5 i = _
  rw [pay5_eq, shapeCast_self]
theorem pay10_apply (v11 v15 : Vec Ideal S1x2048 .f32) (i : S1x2048.Idx) : k0_pay10 v11 v15 i = v15 i - v11 i := by
  unfold k0_pay10
  show shapeCast S1x2048 v15 shapeCasts_S1x2048_S1x2048 i - k0_pay6 v11 i = _
  rw [pay6_eq, shapeCast_self]
theorem pay11_apply (v13 v17 : Vec Ideal S1x2048 .f32) (i : S1x2048.Idx) : k0_pay11 v13 v17 i = v17 i - v13 i := by
  unfold k0_pay11
  show shapeCast S1x2048 v17 shapeCasts_S1x2048_S1x2048 i - k0_pay7 v13 i = _
  rw [pay7_eq, shapeCast_self]

theorem pay12_apply (v3 v7 v11 : Vec Ideal S1x2048 .f32) (i : S1x2048.Idx) :
    k0_pay12 v3 v7 v11 i = Ideal.div (v3 i - v11 i) (v7 i - v3 i) := by
  unfold k0_pay12
  show Ideal.div (k0_pay4 v3 i - k0_pay6 v11 i) (k0_pay8 v3 v7 i) = _
  rw [pay4_eq, pay6_eq, pay8_apply]
theorem pay13_apply (v5 v9 v13 : Vec Ideal S1x2048 .f32) (i : S1x2048.Idx) :
    k0_pay13 v5 v9 v13 i = Ideal.div (v5 i - v13 i) (v9 i - v5 i) := by
  unfold k0_pay13
  show Ideal.div (k0_pay5 v5 i - k0_pay7 v13 i) (k0_pay9 v5 v9 i) = _
  rw [pay5_eq, pay7_eq, pay9_apply]
theorem pay14_apply (v3 v7 v11 v15 : Vec Ideal S1x2048 .f32) (i : S1x2048.Idx) :
    k0_pay14 v3 v7 v11 v15 i = Ideal.log (Ideal.div (v7 i - v3 i) (v15 i - v11 i)) := by
  unfold k0_pay14
  show Ideal.log (Ideal.div (k0_pay8 v3 v7 i) (k0_pay10 v11 v15 i)) = _
  rw [pay8_apply, pay10_apply]
theorem pay15_apply (v5 v9 v13 v17 : Vec Ideal S1x2048 .f32) (i : S1x2048.Idx) :
    k0_pay15 v5 v9 v13 v17 i = Ideal.log (Ideal.div (v9 i - v5 i) (v17 i - v13 i)) := by
  unfold k0_pay15
  show Ideal.log (Ideal.div (k0_pay9 v5 v9 i) (k0_pay11 v13 v17 i)) = _
  rw [pay9_apply, pay11_apply]
theorem pay16_apply (v3 v11 v15 : Vec Ideal S1x2048 .f32) (i : S1x2048.Idx) :
    k0_pay16 v3 v11 v15 i = Ideal.div (v11 i - v3 i) (v15 i - v11 i) := by
  unfold k0_pay16
  show Ideal.div (k0_pay6 v11 i - k0_pay4 v3 i) (k0_pay10 v11 v15 i) = _
  rw [pay4_eq, pay6_eq, pay10_apply]
theorem pay17_apply (v5 v13 v17 : Vec Ideal S1x2048 .f32) (i : S1x2048.Idx) :
    k0_pay17 v5 v13 v17 i = Ideal.div (v13 i - v5 i) (v17 i - v13 i) := by
  unfold k0_pay17
  show Ideal.div (k0_pay7 v13 i - k0_pay5 v5 i) (k0_pay11 v13 v17 i) = _
  rw [pay5_eq, pay7_eq, pay11_apply]
theorem pay18_apply (v3 v7 v11 v15 : Vec Ideal S1x2048 .f32) (i : S1x2048.Idx) :
    k0_pay18 v3 v7 v11 v15 i = Ideal.log (Ideal.div (v15 i - v11 i) (v7 i - v3 i)) := by
  unfold k0_pay18
  show Ideal.log (Ideal.div (k0_pay10 v11 v15 i) (k0_pay8 v3 v7 i)) = _
  rw [pay10_apply, pay8_apply]
theorem pay19_apply (v5 v9 v13 v17 : Vec Ideal S1x2048 .f32) (i : S1x2048.Idx) :
    k0_pay19 v5 v9 v13 v17 i = Ideal.log (Ideal.div (v17 i - v13 i) (v9 i - v5 i)) := by
  unfold k0_pay19
  show Ideal.log (Ideal.div (k0_pay11 v13 v17 i) (k0_pay9 v5 v9 i)) = _
  rw [pay11_apply, pay9_apply]

end Cert.RelScore.Pay

end
-- ==== Proof.KPayloadB.lean ====
/-
  The kernel's arithmetic read at an index, continued: the payloads that turn a comparison's bit into the number
  0 or 1 (zero-extension to 32 bits, then a signed conversion) or complement it (exclusive-or with 1).
-/
import proofs.«119460_j32547262169374_2_alg».proof.Proof.KPayload
import proofs.«119460_j32547262169374_2_alg».proof.Proof.SumLaws

noncomputable section

open scoped BigOperators

namespace Cert.RelScore.Pay

open Idealize.ShloMosaic Idealize.ShloMosaic.ValueIdx Cert.KernelIdeal Cert.KernelIdeal.Gen

/-- The label of lane r as 0 or 1: the comparison's bit, zero-extended and converted. -/
theorem pay21_apply (v49 : Vec Ideal S1x2048 .f32) (r : Fin 2048) :
    k0_pay21 v49 (ix2 0 r) = ind (Ideal.cmp .ogt (v49 (ix2 0 r)) zeroW) := by
  unfold k0_pay21
  refine (setWidth_toInt_eq_ind _).trans ?_
  exact congrArg (fun x => ind (Ideal.cmp .ogt x zeroW)) (congrFun (shapeCast_self v49 _) _)

theorem pay27_apply (v54 : FVec Ideal S1x2048 .f32) (r : Fin 2048) :
    k0_pay27 v54 (ix2 0 r) = ~~~ (Ideal.cmp .oeq (v54 (ix2 0 r)) zeroW) :=
  xor_one_eq_not _

theorem pay29_apply (v117 : IVec S1x2048 1) :
    k0_pay29 (F := Ideal) v117 (ix2 0 0) = ∑ r : Fin 2048, ind (v117 (ix2 0 r)) := by
  unfold k0_pay29
  exact (laneSum_apply _ _ _).trans (Finset.sum_congr rfl fun r _ => setWidth_toInt_eq_ind _)

theorem pay30_apply (v86 : FVec Ideal S1x2048 .f32) (v114 : IVec S1x2048 1) :
    k0_pay30 v86 v114 (ix2 0 0) = ∑ r : Fin 2048, ind (v114 (ix2 0 r) &&& Ideal.cmp .olt (v86 (ix2 0 r)) halfW) := by
  unfold k0_pay30
  exact (laneSum_apply _ _ _).trans (Finset.sum_congr rfl fun r _ => setWidth_toInt_eq_ind _)

theorem pay32_apply (v114 : IVec S1x2048 1) (v144 : Vec Ideal S1x1 .f32) :
    k0_pay32 v114 v144 (ix2 0 0) = v144 (ix2 0 0) + ∑ r : Fin 2048, ind (v114 (ix2 0 r)) := by
  unfold k0_pay32
  refine (congrFun (shapeCast_self _ shapeCasts_S1x1_S1x1) (ix2 0 0)).trans ?_
  exact congrArg₂ (· + ·) rfl ((laneSum_apply _ _ _).trans (Finset.sum_congr rfl fun r _ => setWidth_toInt_eq_ind _))

theorem pay33_apply (v113 : IVec S1x2048 1) (v149 : Vec Ideal S1x1 .f32) :
    k0_pay33 v113 v149 (ix2 0 0) = v149 (ix2 0 0) + ∑ r : Fin 2048, ind (v113 (ix2 0 r)) := by
  unfold k0_pay33
  refine (congrFun (shapeCast_self _ shapeCasts_S1x1_S1x1) (ix2 0 0)).trans ?_
  exact congrArg₂ (· + ·) rfl ((laneSum_apply _ _ _).trans (Finset.sum_congr rfl fun r _ => setWidth_toInt_eq_ind _))

end Cert.RelScore.Pay

end
-- ==== Proof.KRows.lean ====
/-
  The kernel body's values for ONE block, as the specification's functions of that block's own table.

  The body loads rows 4, 5, 6, 7, 8, 10, 11, 12, 13 of the transposed relation block (each a 1×2048 vector: the label
  column and the two boxes' corners, lane r = row r of the block), the two 2048×300 feature blocks and the weights.
  From them, at lane r: the box score is the specification's `box`, the hidden layer its `relu (pre …)`, the logistic
  its `score`, the label its `y`, the negated cross-entropy term `0 - term`, and the four comparison bits its
  `isNeg`, `isPos`, `negHigh`, `posLow` — all of the table `blockArgs` builds from the nine blocks. The five lane
  sums the body adds into the accumulator's cells are that table's `incs`.
-/
import proofs.«119460_j32547262169374_2_alg».proof.Proof.KDefs
import proofs.«119460_j32547262169374_2_alg».proof.Proof.KPayload
import proofs.«119460_j32547262169374_2_alg».proof.Proof.KPayloadB

noncomputable section

open scoped BigOperators

namespace Cert.RelScore.K

open Idealize.ShloMosaic Idealize.ShloMosaic.ValueIdx
open Cert.KernelIdeal Cert.KernelIdeal.Gen Cert.RelScore Cert.RelScore.Pay

variable (x0 x1 : Vec Ideal S2048x300 .f32) (x2 : Vec Ideal S15x2048 .f32) (x3 : Vec Ideal S600x300 .bf16)
  (x4 : Vec Ideal S1x300 .f32) (x5 : Vec Ideal S300x1 .bf16) (x6 : Vec Ideal S1x1 .f32) (x7 : Vec Ideal S8x1 .f32)
  (x8 : Vec Ideal S1x1 .f32)

/-- The nine loaded rows are rows 4, 5, 6, 7, 8, 10, 11, 12, 13 of the transposed relation block. -/
structure Rows (l4 l5 l6 l7 l8 l10 l11 l12 l13 : Vec Ideal S1x2048 .f32) : Prop where
  h4 : ∀ r : Fin 2048, l4 (ix2 0 r) = x2 (ix2 4 r)
  h5 : ∀ r : Fin 2048, l5 (ix2 0 r) = x2 (ix2 5 r)
  h6 : ∀ r : Fin 2048, l6 (ix2 0 r) = x2 (ix2 6 r)
  h7 : ∀ r : Fin 2048, l7 (ix2 0 r) = x2 (ix2 7 r)
  h8 : ∀ r : Fin 2048, l8 (ix2 0 r) = x2 (ix2 8 r)
  h10 : ∀ r : Fin 2048, l10 (ix2 0 r) = x2 (ix2 10 r)
  h11 : ∀ r : Fin 2048, l11 (ix2 0 r) = x2 (ix2 11 r)
  h12 : ∀ r : Fin 2048, l12 (ix2 0 r) = x2 (ix2 12 r)
  h13 : ∀ r : Fin 2048, l13 (ix2 0 r) = x2 (ix2 13 r)

variable {x2}
variable {l4 l5 l6 l7 l8 l10 l11 l12 l13 : Vec Ideal S1x2048 .f32}

/-- The box score row: the eight features stacked, weighted, summed, plus the bias. -/
abbrev boxV (x7 : Vec Ideal S8x1 .f32) (x8 : Vec Ideal S1x1 .f32) (l5 l6 l7 l8 l10 l11 l12 l13 : Vec Ideal S1x2048 .f32) :
    FVec Ideal S1x2048 .f32 :=
  k0_pay20 (k0_pay12 l5 l7 l10) (k0_pay13 l6 l8 l11) (k0_pay14 l5 l7 l10 l12) (k0_pay15 l6 l8 l11 l13)
    (k0_pay16 l5 l10 l12) (k0_pay17 l6 l11 l13) (k0_pay18 l5 l7 l10 l12) (k0_pay19 l6 l8 l11 l13) x7 x8

/-- The score row. -/
abbrev scoreV (x0 x1 : Vec Ideal S2048x300 .f32) (x3 : Vec Ideal S600x300 .bf16) (x4 : Vec Ideal S1x300 .f32)
    (x5 : Vec Ideal S300x1 .bf16) (x6 : Vec Ideal S1x1 .f32) (x7 : Vec Ideal S8x1 .f32) (x8 : Vec Ideal S1x1 .f32)
    (l5 l6 l7 l8 l10 l11 l12 l13 : Vec Ideal S1x2048 .f32) : FVec Ideal S1x2048 .f32 :=
  k0_pay23 (boxV x7 x8 l5 l6 l7 l8 l10 l11 l12 l13) (k0_pay22 x0 x1 x3 x4) x5 x6

section
variable (h : Rows x2 l4 l5 l6 l7 l8 l10 l11 l12 l13)
include h

/-- The eight stacked feature rows at lane r are the block table's eight features of row r. -/
theorem feat_rows (r : Fin 2048) (k : Fin 8) :
    (![k0_pay12 l5 l7 l10 (ix2 0 r), k0_pay13 l6 l8 l11 (ix2 0 r), k0_pay14 l5 l7 l10 l12 (ix2 0 r),
        k0_pay15 l6 l8 l11 l13 (ix2 0 r), k0_pay16 l5 l10 l12 (ix2 0 r), k0_pay17 l6 l11 l13 (ix2 0 r),
        k0_pay18 l5 l7 l10 l12 (ix2 0 r), k0_pay19 l6 l8 l11 l13 (ix2 0 r)] : Fin 8 → EReal) k
      = feat (blockArgs x0 x1 x2 x3 x4 x5 x6 x7 x8) r k := by
  fin_cases k
  · show k0_pay12 l5 l7 l10 (ix2 0 r) = Ideal.div (x2 (ix2 5 r) - x2 (ix2 10 r)) (x2 (ix2 7 r) - x2 (ix2 5 r))
    rw [pay12_apply, h.h5, h.h7, h.h10]
  · show k0_pay13 l6 l8 l11 (ix2 0 r) = Ideal.div (x2 (ix2 6 r) - x2 (ix2 11 r)) (x2 (ix2 8 r) - x2 (ix2 6 r))
    rw [pay13_apply, h.h6, h.h8, h.h11]
  · show k0_pay14 l5 l7 l10 l12 (ix2 0 r)
      = Ideal.log (Ideal.div (x2 (ix2 7 r) - x2 (ix2 5 r)) (x2 (ix2 12 r) - x2 (ix2 10 r)))
    rw [pay14_apply, h.h5, h.h7, h.h10, h.h12]
  · show k0_pay15 l6 l8 l11 l13 (ix2 0 r)
      = Ideal.log (Ideal.div (x2 (ix2 8 r) - x2 (ix2 6 r)) (x2 (ix2 13 r) - x2 (ix2 11 r)))
    rw [pay15_apply, h.h6, h.h8, h.h11, h.h13]
  · show k0_pay16 l5 l10 l12 (ix2 0 r) = Ideal.div (x2 (ix2 10 r) - x2 (ix2 5 r)) (x2 (ix2 12 r) - x2 (ix2 10 r))
    rw [pay16_apply, h.h5, h.h10, h.h12]
  · show k0_pay17 l6 l11 l13 (ix2 0 r) = Ideal.div (x2 (ix2 11 r) - x2 (ix2 6 r)) (x2 (ix2 13 r) - x2 (ix2 11 r))
    rw [pay17_apply, h.h6, h.h11, h.h13]
  · show k0_pay18 l5 l7 l10 l12 (ix2 0 r)
      = Ideal.log (Ideal.div (x2 (ix2 12 r) - x2 (ix2 10 r)) (x2 (ix2 7 r) - x2 (ix2 5 r)))
    rw [pay18_apply, h.h5, h.h7, h.h10, h.h12]
  · show k0_pay19 l6 l8 l11 l13 (ix2 0 r)
      = Ideal.log (Ideal.div (x2 (ix2 13 r) - x2 (ix2 11 r)) (x2 (ix2 8 r) - x2 (ix2 6 r)))
    rw [pay19_apply, h.h6, h.h8, h.h11, h.h13]

/-- The box score row at lane r is the block table's box score of row r. -/
theorem box_rows (r : Fin 2048) :
    boxV x7 x8 l5 l6 l7 l8 l10 l11 l12 l13 (ix2 0 r) = box (blockArgs x0 x1 x2 x3 x4 x5 x6 x7 x8) r := by
  unfold boxV
  rw [pay20_apply]
  unfold box
  congr 1
  exact Finset.sum_congr rfl fun k _ => congrArg (· * x7 (ix2 k 0)) (feat_rows x0 x1 x3 x4 x5 x6 x7 x8 h r k)

omit h in
/-- The hidden layer at (r, j) is the block table's. -/
theorem hid_rows (r : Fin 2048) (j : Fin 300) :
    k0_pay22 x0 x1 x3 x4 (ix2 r j) = relu (pre (blockArgs x0 x1 x2 x3 x4 x5 x6 x7 x8) r j) :=
  (pay22_apply x0 x1 x3 x4 r j).trans rfl

/-- The score row at lane r is the block table's score of row r. -/
theorem score_rows (r : Fin 2048) :
    scoreV x0 x1 x3 x4 x5 x6 x7 x8 l5 l6 l7 l8 l10 l11 l12 l13 (ix2 0 r)
      = score (blockArgs x0 x1 x2 x3 x4 x5 x6 x7 x8) r := by
  unfold scoreV
  rw [pay23_apply, box_rows x0 x1 x3 x4 x5 x6 x7 x8 h r]
  unfold score lan
  congr 3
  exact Finset.sum_congr rfl fun j _ => congrArg (· * x5 (ix2 j 0)) (hid_rows (x2 := x2) x0 x1 x3 x4 x5 x6 x7 x8 r j)

/-- The label row at lane r is the block table's label of row r. -/
theorem lab_rows (r : Fin 2048) : k0_pay21 l4 (ix2 0 r) = y (blockArgs x0 x1 x2 x3 x4 x5 x6 x7 x8) r := by
  rw [pay21_apply, h.h4]
  rfl

/-- The negated cross-entropy row at lane r. -/
theorem term_rows (r : Fin 2048) :
    k0_pay25 (boxV x7 x8 l5 l6 l7 l8 l10 l11 l12 l13) (k0_pay21 l4) (k0_pay22 x0 x1 x3 x4) x5 x6 (ix2 0 r)
      = zeroW - term (blockArgs x0 x1 x2 x3 x4 x5 x6 x7 x8) r := by
  rw [pay25_apply, lab_rows x0 x1 x3 x4 x5 x6 x7 x8 h r]
  show zeroW - (_ * clampLog (scoreV x0 x1 x3 x4 x5 x6 x7 x8 l5 l6 l7 l8 l10 l11 l12 l13 (ix2 0 r))
      + _ * clampLog (oneW - scoreV x0 x1 x3 x4 x5 x6 x7 x8 l5 l6 l7 l8 l10 l11 l12 l13 (ix2 0 r))) = _
  rw [score_rows x0 x1 x3 x4 x5 x6 x7 x8 h r]
  rfl

/-- The "negative" bit at lane r. -/
theorem neg_rows (r : Fin 2048) : k0_pay26 (k0_pay21 l4) (ix2 0 r) = isNeg (blockArgs x0 x1 x2 x3 x4 x5 x6 x7 x8) r := by
  rw [pay26_apply, lab_rows x0 x1 x3 x4 x5 x6 x7 x8 h r]
  rfl

/-- The "positive" bit at lane r. -/
theorem pos_rows (r : Fin 2048) : k0_pay27 (k0_pay21 l4) (ix2 0 r) = isPos (blockArgs x0 x1 x2 x3 x4 x5 x6 x7 x8) r := by
  rw [pay27_apply, lab_rows x0 x1 x3 x4 x5 x6 x7 x8 h r]
  rfl

/-- The "negative scored at least one half" bit at lane r. -/
theorem negHigh_rows (r : Fin 2048) :
    k0_pay28 (boxV x7 x8 l5 l6 l7 l8 l10 l11 l12 l13) (k0_pay21 l4) (k0_pay22 x0 x1 x3 x4) x5 x6 (ix2 0 r)
      = negHigh (blockArgs x0 x1 x2 x3 x4 x5 x6 x7 x8) r := by
  rw [pay28_apply, lab_rows x0 x1 x3 x4 x5 x6 x7 x8 h r]
  show _ &&& Ideal.cmp .oge (scoreV x0 x1 x3 x4 x5 x6 x7 x8 l5 l6 l7 l8 l10 l11 l12 l13 (ix2 0 r)) halfW = _
  rw [score_rows x0 x1 x3 x4 x5 x6 x7 x8 h r]
  rfl

/-! ### The five cells -/

/-- Cell (0,0): the old value plus the block's sum of negated cross-entropy terms. -/
theorem cell0 (a : Vec Ideal S1x1 .f32) :
    k0_pay31 (k0_pay25 (boxV x7 x8 l5 l6 l7 l8 l10 l11 l12 l13) (k0_pay21 l4) (k0_pay22 x0 x1 x3 x4) x5 x6) a (ix2 0 0)
      = a (ix2 0 0) + incs (blockArgs x0 x1 x2 x3 x4 x5 x6 x7 x8) 0 := by
  rw [incs_0, pay31_apply]
  exact congrArg (a (ix2 0 0) + ·) (Finset.sum_congr rfl fun r _ => term_rows x0 x1 x3 x4 x5 x6 x7 x8 h r)

/-- Cell (1,0): plus the block's count of positives. -/
theorem cell1 (a : Vec Ideal S1x1 .f32) :
    k0_pay32 (k0_pay27 (k0_pay21 l4)) a (ix2 0 0) = a (ix2 0 0) + incs (blockArgs x0 x1 x2 x3 x4 x5 x6 x7 x8) 1 := by
  rw [incs_1, pay32_apply]
  exact congrArg (a (ix2 0 0) + ·)
    (Finset.sum_congr rfl fun r _ => congrArg ind (pos_rows x0 x1 x3 x4 x5 x6 x7 x8 h r))

/-- Cell (2,0): plus the block's count of negatives. -/
theorem cell2 (a : Vec Ideal S1x1 .f32) :
    k0_pay33 (k0_pay26 (k0_pay21 l4)) a (ix2 0 0) = a (ix2 0 0) + incs (blockArgs x0 x1 x2 x3 x4 x5 x6 x7 x8) 2 := by
  rw [incs_2, pay33_apply]
  exact congrArg (a (ix2 0 0) + ·)
    (Finset.sum_congr rfl fun r _ => congrArg ind (neg_rows x0 x1 x3 x4 x5 x6 x7 x8 h r))

/-- Cell (3,0): plus the block's count of negatives scored at least one half. -/
theorem cell3 (a : Vec Ideal S1x1 .f32) :
    k0_pay1 (k0_pay29 (k0_pay28 (boxV x7 x8 l5 l6 l7 l8 l10 l11 l12 l13) (k0_pay21 l4) (k0_pay22 x0 x1 x3 x4) x5 x6)) a
        (ix2 0 0)
      = a (ix2 0 0) + incs (blockArgs x0 x1 x2 x3 x4 x5 x6 x7 x8) 3 := by
  rw [incs_3, pay1_apply, pay29_apply]
  exact congrArg (a (ix2 0 0) + ·)
    (Finset.sum_congr rfl fun r _ => congrArg ind (negHigh_rows x0 x1 x3 x4 x5 x6 x7 x8 h r))

/-- Cell (4,0): plus the block's count of positives scored below one half. -/
theorem cell4 (a : Vec Ideal S1x1 .f32) :
    k0_pay2 (k0_pay30 (scoreV x0 x1 x3 x4 x5 x6 x7 x8 l5 l6 l7 l8 l10 l11 l12 l13) (k0_pay27 (k0_pay21 l4))) a (ix2 0 0)
      = a (ix2 0 0) + incs (blockArgs x0 x1 x2 x3 x4 x5 x6 x7 x8) 4 := by
  rw [incs_4, pay2_apply, pay30_apply]
  refine congrArg (a (ix2 0 0) + ·) (Finset.sum_congr rfl fun r _ => congrArg ind ?_)
  rw [pos_rows x0 x1 x3 x4 x5 x6 x7 x8 h r, score_rows x0 x1 x3 x4 x5 x6 x7 x8 h r]
  rfl

/-- The stored score column at row r. -/
theorem scoreCol_rows (r : Fin 2048) :
    k0_pay24 (boxV x7 x8 l5 l6 l7 l8 l10 l11 l12 l13) (k0_pay22 x0 x1 x3 x4) x5 x6 (ix2 r 0)
      = score (blockArgs x0 x1 x2 x3 x4 x5 x6 x7 x8) r :=
  (pay24_apply _ _ _ _ r).trans (score_rows x0 x1 x3 x4 x5 x6 x7 x8 h r)

end

end Cert.RelScore.K

end
-- ==== Proof.KCells.lean ====
/-
  Reading an 8×128 buffer after five one-cell stores.

  The body's last five stores each write ONE cell, (0,0), (1,0), (2,0), (3,0), (4,0), of the 8×128 accumulator
  (in that order, so the list holds the store into (4,0) first). Read back at an index (p, q): in column 0 and a
  row below 5 it is that row's stored value, anywhere else it is what the buffer held before those five stores.
  Also: loading one row of a two-dimensional block and reading it at a lane.
-/
import proofs.«119460_j32547262169374_2_alg».proof.KernelIdeal
import Idealize.ShloMosaic.Lib.WritesUnit
import Idealize.ShloMosaic.Lib.Pipeline.FrameBody
import Idealize.ShloMosaic.Lib.ValueIdx

noncomputable section

namespace Cert.RelScore.K

open Idealize.ShloMosaic Idealize.ShloMosaic.ValueIdx
open Cert.KernelIdeal

variable {sig' : RefSig} {κ : Kind} {sp : Space} {Val : EltTy → Type}

/-- That a one-cell rectangle at (k, 0) lies inside the 8×128 buffer. -/
abbrev CellIn (k : ℕ) : Prop := ∀ a, (![k, 0] : Fin 2 → ℕ) a + (![1, 1] : Fin 2 → ℕ) a ≤ S8x128.size a

/-- The five one-cell stores, newest first, over earlier contents or stores `L`. -/
abbrev fiveCells (i0 : CellIn 0) (i1 : CellIn 1) (i2 : CellIn 2) (i3 : CellIn 3) (i4 : CellIn 4)
    (w0 w1 w2 w3 w4 : S1x1.Idx → Val .f32) (L : List (View.Piece Val S8x128 .f32)) :
    List (View.Piece Val S8x128 .f32) :=
  (⟨Rect.unit ![4, 0] ![1, 1] i4, w4⟩ : View.Piece Val S8x128 .f32) ::
  (⟨Rect.unit ![3, 0] ![1, 1] i3, w3⟩ : View.Piece Val S8x128 .f32) ::
  (⟨Rect.unit ![2, 0] ![1, 1] i2, w2⟩ : View.Piece Val S8x128 .f32) ::
  (⟨Rect.unit ![1, 0] ![1, 1] i1, w1⟩ : View.Piece Val S8x128 .f32) ::
  (⟨Rect.unit ![0, 0] ![1, 1] i0, w0⟩ : View.Piece Val S8x128 .f32) :: L

section
variable (v : View sig' κ sp S8x128 .f32) (f : v.ty.Contents Val)
  (i0 : CellIn 0) (i1 : CellIn 1) (i2 : CellIn 2) (i3 : CellIn 3) (i4 : CellIn 4)
  (w0 w1 w2 w3 w4 : S1x1.Idx → Val .f32) (L : List (View.Piece Val S8x128 .f32))

/-- Outside column 0 the five cells are not touched. -/
theorem read_fiveCells_col (p : Fin 8) (q : Fin 128) (hq : q.val ≠ 0) :
    v.read Val (v.writes Val f (fiveCells i0 i1 i2 i3 i4 w0 w1 w2 w3 w4 L)) (ix2 p q) = v.read Val (v.writes Val f L) (ix2 p q) := by
  have h : ∀ k : ℕ, (((ix2 p q : S8x128.Idx) (1 : Fin 2)).val < (![k, 0] : Fin 2 → ℕ) 1
      ∨ (![k, 0] : Fin 2 → ℕ) 1 + (![1, 1] : Fin 2 → ℕ) 1 ≤ ((ix2 p q : S8x128.Idx) (1 : Fin 2)).val) := fun k => by
    right; show 0 + 1 ≤ q.val; omega
  unfold fiveCells
  rw [View.read_writes_cons_unit_of_not_mem v f _ _ _ _ rfl (1 : Fin 2) (h 4),
    View.read_writes_cons_unit_of_not_mem v f _ _ _ _ rfl (1 : Fin 2) (h 3),
    View.read_writes_cons_unit_of_not_mem v f _ _ _ _ rfl (1 : Fin 2) (h 2),
    View.read_writes_cons_unit_of_not_mem v f _ _ _ _ rfl (1 : Fin 2) (h 1),
    View.read_writes_cons_unit_of_not_mem v f _ _ _ _ rfl (1 : Fin 2) (h 0)]

/-- In rows 5, 6, 7 the five cells are not touched. -/
theorem read_fiveCells_row (p : Fin 8) (q : Fin 128) (hp : 5 ≤ p.val) :
    v.read Val (v.writes Val f (fiveCells i0 i1 i2 i3 i4 w0 w1 w2 w3 w4 L)) (ix2 p q) = v.read Val (v.writes Val f L) (ix2 p q) := by
  have h : ∀ k : ℕ, k < 5 → (((ix2 p q : S8x128.Idx) (0 : Fin 2)).val < (![k, 0] : Fin 2 → ℕ) 0
      ∨ (![k, 0] : Fin 2 → ℕ) 0 + (![1, 1] : Fin 2 → ℕ) 0 ≤ ((ix2 p q : S8x128.Idx) (0 : Fin 2)).val) := fun k hk => by
    right; show k + 1 ≤ p.val; omega
  unfold fiveCells
  rw [View.read_writes_cons_unit_of_not_mem v f _ _ _ _ rfl (0 : Fin 2) (h 4 (by omega)),
    View.read_writes_cons_unit_of_not_mem v f _ _ _ _ rfl (0 : Fin 2) (h 3 (by omega)),
    View.read_writes_cons_unit_of_not_mem v f _ _ _ _ rfl (0 : Fin 2) (h 2 (by omega)),
    View.read_writes_cons_unit_of_not_mem v f _ _ _ _ rfl (0 : Fin 2) (h 1 (by omega)),
    View.read_writes_cons_unit_of_not_mem v f _ _ _ _ rfl (0 : Fin 2) (h 0 (by omega))]

/-- A one-cell store at row k is skipped by a read at another row. -/
theorem skip_cell (k : ℕ) (inb : CellIn k)
    (w : (Rect.unit (s := S8x128) ![k, 0] ![1, 1] inb).shape.Idx → Val .f32) (L' : List (View.Piece Val S8x128 .f32))
    (p : Fin 8) (q : Fin 128) (hp : p.val ≠ k) :
    v.read Val (v.writes Val f ((⟨Rect.unit ![k, 0] ![1, 1] inb, w⟩ : View.Piece Val S8x128 .f32) :: L')) (ix2 p q)
      = v.read Val (v.writes Val f L') (ix2 p q) :=
  View.read_writes_cons_unit_of_not_mem v f inb w L' (ix2 p q) rfl (0 : Fin 2) (by
    show p.val < k ∨ k + 1 ≤ p.val; omega)

/-- A one-cell store at (k, 0) is what a read at (k, 0) finds. -/
theorem hit_cell (k : ℕ) (inb : CellIn k)
    (w : (Rect.unit (s := S8x128) ![k, 0] ![1, 1] inb).shape.Idx → Val .f32) (L' : List (View.Piece Val S8x128 .f32))
    (p : Fin 8) (q : Fin 128) (hp : p.val = k) (hq : q.val = 0) :
    v.read Val (v.writes Val f ((⟨Rect.unit ![k, 0] ![1, 1] inb, w⟩ : View.Piece Val S8x128 .f32) :: L')) (ix2 p q)
      = w (ix2 (0 : Fin 1) (0 : Fin 1)) :=
  View.read_writes_cons_unit_of_mem v f inb w L' (ix2 p q) (ix2 (0 : Fin 1) (0 : Fin 1)) rfl (by
    intro a
    match a with
    | ⟨0, _⟩ => show p.val = k + 0; omega
    | ⟨1, _⟩ => show q.val = 0 + 0; omega)

/-- The five cells read back at (p, 0), p < 5: that row's stored value. -/
theorem read_fiveCells_hit (p : Fin 8) (q : Fin 128) (hq : q.val = 0) (hp : p.val < 5) :
    v.read Val (v.writes Val f (fiveCells i0 i1 i2 i3 i4 w0 w1 w2 w3 w4 L)) (ix2 p q)
      = (![w0 (ix2 0 0), w1 (ix2 0 0), w2 (ix2 0 0), w3 (ix2 0 0), w4 (ix2 0 0)] : Fin 5 → Val .f32) ⟨p.val, hp⟩ := by
  unfold fiveCells
  obtain ⟨pv, hpv⟩ := p
  have h5 : pv < 5 := hp
  interval_cases pv
  · rw [skip_cell v f 4 _ _ _ _ _ (by dsimp only; omega), skip_cell v f 3 _ _ _ _ _ (by dsimp only; omega), skip_cell v f 2 _ _ _ _ _ (by dsimp only; omega),
      skip_cell v f 1 _ _ _ _ _ (by dsimp only; omega), hit_cell v f 0 _ _ _ _ _ rfl hq]; rfl
  · rw [skip_cell v f 4 _ _ _ _ _ (by dsimp only; omega), skip_cell v f 3 _ _ _ _ _ (by dsimp only; omega), skip_cell v f 2 _ _ _ _ _ (by dsimp only; omega),
      hit_cell v f 1 _ _ _ _ _ rfl hq]; rfl
  · rw [skip_cell v f 4 _ _ _ _ _ (by dsimp only; omega), skip_cell v f 3 _ _ _ _ _ (by dsimp only; omega), hit_cell v f 2 _ _ _ _ _ rfl hq]; rfl
  · rw [skip_cell v f 4 _ _ _ _ _ (by dsimp only; omega), hit_cell v f 3 _ _ _ _ _ rfl hq]; rfl
  · rw [hit_cell v f 4 _ _ _ _ _ rfl hq]; rfl

end

/-- One row of a two-dimensional block, loaded as a 1×W vector and read at lane r, is the block at (k, r). -/
theorem ld_row {H W : ℕ} {e : EltTy} (X : (⟨2, ![H, W]⟩ : Shape).Idx → Val e) (k : ℕ) (hk : k < H)
    (inb : ∀ a, (![k, 0] : Fin 2 → ℕ) a + (![1, W] : Fin 2 → ℕ) a ≤ (⟨2, ![H, W]⟩ : Shape).size a) (r : Fin W) :
    View.ld X (Rect.unit (s := ⟨2, ![H, W]⟩) ![k, 0] ![1, W] inb) (ix2 (0 : Fin 1) r) = X (ix2 ⟨k, hk⟩ r) := by
  show X _ = X _
  congr 1
  funext a
  apply Fin.ext
  match a with
  | ⟨0, _⟩ => show k + 1 * 0 = k; omega
  | ⟨1, _⟩ => show 0 + 1 * r.val = r.val; omega

/-- One cell of a two-dimensional block, loaded as a 1×1 vector, is the block at (k, 0). -/
theorem ld_cell {H W : ℕ} {e : EltTy} (X : (⟨2, ![H, W]⟩ : Shape).Idx → Val e) (k : ℕ) (hk : k < H) (hW : 0 < W)
    (inb : ∀ a, (![k, 0] : Fin 2 → ℕ) a + (![1, 1] : Fin 2 → ℕ) a ≤ (⟨2, ![H, W]⟩ : Shape).size a) :
    View.ld X (Rect.unit (s := ⟨2, ![H, W]⟩) ![k, 0] ![1, 1] inb) (ix2 (0 : Fin 1) (0 : Fin 1)) = X (ix2 ⟨k, hk⟩ ⟨0, hW⟩) := by
  show X _ = X _
  congr 1
  funext a
  apply Fin.ext
  match a with
  | ⟨0, _⟩ => show k + 1 * 0 = k; omega
  | ⟨1, _⟩ => show 0 + 1 * 0 = 0; omega

end Cert.RelScore.K

end
-- ==== Proof.KPiece.lean ====
/-
  What each control case of the body leaves, as the specification's functions of the point's own block table.

  The body has three cases by the step within a core: the first step (the accumulator is zeroed first), a middle
  step, the last step (the accumulator is also copied to the statistics block). In every case the score block ends
  holding the block table's scores; the accumulator ends with the block's five sums added into its cells (0,0) … (4,0)
  — onto zero at the first step, onto what the step before left otherwise.
  Each statement is read off the body's stores: a covering store leaves its value;
  five one-cell stores over earlier contents are read back cell by cell.
-/
import proofs.«119460_j32547262169374_2_alg».proof.Proof.KRows
import proofs.«119460_j32547262169374_2_alg».proof.Proof.KCells
import Idealize.ShloMosaic.Lib.Pipeline.Value
import Idealize.ShloMosaic.Lib.Tactic

set_option maxRecDepth 16384

noncomputable section

open scoped BigOperators

namespace Cert.RelScore.K

open Idealize.ShloMosaic Idealize.ShloMosaic.TcCoe Idealize.SL.Sem Idealize.ShloMosaic.ValueIdx
open Cert.KernelIdeal Cert.KernelIdeal.Gen Cert.RelScore

/-- Zero offsets, however spelt. -/
theorem hz : (![0, 0] : Fin 2 → Nat) = fun _ => 0 := funext fun a => by fin_cases a <;> rfl

/-- The nine row loads of the transposed relation block read its rows 4 … 13. -/
theorem rows_ld (x2 : Vec Ideal S15x2048 .f32) :
    Rows x2 (View.ld x2 (Rect.unit (s := S15x2048) ![4, 0] ![1, 2048] Gen.inb_S15x2048_S1x2048_4_0))
      (View.ld x2 (Rect.unit (s := S15x2048) ![5, 0] ![1, 2048] Gen.inb_S15x2048_S1x2048_5_0))
      (View.ld x2 (Rect.unit (s := S15x2048) ![6, 0] ![1, 2048] Gen.inb_S15x2048_S1x2048_6_0))
      (View.ld x2 (Rect.unit (s := S15x2048) ![7, 0] ![1, 2048] Gen.inb_S15x2048_S1x2048_7_0))
      (View.ld x2 (Rect.unit (s := S15x2048) ![8, 0] ![1, 2048] Gen.inb_S15x2048_S1x2048_8_0))
      (View.ld x2 (Rect.unit (s := S15x2048) ![10, 0] ![1, 2048] Gen.inb_S15x2048_S1x2048_10_0))
      (View.ld x2 (Rect.unit (s := S15x2048) ![11, 0] ![1, 2048] Gen.inb_S15x2048_S1x2048_11_0))
      (View.ld x2 (Rect.unit (s := S15x2048) ![12, 0] ![1, 2048] Gen.inb_S15x2048_S1x2048_12_0))
      (View.ld x2 (Rect.unit (s := S15x2048) ![13, 0] ![1, 2048] Gen.inb_S15x2048_S1x2048_13_0)) :=
  ⟨fun r => ld_row x2 4 (by omega) _ r, fun r => ld_row x2 5 (by omega) _ r, fun r => ld_row x2 6 (by omega) _ r,
    fun r => ld_row x2 7 (by omega) _ r, fun r => ld_row x2 8 (by omega) _ r, fun r => ld_row x2 10 (by omega) _ r,
    fun r => ld_row x2 11 (by omega) _ r, fun r => ld_row x2 12 (by omega) _ r, fun r => ld_row x2 13 (by omega) _ r⟩

theorem out9_A (c : Dev nD) (i : grid0.Coords) (arg2 : Memref sig .tc .vmem S2048x300 .f32) (harg2 : arg2.IsWhole) (arg3 : Memref sig .tc .vmem S2048x300 .f32) (harg3 : arg3.IsWhole) (arg4 : Memref sig .tc .vmem S15x2048 .f32) (harg4 : arg4.IsWhole) (arg5 : Memref sig .tc .vmem S600x300 .bf16) (harg5 : arg5.IsWhole) (arg6 : Memref sig .tc .vmem S1x300 .f32) (harg6 : arg6.IsWhole) (arg7 : Memref sig .tc .vmem S300x1 .bf16) (harg7 : arg7.IsWhole) (arg8 : Memref sig .tc .vmem S1x1 .f32) (harg8 : arg8.IsWhole) (arg9 : Memref sig .tc .vmem S8x1 .f32) (harg9 : arg9.IsWhole) (arg10 : Memref sig .tc .vmem S1x1 .f32) (harg10 : arg10.IsWhole) (arg11 : Memref sig .tc .vmem S2048x1 .f32) (harg11 : arg11.IsWhole) (arg12 : Memref sig .tc .vmem S8x128 .f32) (harg12 : arg12.IsWhole) (arg13 : Memref sig .tc .vmem S8x128 .f32) (harg13 : arg13.IsWhole) (hc0 : cond0_0 i) (hc1 : ¬cond0_1 i) (x0 : Vec Ideal S2048x300 .f32) (x1 : Vec Ideal S2048x300 .f32) (x2 : Vec Ideal S15x2048 .f32) (x3 : Vec Ideal S600x300 .bf16) (x4 : Vec Ideal S1x300 .f32) (x5 : Vec Ideal S300x1 .bf16) (x6 : Vec Ideal S1x1 .f32) (x7 : Vec Ideal S8x1 .f32) (x8 : Vec Ideal S1x1 .f32) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8
      = fun y => score (blockArgs x0 x1 x2 x3 x4 x5 x6 x7 x8) (y 0) := by
  funext y
  obtain ⟨r, q, rfl⟩ : ∃ (r : Fin 2048) (q : Fin 1), y = ix2 r q := ⟨y 0, y 1, eq_ix2 y⟩
  obtain rfl : q = 0 := Subsingleton.elim _ _
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  rw [View.canon_unit_zero hz]
  sl_unfold_words
  simp only [View.readAt_eq_ld, harg2.read_unread, harg3.read_unread, harg4.read_unread, harg5.read_unread, harg6.read_unread, harg7.read_unread, harg8.read_unread, harg9.read_unread, harg10.read_unread, View.ld_unit_zero (S := S2048x300) hz, View.ld_unit_zero (S := S600x300) hz, View.ld_unit_zero (S := S1x300) hz, View.ld_unit_zero (S := S300x1) hz, View.ld_unit_zero (S := S1x1) hz, View.ld_unit_zero (S := S8x1) hz]
  exact scoreCol_rows x0 x1 x3 x4 x5 x6 x7 x8 (rows_ld x2) r

theorem out9_B (c : Dev nD) (i : grid0.Coords) (arg2 : Memref sig .tc .vmem S2048x300 .f32) (harg2 : arg2.IsWhole) (arg3 : Memref sig .tc .vmem S2048x300 .f32) (harg3 : arg3.IsWhole) (arg4 : Memref sig .tc .vmem S15x2048 .f32) (harg4 : arg4.IsWhole) (arg5 : Memref sig .tc .vmem S600x300 .bf16) (harg5 : arg5.IsWhole) (arg6 : Memref sig .tc .vmem S1x300 .f32) (harg6 : arg6.IsWhole) (arg7 : Memref sig .tc .vmem S300x1 .bf16) (harg7 : arg7.IsWhole) (arg8 : Memref sig .tc .vmem S1x1 .f32) (harg8 : arg8.IsWhole) (arg9 : Memref sig .tc .vmem S8x1 .f32) (harg9 : arg9.IsWhole) (arg10 : Memref sig .tc .vmem S1x1 .f32) (harg10 : arg10.IsWhole) (arg11 : Memref sig .tc .vmem S2048x1 .f32) (harg11 : arg11.IsWhole) (arg12 : Memref sig .tc .vmem S8x128 .f32) (harg12 : arg12.IsWhole) (arg13 : Memref sig .tc .vmem S8x128 .f32) (harg13 : arg13.IsWhole) (hc0 : ¬cond0_0 i) (hc1 : ¬cond0_1 i) (x0 : Vec Ideal S2048x300 .f32) (x1 : Vec Ideal S2048x300 .f32) (x2 : Vec Ideal S15x2048 .f32) (x3 : Vec Ideal S600x300 .bf16) (x4 : Vec Ideal S1x300 .f32) (x5 : Vec Ideal S300x1 .bf16) (x6 : Vec Ideal S1x1 .f32) (x7 : Vec Ideal S8x1 .f32) (x8 : Vec Ideal S1x1 .f32) (xs0 : Vec Ideal S8x128 .f32) :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
      = fun y => score (blockArgs x0 x1 x2 x3 x4 x5 x6 x7 x8) (y 0) := by
  funext y
  obtain ⟨r, q, rfl⟩ : ∃ (r : Fin 2048) (q : Fin 1), y = ix2 r q := ⟨y 0, y 1, eq_ix2 y⟩
  obtain rfl : q = 0 := Subsingleton.elim _ _
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_B
  dsimp only
  rw [View.canon_unit_zero hz]
  sl_unfold_words
  simp only [View.readAt_eq_ld, harg2.read_unread, harg3.read_unread, harg4.read_unread, harg5.read_unread, harg6.read_unread, harg7.read_unread, harg8.read_unread, harg9.read_unread, harg10.read_unread, View.ld_unit_zero (S := S2048x300) hz, View.ld_unit_zero (S := S600x300) hz, View.ld_unit_zero (S := S1x300) hz, View.ld_unit_zero (S := S300x1) hz, View.ld_unit_zero (S := S1x1) hz, View.ld_unit_zero (S := S8x1) hz]
  exact scoreCol_rows x0 x1 x3 x4 x5 x6 x7 x8 (rows_ld x2) r

theorem out9_C (c : Dev nD) (i : grid0.Coords) (arg2 : Memref sig .tc .vmem S2048x300 .f32) (harg2 : arg2.IsWhole) (arg3 : Memref sig .tc .vmem S2048x300 .f32) (harg3 : arg3.IsWhole) (arg4 : Memref sig .tc .vmem S15x2048 .f32) (harg4 : arg4.IsWhole) (arg5 : Memref sig .tc .vmem S600x300 .bf16) (harg5 : arg5.IsWhole) (arg6 : Memref sig .tc .vmem S1x300 .f32) (harg6 : arg6.IsWhole) (arg7 : Memref sig .tc .vmem S300x1 .bf16) (harg7 : arg7.IsWhole) (arg8 : Memref sig .tc .vmem S1x1 .f32) (harg8 : arg8.IsWhole) (arg9 : Memref sig .tc .vmem S8x1 .f32) (harg9 : arg9.IsWhole) (arg10 : Memref sig .tc .vmem S1x1 .f32) (harg10 : arg10.IsWhole) (arg11 : Memref sig .tc .vmem S2048x1 .f32) (harg11 : arg11.IsWhole) (arg12 : Memref sig .tc .vmem S8x128 .f32) (harg12 : arg12.IsWhole) (arg13 : Memref sig .tc .vmem S8x128 .f32) (harg13 : arg13.IsWhole) (hc0 : ¬cond0_0 i) (hc1 : cond0_1 i) (x0 : Vec Ideal S2048x300 .f32) (x1 : Vec Ideal S2048x300 .f32) (x2 : Vec Ideal S15x2048 .f32) (x3 : Vec Ideal S600x300 .bf16) (x4 : Vec Ideal S1x300 .f32) (x5 : Vec Ideal S300x1 .bf16) (x6 : Vec Ideal S1x1 .f32) (x7 : Vec Ideal S8x1 .f32) (x8 : Vec Ideal S1x1 .f32) (xs0 : Vec Ideal S8x128 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
      = fun y => score (blockArgs x0 x1 x2 x3 x4 x5 x6 x7 x8) (y 0) := by
  funext y
  obtain ⟨r, q, rfl⟩ : ∃ (r : Fin 2048) (q : Fin 1), y = ix2 r q := ⟨y 0, y 1, eq_ix2 y⟩
  obtain rfl : q = 0 := Subsingleton.elim _ _
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  rw [View.canon_unit_zero hz]
  sl_unfold_words
  simp only [View.readAt_eq_ld, harg2.read_unread, harg3.read_unread, harg4.read_unread, harg5.read_unread, harg6.read_unread, harg7.read_unread, harg8.read_unread, harg9.read_unread, harg10.read_unread, View.ld_unit_zero (S := S2048x300) hz, View.ld_unit_zero (S := S600x300) hz, View.ld_unit_zero (S := S1x300) hz, View.ld_unit_zero (S := S300x1) hz, View.ld_unit_zero (S := S1x1) hz, View.ld_unit_zero (S := S8x1) hz]
  exact scoreCol_rows x0 x1 x3 x4 x5 x6 x7 x8 (rows_ld x2) r

theorem acc_B (c : Dev nD) (i : grid0.Coords) (arg2 : Memref sig .tc .vmem S2048x300 .f32) (harg2 : arg2.IsWhole) (arg3 : Memref sig .tc .vmem S2048x300 .f32) (harg3 : arg3.IsWhole) (arg4 : Memref sig .tc .vmem S15x2048 .f32) (harg4 : arg4.IsWhole) (arg5 : Memref sig .tc .vmem S600x300 .bf16) (harg5 : arg5.IsWhole) (arg6 : Memref sig .tc .vmem S1x300 .f32) (harg6 : arg6.IsWhole) (arg7 : Memref sig .tc .vmem S300x1 .bf16) (harg7 : arg7.IsWhole) (arg8 : Memref sig .tc .vmem S1x1 .f32) (harg8 : arg8.IsWhole) (arg9 : Memref sig .tc .vmem S8x1 .f32) (harg9 : arg9.IsWhole) (arg10 : Memref sig .tc .vmem S1x1 .f32) (harg10 : arg10.IsWhole) (arg11 : Memref sig .tc .vmem S2048x1 .f32) (harg11 : arg11.IsWhole) (arg12 : Memref sig .tc .vmem S8x128 .f32) (harg12 : arg12.IsWhole) (arg13 : Memref sig .tc .vmem S8x128 .f32) (harg13 : arg13.IsWhole) (hc0 : ¬cond0_0 i) (hc1 : ¬cond0_1 i) (x0 : Vec Ideal S2048x300 .f32) (x1 : Vec Ideal S2048x300 .f32) (x2 : Vec Ideal S15x2048 .f32) (x3 : Vec Ideal S600x300 .bf16) (x4 : Vec Ideal S1x300 .f32) (x5 : Vec Ideal S300x1 .bf16) (x6 : Vec Ideal S1x1 .f32) (x7 : Vec Ideal S8x1 .f32) (x8 : Vec Ideal S1x1 .f32) (xs0 : Vec Ideal S8x128 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
      = accUpd (incs (blockArgs x0 x1 x2 x3 x4 x5 x6 x7 x8)) xs0 := by
  funext y
  obtain ⟨p, q, rfl⟩ : ∃ (p : Fin 8) (q : Fin 128), y = ix2 p q := ⟨y 0, y 1, eq_ix2 y⟩
  unfold sout0_B_0
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, View.ld_unit_zero (S := S2048x300) hz, View.ld_unit_zero (S := S600x300) hz, View.ld_unit_zero (S := S1x300) hz, View.ld_unit_zero (S := S300x1) hz, View.ld_unit_zero (S := S1x1) hz, View.ld_unit_zero (S := S8x1) hz]
  unfold accUpd
  by_cases hq : q.val = 0
  · by_cases hp : p.val < 5
    · rw [dif_pos (show ((ix2 p q : S8x128.Idx) 1).val = 0 ∧ ((ix2 p q : S8x128.Idx) 0).val < 5 from ⟨hq, hp⟩)]
      refine (read_fiveCells_hit arg13.view (harg13.unread xs0) _ _ _ _ _ _ _ _ _ _ [] p q hq hp).trans ?_
      have hx : xs0 (ix2 p q) = xs0 (ix2 p (0 : Fin 128)) := congrArg (fun q' => xs0 (ix2 p q')) (Fin.ext hq)
      rw [hx]
      obtain ⟨pv, hpv⟩ := p
      have h5 : pv < 5 := hp
      interval_cases pv
      · exact (cell0 x0 x1 x3 x4 x5 x6 x7 x8 (rows_ld x2) _).trans
          (congrArg (· + incs (blockArgs x0 x1 x2 x3 x4 x5 x6 x7 x8) 0) (ld_cell xs0 0 (by omega) (by omega) _))
      · exact (cell1 x0 x1 x3 x4 x5 x6 x7 x8 (rows_ld x2) _).trans
          (congrArg (· + incs (blockArgs x0 x1 x2 x3 x4 x5 x6 x7 x8) 1) (ld_cell xs0 1 (by omega) (by omega) _))
      · exact (cell2 x0 x1 x3 x4 x5 x6 x7 x8 (rows_ld x2) _).trans
          (congrArg (· + incs (blockArgs x0 x1 x2 x3 x4 x5 x6 x7 x8) 2) (ld_cell xs0 2 (by omega) (by omega) _))
      · exact (cell3 x0 x1 x3 x4 x5 x6 x7 x8 (rows_ld x2) _).trans
          (congrArg (· + incs (blockArgs x0 x1 x2 x3 x4 x5 x6 x7 x8) 3) (ld_cell xs0 3 (by omega) (by omega) _))
      · exact (cell4 x0 x1 x3 x4 x5 x6 x7 x8 (rows_ld x2) _).trans
          (congrArg (· + incs (blockArgs x0 x1 x2 x3 x4 x5 x6 x7 x8) 4) (ld_cell xs0 4 (by omega) (by omega) _))
    · rw [dif_neg (show ¬(((ix2 p q : S8x128.Idx) 1).val = 0 ∧ ((ix2 p q : S8x128.Idx) 0).val < 5) from fun h => hp h.2)]
      exact (read_fiveCells_row arg13.view (harg13.unread xs0) _ _ _ _ _ _ _ _ _ _ [] p q (by omega)).trans
        (congrFun (harg13.read_unread xs0) (ix2 p q))
  · rw [dif_neg (show ¬(((ix2 p q : S8x128.Idx) 1).val = 0 ∧ ((ix2 p q : S8x128.Idx) 0).val < 5) from fun h => hq h.1)]
    exact (read_fiveCells_col arg13.view (harg13.unread xs0) _ _ _ _ _ _ _ _ _ _ [] p q hq).trans
      (congrFun (harg13.read_unread xs0) (ix2 p q))

theorem acc_C (c : Dev nD) (i : grid0.Coords) (arg2 : Memref sig .tc .vmem S2048x300 .f32) (harg2 : arg2.IsWhole) (arg3 : Memref sig .tc .vmem S2048x300 .f32) (harg3 : arg3.IsWhole) (arg4 : Memref sig .tc .vmem S15x2048 .f32) (harg4 : arg4.IsWhole) (arg5 : Memref sig .tc .vmem S600x300 .bf16) (harg5 : arg5.IsWhole) (arg6 : Memref sig .tc .vmem S1x300 .f32) (harg6 : arg6.IsWhole) (arg7 : Memref sig .tc .vmem S300x1 .bf16) (harg7 : arg7.IsWhole) (arg8 : Memref sig .tc .vmem S1x1 .f32) (harg8 : arg8.IsWhole) (arg9 : Memref sig .tc .vmem S8x1 .f32) (harg9 : arg9.IsWhole) (arg10 : Memref sig .tc .vmem S1x1 .f32) (harg10 : arg10.IsWhole) (arg11 : Memref sig .tc .vmem S2048x1 .f32) (harg11 : arg11.IsWhole) (arg12 : Memref sig .tc .vmem S8x128 .f32) (harg12 : arg12.IsWhole) (arg13 : Memref sig .tc .vmem S8x128 .f32) (harg13 : arg13.IsWhole) (hc0 : ¬cond0_0 i) (hc1 : cond0_1 i) (x0 : Vec Ideal S2048x300 .f32) (x1 : Vec Ideal S2048x300 .f32) (x2 : Vec Ideal S15x2048 .f32) (x3 : Vec Ideal S600x300 .bf16) (x4 : Vec Ideal S1x300 .f32) (x5 : Vec Ideal S300x1 .bf16) (x6 : Vec Ideal S1x1 .f32) (x7 : Vec Ideal S8x1 .f32) (x8 : Vec Ideal S1x1 .f32) (xs0 : Vec Ideal S8x128 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
      = accUpd (incs (blockArgs x0 x1 x2 x3 x4 x5 x6 x7 x8)) xs0 := by
  funext y
  obtain ⟨p, q, rfl⟩ : ∃ (p : Fin 8) (q : Fin 128), y = ix2 p q := ⟨y 0, y 1, eq_ix2 y⟩
  unfold sout0_C_0
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg13.read_unread, View.ld_unit_zero (S := S2048x300) hz, View.ld_unit_zero (S := S600x300) hz, View.ld_unit_zero (S := S1x300) hz, View.ld_unit_zero (S := S300x1) hz, View.ld_unit_zero (S := S1x1) hz, View.ld_unit_zero (S := S8x1) hz]
  unfold accUpd
  by_cases hq : q.val = 0
  · by_cases hp : p.val < 5
    · rw [dif_pos (show ((ix2 p q : S8x128.Idx) 1).val = 0 ∧ ((ix2 p q : S8x128.Idx) 0).val < 5 from ⟨hq, hp⟩)]
      refine (read_fiveCells_hit arg13.view (harg13.unread xs0) _ _ _ _ _ _ _ _ _ _ [] p q hq hp).trans ?_
      have hx : xs0 (ix2 p q) = xs0 (ix2 p (0 : Fin 128)) := congrArg (fun q' => xs0 (ix2 p q')) (Fin.ext hq)
      rw [hx]
      obtain ⟨pv, hpv⟩ := p
      have h5 : pv < 5 := hp
      interval_cases pv
      · exact (cell0 x0 x1 x3 x4 x5 x6 x7 x8 (rows_ld x2) _).trans
          (congrArg (· + incs (blockArgs x0 x1 x2 x3 x4 x5 x6 x7 x8) 0) (ld_cell xs0 0 (by omega) (by omega) _))
      · exact (cell1 x0 x1 x3 x4 x5 x6 x7 x8 (rows_ld x2) _).trans
          (congrArg (· + incs (blockArgs x0 x1 x2 x3 x4 x5 x6 x7 x8) 1) (ld_cell xs0 1 (by omega) (by omega) _))
      · exact (cell2 x0 x1 x3 x4 x5 x6 x7 x8 (rows_ld x2) _).trans
          (congrArg (· + incs (blockArgs x0 x1 x2 x3 x4 x5 x6 x7 x8) 2) (ld_cell xs0 2 (by omega) (by omega) _))
      · exact (cell3 x0 x1 x3 x4 x5 x6 x7 x8 (rows_ld x2) _).trans
          (congrArg (· + incs (blockArgs x0 x1 x2 x3 x4 x5 x6 x7 x8) 3) (ld_cell xs0 3 (by omega) (by omega) _))
      · exact (cell4 x0 x1 x3 x4 x5 x6 x7 x8 (rows_ld x2) _).trans
          (congrArg (· + incs (blockArgs x0 x1 x2 x3 x4 x5 x6 x7 x8) 4) (ld_cell xs0 4 (by omega) (by omega) _))
    · rw [dif_neg (show ¬(((ix2 p q : S8x128.Idx) 1).val = 0 ∧ ((ix2 p q : S8x128.Idx) 0).val < 5) from fun h => hp h.2)]
      exact (read_fiveCells_row arg13.view (harg13.unread xs0) _ _ _ _ _ _ _ _ _ _ [] p q (by omega)).trans
        (congrFun (harg13.read_unread xs0) (ix2 p q))
  · rw [dif_neg (show ¬(((ix2 p q : S8x128.Idx) 1).val = 0 ∧ ((ix2 p q : S8x128.Idx) 0).val < 5) from fun h => hq h.1)]
    exact (read_fiveCells_col arg13.view (harg13.unread xs0) _ _ _ _ _ _ _ _ _ _ [] p q hq).trans
      (congrFun (harg13.read_unread xs0) (ix2 p q))

/-- The whole-buffer zero store read back: zero everywhere. -/
theorem zeroStore_read {sig' : RefSig} {κ : Kind} {sp : Space} (v : View sig' κ sp S8x128 .f32)
    (f : v.ty.Contents (Elt Ideal)) (inb : ∀ a, (![0, 0] : Fin 2 → ℕ) a + S8x128.size a ≤ S8x128.size a) (y : S8x128.Idx) :
    v.read (Elt Ideal) (v.writes (Elt Ideal) f [(⟨Rect.unit ![0, 0] S8x128.size inb, k0_pay3 (F := Ideal)⟩ : View.Piece (Elt Ideal) S8x128 .f32)]) y
      = zeroW :=
  (View.read_writes_cons_unit_of_mem v f inb (k0_pay3 (F := Ideal)) [] y y rfl (fun a => by
    match a with
    | ⟨0, _⟩ => show (y 0).val = 0 + (y 0).val; omega
    | ⟨1, _⟩ => show (y 1).val = 0 + (y 1).val; omega)).trans (Pay.pay3_apply y)

/-- A one-cell load at (k, 0) of what earlier stores left is the buffer read at (k, 0). -/
theorem cov_cell {sig' : RefSig} {κ : Kind} {sp : Space} (v : View sig' κ sp S8x128 .f32)
    (L : List (View.Piece (Elt Ideal) S8x128 .f32)) (k : ℕ) (hk : k < 8) (inb : CellIn k) :
    v.readCov L (Rect.unit (s := S8x128) ![k, 0] ![1, 1] inb).toLoadRect (ix2 (0 : Fin 1) (0 : Fin 1))
      = v.read (Elt Ideal) (v.writes (Elt Ideal) v.junk L) (ix2 (⟨k, hk⟩ : Fin 8) (0 : Fin 128)) := by
  show v.read (Elt Ideal) (v.writes (Elt Ideal) v.junk L) _ = _
  congr 1
  funext a
  apply Fin.ext
  match a with
  | ⟨0, _⟩ => show k + 1 * 0 = k; omega
  | ⟨1, _⟩ => show 0 + 1 * 0 = 0; omega

theorem acc_A (c : Dev nD) (i : grid0.Coords) (arg2 : Memref sig .tc .vmem S2048x300 .f32) (harg2 : arg2.IsWhole) (arg3 : Memref sig .tc .vmem S2048x300 .f32) (harg3 : arg3.IsWhole) (arg4 : Memref sig .tc .vmem S15x2048 .f32) (harg4 : arg4.IsWhole) (arg5 : Memref sig .tc .vmem S600x300 .bf16) (harg5 : arg5.IsWhole) (arg6 : Memref sig .tc .vmem S1x300 .f32) (harg6 : arg6.IsWhole) (arg7 : Memref sig .tc .vmem S300x1 .bf16) (harg7 : arg7.IsWhole) (arg8 : Memref sig .tc .vmem S1x1 .f32) (harg8 : arg8.IsWhole) (arg9 : Memref sig .tc .vmem S8x1 .f32) (harg9 : arg9.IsWhole) (arg10 : Memref sig .tc .vmem S1x1 .f32) (harg10 : arg10.IsWhole) (arg11 : Memref sig .tc .vmem S2048x1 .f32) (harg11 : arg11.IsWhole) (arg12 : Memref sig .tc .vmem S8x128 .f32) (harg12 : arg12.IsWhole) (arg13 : Memref sig .tc .vmem S8x128 .f32) (harg13 : arg13.IsWhole) (hc0 : cond0_0 i) (hc1 : ¬cond0_1 i) (x0 : Vec Ideal S2048x300 .f32) (x1 : Vec Ideal S2048x300 .f32) (x2 : Vec Ideal S15x2048 .f32) (x3 : Vec Ideal S600x300 .bf16) (x4 : Vec Ideal S1x300 .f32) (x5 : Vec Ideal S300x1 .bf16) (x6 : Vec Ideal S1x1 .f32) (x7 : Vec Ideal S8x1 .f32) (x8 : Vec Ideal S1x1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8
      = accOf fun j => zeroW + incs (blockArgs x0 x1 x2 x3 x4 x5 x6 x7 x8) j := by
  funext y
  obtain ⟨p, q, rfl⟩ : ∃ (p : Fin 8) (q : Fin 128), y = ix2 p q := ⟨y 0, y 1, eq_ix2 y⟩
  unfold sout0_A_0
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, View.ld_unit_zero (S := S2048x300) hz, View.ld_unit_zero (S := S600x300) hz, View.ld_unit_zero (S := S1x300) hz, View.ld_unit_zero (S := S300x1) hz, View.ld_unit_zero (S := S1x1) hz, View.ld_unit_zero (S := S8x1) hz]
  unfold accOf
  by_cases hq : q.val = 0
  · by_cases hp : p.val < 5
    · rw [dif_pos (show ((ix2 p q : S8x128.Idx) 1).val = 0 ∧ ((ix2 p q : S8x128.Idx) 0).val < 5 from ⟨hq, hp⟩)]
      refine (read_fiveCells_hit VS0_0 VS0_0.junk _ _ _ _ _ _ _ _ _ _ _ p q hq hp).trans ?_
      obtain ⟨pv, hpv⟩ := p
      have h5 : pv < 5 := hp
      interval_cases pv
      · refine (cell0 x0 x1 x3 x4 x5 x6 x7 x8 (rows_ld x2) _).trans
          (congrArg (· + incs (blockArgs x0 x1 x2 x3 x4 x5 x6 x7 x8) 0) ?_)
        rw [cov_cell arg13.view _ 0 (by omega)]
        exact zeroStore_read arg13.view _ _ _
      · refine (cell1 x0 x1 x3 x4 x5 x6 x7 x8 (rows_ld x2) _).trans
          (congrArg (· + incs (blockArgs x0 x1 x2 x3 x4 x5 x6 x7 x8) 1) ?_)
        rw [cov_cell arg13.view _ 1 (by omega), skip_cell arg13.view _ 0 _ _ _ _ _ (by dsimp only; omega)]
        exact zeroStore_read arg13.view _ _ _
      · refine (cell2 x0 x1 x3 x4 x5 x6 x7 x8 (rows_ld x2) _).trans
          (congrArg (· + incs (blockArgs x0 x1 x2 x3 x4 x5 x6 x7 x8) 2) ?_)
        rw [cov_cell arg13.view _ 2 (by omega), skip_cell arg13.view _ 1 _ _ _ _ _ (by dsimp only; omega),
          skip_cell arg13.view _ 0 _ _ _ _ _ (by dsimp only; omega)]
        exact zeroStore_read arg13.view _ _ _
      · refine (cell3 x0 x1 x3 x4 x5 x6 x7 x8 (rows_ld x2) _).trans
          (congrArg (· + incs (blockArgs x0 x1 x2 x3 x4 x5 x6 x7 x8) 3) ?_)
        rw [cov_cell arg13.view _ 3 (by omega), skip_cell arg13.view _ 2 _ _ _ _ _ (by dsimp only; omega),
          skip_cell arg13.view _ 1 _ _ _ _ _ (by dsimp only; omega), skip_cell arg13.view _ 0 _ _ _ _ _ (by dsimp only; omega)]
        exact zeroStore_read arg13.view _ _ _
      · refine (cell4 x0 x1 x3 x4 x5 x6 x7 x8 (rows_ld x2) _).trans
          (congrArg (· + incs (blockArgs x0 x1 x2 x3 x4 x5 x6 x7 x8) 4) ?_)
        rw [cov_cell arg13.view _ 4 (by omega), skip_cell arg13.view _ 3 _ _ _ _ _ (by dsimp only; omega),
          skip_cell arg13.view _ 2 _ _ _ _ _ (by dsimp only; omega), skip_cell arg13.view _ 1 _ _ _ _ _ (by dsimp only; omega),
          skip_cell arg13.view _ 0 _ _ _ _ _ (by dsimp only; omega)]
        exact zeroStore_read arg13.view _ _ _
    · rw [dif_neg (show ¬(((ix2 p q : S8x128.Idx) 1).val = 0 ∧ ((ix2 p q : S8x128.Idx) 0).val < 5) from fun h => hp h.2)]
      exact (read_fiveCells_row VS0_0 VS0_0.junk _ _ _ _ _ _ _ _ _ _ _ p q (by omega)).trans
        (zeroStore_read VS0_0 _ _ _)
  · rw [dif_neg (show ¬(((ix2 p q : S8x128.Idx) 1).val = 0 ∧ ((ix2 p q : S8x128.Idx) 0).val < 5) from fun h => hq h.1)]
    exact (read_fiveCells_col VS0_0 VS0_0.junk _ _ _ _ _ _ _ _ _ _ _ p q hq).trans (zeroStore_read VS0_0 _ _ _)

/-- At a core's last step the body copies the updated accumulator into the statistics block. -/
theorem out10_C (c : Dev nD) (i : grid0.Coords) (arg2 : Memref sig .tc .vmem S2048x300 .f32) (harg2 : arg2.IsWhole) (arg3 : Memref sig .tc .vmem S2048x300 .f32) (harg3 : arg3.IsWhole) (arg4 : Memref sig .tc .vmem S15x2048 .f32) (harg4 : arg4.IsWhole) (arg5 : Memref sig .tc .vmem S600x300 .bf16) (harg5 : arg5.IsWhole) (arg6 : Memref sig .tc .vmem S1x300 .f32) (harg6 : arg6.IsWhole) (arg7 : Memref sig .tc .vmem S300x1 .bf16) (harg7 : arg7.IsWhole) (arg8 : Memref sig .tc .vmem S1x1 .f32) (harg8 : arg8.IsWhole) (arg9 : Memref sig .tc .vmem S8x1 .f32) (harg9 : arg9.IsWhole) (arg10 : Memref sig .tc .vmem S1x1 .f32) (harg10 : arg10.IsWhole) (arg11 : Memref sig .tc .vmem S2048x1 .f32) (harg11 : arg11.IsWhole) (arg12 : Memref sig .tc .vmem S8x128 .f32) (harg12 : arg12.IsWhole) (arg13 : Memref sig .tc .vmem S8x128 .f32) (harg13 : arg13.IsWhole) (hc0 : ¬cond0_0 i) (hc1 : cond0_1 i) (x0 : Vec Ideal S2048x300 .f32) (x1 : Vec Ideal S2048x300 .f32) (x2 : Vec Ideal S15x2048 .f32) (x3 : Vec Ideal S600x300 .bf16) (x4 : Vec Ideal S1x300 .f32) (x5 : Vec Ideal S300x1 .bf16) (x6 : Vec Ideal S1x1 .f32) (x7 : Vec Ideal S8x1 .f32) (x8 : Vec Ideal S1x1 .f32) (xs0 : Vec Ideal S8x128 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
      = accUpd (incs (blockArgs x0 x1 x2 x3 x4 x5 x6 x7 x8)) xs0 := by
  rw [← acc_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0]
  unfold out0_C_10 sout0_C_0
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  rw [View.canon_unit_zero hz]
  sl_unfold_words
  simp only [View.readAt_eq_ld, View.ld_unit_zero (S := S8x128) hz]

end Cert.RelScore.K

end
-- ==== Proof.KBlocks.lean ====
/-
  The kernel's blocks are the table's rows.

  At grid point t (64 points) the body sees, of each of its nine argument arrays, one block. The subject and object
  tables (131072 × 300) are cut along rows into blocks of 2048 rows: block t holds rows 2048 t … 2048 t + 2047. The
  relation table (131072 × 15) was transposed before the region to 15 × 131072 and is cut along columns: column r of
  block t is row 2048 t + r of the relation table. The weights are not cut at all: their one block is the whole array
  — the two matrices converted to a narrower float type (at exact arithmetic the same numbers), the biases reshaped to
  1 × 300 and 1 × 1.

  A block's entry at a coordinate y is its array's entry at (block index × block size + y), axis by axis; the block
  indices are decided once over the grid (`idx_rows`, `idx_whole`, `idx_outs`). So row r of the block table at
  point t and row 2048 t + r of the whole table hold the same entries, under the same weights: `sameRow`.
-/
import proofs.«119460_j32547262169374_2_alg».proof.Proof.KDefs
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

noncomputable section

namespace Cert.RelScore.K

open Idealize.ShloMosaic Idealize.ShloMosaic.TcCoe Idealize.SL.Sem Idealize.ShloMosaic.ValueIdx
open Cert.KernelIdeal Cert.KernelIdeal.Gen Cert.RelScore

variable (m : (ℓ : Loc nD τ sig) → Buf (Elt Ideal) ℓ)

/-! ## The block indices over the grid -/

/-- The block index maps of the row-blocked windows, decided over the 64 grid points: the subject and object tables
    are blocked along rows (block t), the transposed relation table along columns (block t). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The weights' windows hold their whole arrays at every point: block index (0, 0). -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The two results' windows: the scores are blocked along rows (block t), the accumulator has one block per core
    (block t / 32). -/
theorem idx_outs : ∀ t : Fin cfg0.N,
    win0_9.index t (0 : Fin 2) = t.val ∧ win0_9.index t (1 : Fin 2) = 0
    ∧ win0_10.index t (0 : Fin 2) = t.val / 32 ∧ win0_10.index t (1 : Fin 2) = 0 :=
  (by decide +kernel : ∀ t : Fin grid0.N, _)

/-! ## The arrays the host prepared before the region -/

/-- The first layer's weights, converted to the narrower float type: at exact arithmetic the same numbers. -/
theorem V_w1 (c : Dev nD) : (V m c main_v0 : S600x300.Idx → EReal) = m ((c.tc : Thread nD τ).loc main_arg5) := by
  show StableHlo.after hostOps0 (fun b => m (c, b)) (Proc.devRef .tc main_v0) = _
  after_results
  rfl

/-- The second layer's weights, likewise. -/
theorem V_w2 (c : Dev nD) : (V m c main_v1 : S300x1.Idx → EReal) = m ((c.tc : Thread nD τ).loc main_arg7) := by
  show StableHlo.after hostOps0 (fun b => m (c, b)) (Proc.devRef .tc main_v1) = _
  after_results
  rfl

/-- The first layer's bias as a 1 × 300 array. -/
theorem V_b1 (c : Dev nD) : (V m c main_v2 : S1x300.Idx → EReal)
    = shapeCast S1x300 (m ((c.tc : Thread nD τ).loc main_arg6)) shapeCasts_S300_S1x300 := by
  show StableHlo.after hostOps0 (fun b => m (c, b)) (Proc.devRef .tc main_v2) = _
  after_results
  rfl

/-- The second layer's bias as a 1 × 1 array. -/
theorem V_b2 (c : Dev nD) : (V m c main_v3 : S1x1.Idx → EReal)
    = shapeCast S1x1 (m ((c.tc : Thread nD τ).loc main_arg8)) shapeCasts_S1_S1x1 := by
  show StableHlo.after hostOps0 (fun b => m (c, b)) (Proc.devRef .tc main_v3) = _
  after_results
  rfl

/-- The box score's bias as a 1 × 1 array. -/
theorem V_sb (c : Dev nD) : (V m c main_v4 : S1x1.Idx → EReal)
    = shapeCast S1x1 (m ((c.tc : Thread nD τ).loc main_arg4)) shapeCasts_S1_S1x1 := by
  show StableHlo.after hostOps0 (fun b => m (c, b)) (Proc.devRef .tc main_v4) = _
  after_results
  rfl

/-- The relation table, transposed to 15 × 131072. -/
theorem V_rl (c : Dev nD) : (V m c main_v5 : S15x131072.Idx → EReal)
    = transpose S15x131072 [1, 0] (m ((c.tc : Thread nD τ).loc main_arg2)) transposes_S131072x15_S15x131072_1_0 := by
  show StableHlo.after hostOps0 (fun b => m (c, b)) (Proc.devRef .tc main_v5) = _
  after_results

/-! ## The subject table's block -/

/-- Row r of block t of the subject table is row 2048 t + r of the table. -/
theorem blk0_apply (c : Dev nD) (t : Fin cfg0.N) (r : Fin 2048) (k : Fin 300) :
    (iblk m c 0 t : Vec Ideal S2048x300 .f32) (ix2 r k) = m ((c.tc : Thread nD τ).loc main_arg0) (ix2 (rowAt t r) k) := by
  have hi := idx_rows t
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * r.val = t.val * 2048 + r.val; rw [hi.1]; omega
  | ⟨1, _⟩ => show win0_0.index t 1 * 300 + 1 * k.val = k.val; rw [hi.2.1]; omega

/-! ## The blocks read at an index -/

/-- Row r of block t of the object table is row 2048 t + r of the table. -/
theorem blk1_apply (c : Dev nD) (t : Fin cfg0.N) (r : Fin 2048) (k : Fin 300) :
    (iblk m c 1 t : Vec Ideal S2048x300 .f32) (ix2 r k) = m ((c.tc : Thread nD τ).loc main_arg1) (ix2 (rowAt t r) k) := by
  have hi := idx_rows t
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * r.val = t.val * 2048 + r.val; rw [hi.2.2.1]; omega
  | ⟨1, _⟩ => show win0_1.index t 1 * 300 + 1 * k.val = k.val; rw [hi.2.2.2.1]; omega

/-- Column r of block t of the transposed relation table is row 2048 t + r of the relation table. -/
theorem blk2_apply (c : Dev nD) (t : Fin cfg0.N) (r : Fin 2048) (k : Fin 15) :
    (iblk m c 2 t : Vec Ideal S15x2048 .f32) (ix2 k r) = m ((c.tc : Thread nD τ).loc main_arg2) (ix2 (rowAt t r) k) := by
  have hi := idx_rows t
  unfold iblk
  rw [View.read_apply]
  show V m c main_v5 _ = m (c.tc.loc main_arg2) _
  refine (congrFun (V_rl m c) _).trans ?_
  refine Eq.trans ?_ (transpose_ix2_apply (m ((c.tc : Thread nD τ).loc main_arg2)) transposes_S131072x15_S15x131072_1_0 k (rowAt t r))
  congr 1
  funext a
  apply Fin.ext
  match a with
  | ⟨0, _⟩ => show win0_2.index t 0 * 15 + 1 * k.val = k.val; rw [hi.2.2.2.2.1]; omega
  | ⟨1, _⟩ => show win0_2.index t 1 * 2048 + 1 * r.val = t.val * 2048 + r.val; rw [hi.2.2.2.2.2]; omega

/-- The first layer's weights arrive whole at every point. -/
theorem blk3_eq (c : Dev nD) (t : Fin cfg0.N) :
    (iblk m c 3 t : Vec Ideal S600x300 .bf16) = m ((c.tc : Thread nD τ).loc main_arg5) := by
  have hi := idx_whole t
  funext y
  unfold iblk
  rw [View.read_apply]
  show V m c main_v0 _ = m (c.tc.loc main_arg5) y
  refine (congrFun (V_w1 m c) _).trans ?_
  congr 1
  funext a
  apply Fin.ext
  match a with
  | ⟨0, _⟩ => show win0_3.index t 0 * 600 + 1 * (y 0).val = (y 0).val; rw [hi.1]; omega
  | ⟨1, _⟩ => show win0_3.index t 1 * 300 + 1 * (y 1).val = (y 1).val; rw [hi.2.1]; omega

/-- The first layer's bias arrives whole, as a 1 × 300 block. -/
theorem blk4_apply (c : Dev nD) (t : Fin cfg0.N) (j : Fin 300) :
    (iblk m c 4 t : Vec Ideal S1x300 .f32) (ix2 0 j) = m ((c.tc : Thread nD τ).loc main_arg6) (ix1 j) := by
  have hi := idx_whole t
  unfold iblk
  rw [View.read_apply]
  show V m c main_v2 _ = m (c.tc.loc main_arg6) _
  refine (congrFun (V_b1 m c) _).trans ?_
  refine Eq.trans ?_ (shapeCast_a_1a_apply (m ((c.tc : Thread nD τ).loc main_arg6)) shapeCasts_S300_S1x300 0 j)
  congr 1
  funext a
  apply Fin.ext
  match a with
  | ⟨0, _⟩ => show win0_4.index t 0 * 1 + 1 * 0 = 0; rw [hi.2.2.1]
  | ⟨1, _⟩ => show win0_4.index t 1 * 300 + 1 * j.val = j.val; rw [hi.2.2.2.1]; omega

/-- The second layer's weights arrive whole at every point. -/
theorem blk5_eq (c : Dev nD) (t : Fin cfg0.N) :
    (iblk m c 5 t : Vec Ideal S300x1 .bf16) = m ((c.tc : Thread nD τ).loc main_arg7) := by
  have hi := idx_whole t
  funext y
  unfold iblk
  rw [View.read_apply]
  show V m c main_v1 _ = m (c.tc.loc main_arg7) y
  refine (congrFun (V_w2 m c) _).trans ?_
  congr 1
  funext a
  apply Fin.ext
  match a with
  | ⟨0, _⟩ => show win0_5.index t 0 * 300 + 1 * (y 0).val = (y 0).val; rw [hi.2.2.2.2.1]; omega
  | ⟨1, _⟩ => show win0_5.index t 1 * 1 + 1 * (y 1).val = (y 1).val; rw [hi.2.2.2.2.2.1]; omega

/-- The second layer's bias arrives as a 1 × 1 block. -/
theorem blk6_apply (c : Dev nD) (t : Fin cfg0.N) :
    (iblk m c 6 t : Vec Ideal S1x1 .f32) (ix2 0 0) = m ((c.tc : Thread nD τ).loc main_arg8) (ix1 0) := by
  have hi := idx_whole t
  unfold iblk
  rw [View.read_apply]
  show V m c main_v3 _ = m (c.tc.loc main_arg8) _
  refine (congrFun (V_b2 m c) _).trans ?_
  refine Eq.trans ?_ (shapeCast_a_1a_apply (m ((c.tc : Thread nD τ).loc main_arg8)) shapeCasts_S1_S1x1 0 0)
  congr 1
  funext a
  apply Fin.ext
  match a with
  | ⟨0, _⟩ => show win0_6.index t 0 * 1 + 1 * 0 = 0; rw [hi.2.2.2.2.2.2.1]
  | ⟨1, _⟩ => show win0_6.index t 1 * 1 + 1 * 0 = 0; rw [hi.2.2.2.2.2.2.2.1]

/-- The box score's weights arrive whole at every point. -/
theorem blk7_eq (c : Dev nD) (t : Fin cfg0.N) :
    (iblk m c 7 t : Vec Ideal S8x1 .f32) = m ((c.tc : Thread nD τ).loc main_arg3) := by
  have hi := idx_whole t
  funext y
  unfold iblk
  rw [View.read_apply]
  show V m c main_arg3 _ = m (c.tc.loc main_arg3) y
  rw [V_main_arg3]
  congr 1
  funext a
  apply Fin.ext
  match a with
  | ⟨0, _⟩ => show win0_7.index t 0 * 8 + 1 * (y 0).val = (y 0).val; rw [hi.2.2.2.2.2.2.2.2.1]; omega
  | ⟨1, _⟩ => show win0_7.index t 1 * 1 + 1 * (y 1).val = (y 1).val; rw [hi.2.2.2.2.2.2.2.2.2.1]; omega

/-- The box score's bias arrives as a 1 × 1 block. -/
theorem blk8_apply (c : Dev nD) (t : Fin cfg0.N) :
    (iblk m c 8 t : Vec Ideal S1x1 .f32) (ix2 0 0) = m ((c.tc : Thread nD τ).loc main_arg4) (ix1 0) := by
  have hi := idx_whole t
  unfold iblk
  rw [View.read_apply]
  show V m c main_v4 _ = m (c.tc.loc main_arg4) _
  refine (congrFun (V_sb m c) _).trans ?_
  refine Eq.trans ?_ (shapeCast_a_1a_apply (m ((c.tc : Thread nD τ).loc main_arg4)) shapeCasts_S1_S1x1 0 0)
  congr 1
  funext a
  apply Fin.ext
  match a with
  | ⟨0, _⟩ => show win0_8.index t 0 * 1 + 1 * 0 = 0; rw [hi.2.2.2.2.2.2.2.2.2.2.1]
  | ⟨1, _⟩ => show win0_8.index t 1 * 1 + 1 * 0 = 0; rw [hi.2.2.2.2.2.2.2.2.2.2.2]

/-! ## A block's rows are the table's rows -/

/-- Row r of grid point t's block table is row 2048 t + r of the whole table, and the weights are the same. -/
theorem sameRow (c : Dev nD) (t : Fin cfg0.N) (r : Fin 2048) : SameRow (argsOf m c) (blkAt m c t) (rowAt t r) r where
  sbj k := (blk0_apply m c t r k).symm
  obj k := (blk1_apply m c t r k).symm
  rl k := (blk2_apply m c t r k).symm
  sw := (blk7_eq m c t).symm
  sb := by
    funext j
    have hj : j = ix1 (0 : Fin 1) := (eq_ix1 j).trans (congrArg ix1 (Fin.eq_zero (j 0)))
    rw [hj]
    exact (blk8_apply m c t).symm
  w1 := (blk3_eq m c t).symm
  b1 := by
    funext j
    rw [eq_ix1 j]
    exact (blk4_apply m c t (j 0)).symm
  w2 := (blk5_eq m c t).symm
  b2 := by
    funext j
    have hj : j = ix1 (0 : Fin 1) := (eq_ix1 j).trans (congrArg ix1 (Fin.eq_zero (j 0)))
    rw [hj]
    exact (blk6_apply m c t).symm

end Cert.RelScore.K

end
-- ==== Proof.KInduct.lean ====
/-
  The accumulation across the grid, by induction on the point.

  A block's five sums are the whole table's block sums (a block's rows are rows of the table). At a core's first step
  the accumulator starts from zero, so it holds that block's sums; at every later step it adds the block's sums to what
  the step before left: the core's running totals. The score block of every point holds its rows' scores.
-/
import proofs.«119460_j32547262169374_2_alg».proof.Proof.KPiece
import proofs.«119460_j32547262169374_2_alg».proof.Proof.KBlocks
import proofs.«119460_j32547262169374_2_alg».proof.Proof.KStats
import proofs.«119460_j32547262169374_2_alg».proof.Proof.SumLaws

set_option maxRecDepth 16384

noncomputable section

open scoped BigOperators

namespace Cert.RelScore.K

open Idealize.ShloMosaic Idealize.ShloMosaic.TcCoe Idealize.SL.Sem Idealize.ShloMosaic.ValueIdx
open Cert.KernelIdeal Cert.KernelIdeal.Gen Cert.RelScore

variable (m : (ℓ : Loc nD τ sig) → Buf (Elt Ideal) ℓ)

/-- The five sums of point t's block are the table's block sums number t. -/
theorem incs_blk (c : Dev nD) (t : Fin cfg0.N) (j : Fin 5) :
    incs (blkAt m c t) j = blockSum (termsOf (argsOf m c) j) t.val := by
  have ht : t.val < 64 := lt_of_lt_of_eq t.isLt N_0
  unfold blockSum
  rw [dif_pos ht]
  have hrow : ∀ r : Fin 2048, rowOf ⟨t.val, ht⟩ r = rowAt t r := fun r => Fin.ext rfl
  fin_cases j
  · show ∑ r, (zeroW - term (blkAt m c t) r) = ∑ l, (zeroW - term (argsOf m c) (rowOf ⟨t.val, ht⟩ l))
    exact Finset.sum_congr rfl fun r _ => by rw [hrow, (sameRow m c t r).term]
  · show ∑ r, ind (isPos (blkAt m c t) r) = ∑ l, ind (isPos (argsOf m c) (rowOf ⟨t.val, ht⟩ l))
    exact Finset.sum_congr rfl fun r _ => by rw [hrow, (sameRow m c t r).isPos]
  · show ∑ r, ind (isNeg (blkAt m c t) r) = ∑ l, ind (isNeg (argsOf m c) (rowOf ⟨t.val, ht⟩ l))
    exact Finset.sum_congr rfl fun r _ => by rw [hrow, (sameRow m c t r).isNeg]
  · show ∑ r, ind (negHigh (blkAt m c t) r) = ∑ l, ind (negHigh (argsOf m c) (rowOf ⟨t.val, ht⟩ l))
    exact Finset.sum_congr rfl fun r _ => by rw [hrow, (sameRow m c t r).negHigh]
  · show ∑ r, ind (posLow (blkAt m c t) r) = ∑ l, ind (posLow (argsOf m c) (rowOf ⟨t.val, ht⟩ l))
    exact Finset.sum_congr rfl fun r _ => by rw [hrow, (sameRow m c t r).posLow]

/-- The score block of point t holds the scores of the table's rows 2048 t … 2048 t + 2047. -/
theorem scoreBlk (c : Dev nD) (t : Fin cfg0.N) :
    (fun y : S2048x1.Idx => score (blkAt m c t) (y 0)) = fun y => score (argsOf m c) (rowAt ⟨t.val, t.isLt⟩ (y 0)) :=
  funext fun y => ((sameRow m c t (y 0)).score).symm

/-- A core's running totals at its first step: that block's sums onto zero. -/
theorem run_first (c : Dev nD) (t : Fin cfg0.N) (h0 : t.val % 32 = 0) :
    (fun j => zeroW + incs (blkAt m c t) j) = runAt m c t.val := by
  funext j
  unfold runAt
  rw [h0, zeroW_eq, zero_add, incs_blk]
  show _ = blockSum _ (32 * (t.val / 32))
  congr 1
  omega

/-- A core's running totals at a later step: the step before's plus that block's sums. -/
theorem run_next (c : Dev nD) (t : Fin cfg0.N) (h0 : ¬t.val % 32 = 0) :
    (fun j => runAt m c (t.val - 1) j + incs (blkAt m c t) j) = runAt m c t.val := by
  funext j
  unfold runAt
  obtain ⟨k, hk⟩ : ∃ k, t.val % 32 = k + 1 := Nat.exists_eq_succ_of_ne_zero h0
  have h1 : (t.val - 1) % 32 = k := by omega
  have h2 : (t.val - 1) / 32 = t.val / 32 := by omega
  rw [hk, h1, h2, incs_blk]
  show _ = running _ _ k + blockSum _ (32 * (t.val / 32) + (k + 1))
  congr 2
  omega

/-- THE INVARIANT holds at every point. -/
theorem inv_all (c : Dev nD) : ∀ (n : ℕ) (h : n < cfg0.N), Inv m c n h := by
  intro n
  induction n with
  | zero =>
    intro h
    unfold Inv
    rw [outsAt0_A m c ⟨0, h⟩ (Nat.zero_mod _) (by dsimp only; omega)]
    dsimp only
    refine ⟨?_, fun h31 => absurd h31 (by decide), ?_⟩
    · rw [out9_A]; exact scoreBlk m c ⟨0, h⟩
    · rw [acc_A]; exact congrArg accOf (run_first m c ⟨0, h⟩ (Nat.zero_mod _))
  | succ n ih =>
    intro h
    have ihn := ih (Nat.lt_of_succ_lt h)
    unfold Inv at ihn ⊢
    by_cases h0 : (n + 1) % 32 = 0
    · have h1 : ¬(n + 1) % 32 = 31 := by omega
      rw [outsAt0_A m c ⟨n + 1, h⟩ h0 h1]
      dsimp only
      refine ⟨?_, fun h31 => absurd h31 h1, ?_⟩
      · rw [out9_A]; exact scoreBlk m c ⟨n + 1, h⟩
      · rw [acc_A]; exact congrArg accOf (run_first m c ⟨n + 1, h⟩ h0)
    · by_cases h1 : (n + 1) % 32 = 31
      · rw [outsAt0_C m c ⟨n + 1, h⟩ h0 h1]
        dsimp only
        have hp : (outsAt0 m c (n + 1 - 1) (Nat.lt_of_le_of_lt (Nat.sub_le _ _) h)).2.2 = accOf (runAt m c (n + 1 - 1)) :=
          ihn.2.2
        refine ⟨?_, fun _ => ?_, ?_⟩
        · rw [out9_C]; exact scoreBlk m c ⟨n + 1, h⟩
        · rw [out10_C, hp, accUpd_accOf]; exact congrArg accOf (run_next m c ⟨n + 1, h⟩ h0)
        · rw [acc_C, hp, accUpd_accOf]; exact congrArg accOf (run_next m c ⟨n + 1, h⟩ h0)
      · rw [outsAt0_B m c ⟨n + 1, h⟩ h0 h1]
        dsimp only
        have hp : (outsAt0 m c (n + 1 - 1) (Nat.lt_of_le_of_lt (Nat.sub_le _ _) h)).2.2 = accOf (runAt m c (n + 1 - 1)) :=
          ihn.2.2
        refine ⟨?_, fun h31 => absurd h31 h1, ?_⟩
        · rw [out9_B]; exact scoreBlk m c ⟨n + 1, h⟩
        · rw [acc_B, hp, accUpd_accOf]; exact congrArg accOf (run_next m c ⟨n + 1, h⟩ h0)

end Cert.RelScore.K

end
-- ==== Proof.KTail.lean ====
/-
  The host operations after the region: ten cells of the 16×128 array of block totals (rows 0–4 of column 0 hold one
  core's five totals, rows 8–12 the other's) are sliced out, reshaped to scalars, added in pairs and divided.
-/
import proofs.«119460_j32547262169374_2_alg».proof.Proof.KDefs
import Idealize.ShloMosaic.Lib.Pipeline.Value
import Idealize.ShloMosaic.Lib.ValueLayout
import Idealize.ShloMosaic.Lib.StableHlo.Run
import Idealize.ShloMosaic.Lib.Tactic

noncomputable section

namespace Cert.RelScore.K

open Cert.KernelIdeal Cert.KernelIdeal.Gen Cert.RelScore Idealize.ShloMosaic Idealize.ShloMosaic.TcCoe Idealize.SL.Sem
  Idealize.ShloMosaic.ValueIdx

variable (m : (ℓ : Loc nD τ sig) → Buf (Elt Ideal) ℓ) (c : Dev nD)

/-- Cell (p, 0) of a 16×128 array, sliced out as a 1×1 array and reshaped to a scalar. -/
theorem cell_apply (S : S16x128.Idx → EReal) (p : Fin 16) (h : S16x128.Slices ![p.val, 0] S1x1) (i : S_.Idx) :
    shapeCast S_ (extractStridedSlice S1x1 ![p.val, 0] S h) shapeCasts_S1x1_S_ i = S (ix2 p 0) := by
  have e1 : S1x1.numel = 1 := by decide
  have e0 : S_.numel = 1 := by decide
  refine (shapeCast_apply _ shapeCasts_S1x1_S_ i (ix2 0 0) (by
    have h1 := (S1x1.rowMajor (ix2 0 0)).isLt; have h2 := (S_.rowMajor i).isLt; omega)).trans ?_
  exact extractStridedSlice_apply _ S h (ix2 0 0) (ix2 p 0) (fun a => by
    match a with
    | ⟨0, _⟩ => rfl
    | ⟨1, _⟩ => rfl)

/-- The same with the row given as a number. -/
theorem cell_nat (S : S16x128.Idx → EReal) (p : Nat) (hp : p < 16) (h : S16x128.Slices ![p, 0] S1x1) (i : S_.Idx) :
    shapeCast S_ (extractStridedSlice S1x1 ![p, 0] S h) shapeCasts_S1x1_S_ i = S (ix2 ⟨p, hp⟩ 0) :=
  cell_apply S ⟨p, hp⟩ h i

/-- The region leaves the 16×128 array of block totals at the array's reference. -/
theorem region_array (S : S16x128.Idx → EReal) (hS : (dats m 0 c).arrAt 10 cfg0.N = S) :
    Pipeline.withArrays (cfgs 0).spec c (V0 m c) (fun w => (dats m 0 c).arrAt w (cfgs 0).N) (Proc.devRef .tc main_v6_1) = S :=
  (Pipeline.withArrays_arr spec0 launch0.win.arr_inj c _ _ 10).trans hS

/-- Result 1 before its sign: the two cores' totals of the negated terms, added and divided by the row count. -/
theorem tail_loss (S : S16x128.Idx → EReal) (hS : (dats m 0 c).arrAt 10 cfg0.N = S) :
    Pipeline.afterTail₀ cfgs (dats m) 0 (V0 m) [hostOps1] c main_v32
      = fun _ => Ideal.div (S (ix2 0 0) + S (ix2 8 0)) countW := by
  unfold Pipeline.afterTail₀
  show StableHlo.after hostOps1 _ (Proc.devRef .tc main_v32) = _
  after_results_simp
  rw [region_array m c S hS]
  funext i
  show Ideal.div (shapeCast S_ (extractStridedSlice S1x1 ![0, 0] S slices_S16x128_S1x1_0_0) shapeCasts_S1x1_S_ i + shapeCast S_ (extractStridedSlice S1x1 ![8, 0] S slices_S16x128_S1x1_8_0) shapeCasts_S1x1_S_ i) countW = _
  rw [cell_nat S 0 (by decide) slices_S16x128_S1x1_0_0 i, cell_nat S 8 (by decide) slices_S16x128_S1x1_8_0 i]
  rfl

/-- Result 2: negatives scored high over positives, each the sum of the two cores' counts. -/
theorem tail_ratio1 (S : S16x128.Idx → EReal) (hS : (dats m 0 c).arrAt 10 cfg0.N = S) :
    Pipeline.afterTail₀ cfgs (dats m) 0 (V0 m) [hostOps1] c main_v33
      = fun _ => Ideal.div (S (ix2 3 0) + S (ix2 11 0)) (S (ix2 1 0) + S (ix2 9 0)) := by
  unfold Pipeline.afterTail₀
  show StableHlo.after hostOps1 _ (Proc.devRef .tc main_v33) = _
  after_results_simp
  rw [region_array m c S hS]
  funext i
  show Ideal.div (shapeCast S_ (extractStridedSlice S1x1 ![3, 0] S slices_S16x128_S1x1_3_0) shapeCasts_S1x1_S_ i + shapeCast S_ (extractStridedSlice S1x1 ![11, 0] S slices_S16x128_S1x1_11_0) shapeCasts_S1x1_S_ i)
      (shapeCast S_ (extractStridedSlice S1x1 ![1, 0] S slices_S16x128_S1x1_1_0) shapeCasts_S1x1_S_ i + shapeCast S_ (extractStridedSlice S1x1 ![9, 0] S slices_S16x128_S1x1_9_0) shapeCasts_S1x1_S_ i) = _
  rw [cell_nat S 3 (by decide) slices_S16x128_S1x1_3_0 i, cell_nat S 11 (by decide) slices_S16x128_S1x1_11_0 i, cell_nat S 1 (by decide) slices_S16x128_S1x1_1_0 i, cell_nat S 9 (by decide) slices_S16x128_S1x1_9_0 i]
  rfl

/-- Result 3: positives scored low over negatives. -/
theorem tail_ratio2 (S : S16x128.Idx → EReal) (hS : (dats m 0 c).arrAt 10 cfg0.N = S) :
    Pipeline.afterTail₀ cfgs (dats m) 0 (V0 m) [hostOps1] c main_v34
      = fun _ => Ideal.div (S (ix2 4 0) + S (ix2 12 0)) (S (ix2 2 0) + S (ix2 10 0)) := by
  unfold Pipeline.afterTail₀
  show StableHlo.after hostOps1 _ (Proc.devRef .tc main_v34) = _
  after_results_simp
  rw [region_array m c S hS]
  funext i
  show Ideal.div (shapeCast S_ (extractStridedSlice S1x1 ![4, 0] S slices_S16x128_S1x1_4_0) shapeCasts_S1x1_S_ i + shapeCast S_ (extractStridedSlice S1x1 ![12, 0] S slices_S16x128_S1x1_12_0) shapeCasts_S1x1_S_ i)
      (shapeCast S_ (extractStridedSlice S1x1 ![2, 0] S slices_S16x128_S1x1_2_0) shapeCasts_S1x1_S_ i + shapeCast S_ (extractStridedSlice S1x1 ![10, 0] S slices_S16x128_S1x1_10_0) shapeCasts_S1x1_S_ i) = _
  rw [cell_nat S 4 (by decide) slices_S16x128_S1x1_4_0 i, cell_nat S 12 (by decide) slices_S16x128_S1x1_12_0 i, cell_nat S 2 (by decide) slices_S16x128_S1x1_2_0 i, cell_nat S 10 (by decide) slices_S16x128_S1x1_10_0 i]
  rfl

/-- Result 4: all misclassified rows over all rows. -/
theorem tail_ratio3 (S : S16x128.Idx → EReal) (hS : (dats m 0 c).arrAt 10 cfg0.N = S) :
    Pipeline.afterTail₀ cfgs (dats m) 0 (V0 m) [hostOps1] c main_v37
      = fun _ => Ideal.div ((S (ix2 3 0) + S (ix2 11 0)) + (S (ix2 4 0) + S (ix2 12 0)))
          ((S (ix2 1 0) + S (ix2 9 0)) + (S (ix2 2 0) + S (ix2 10 0))) := by
  unfold Pipeline.afterTail₀
  show StableHlo.after hostOps1 _ (Proc.devRef .tc main_v37) = _
  after_results_simp
  rw [region_array m c S hS]
  funext i
  show Ideal.div ((shapeCast S_ (extractStridedSlice S1x1 ![3, 0] S slices_S16x128_S1x1_3_0) shapeCasts_S1x1_S_ i + shapeCast S_ (extractStridedSlice S1x1 ![11, 0] S slices_S16x128_S1x1_11_0) shapeCasts_S1x1_S_ i)
        + (shapeCast S_ (extractStridedSlice S1x1 ![4, 0] S slices_S16x128_S1x1_4_0) shapeCasts_S1x1_S_ i + shapeCast S_ (extractStridedSlice S1x1 ![12, 0] S slices_S16x128_S1x1_12_0) shapeCasts_S1x1_S_ i))
      ((shapeCast S_ (extractStridedSlice S1x1 ![1, 0] S slices_S16x128_S1x1_1_0) shapeCasts_S1x1_S_ i + shapeCast S_ (extractStridedSlice S1x1 ![9, 0] S slices_S16x128_S1x1_9_0) shapeCasts_S1x1_S_ i)
        + (shapeCast S_ (extractStridedSlice S1x1 ![2, 0] S slices_S16x128_S1x1_2_0) shapeCasts_S1x1_S_ i + shapeCast S_ (extractStridedSlice S1x1 ![10, 0] S slices_S16x128_S1x1_10_0) shapeCasts_S1x1_S_ i)) = _
  rw [cell_nat S 3 (by decide) slices_S16x128_S1x1_3_0 i, cell_nat S 11 (by decide) slices_S16x128_S1x1_11_0 i, cell_nat S 4 (by decide) slices_S16x128_S1x1_4_0 i, cell_nat S 12 (by decide) slices_S16x128_S1x1_12_0 i, cell_nat S 1 (by decide) slices_S16x128_S1x1_1_0 i, cell_nat S 9 (by decide) slices_S16x128_S1x1_9_0 i, cell_nat S 2 (by decide) slices_S16x128_S1x1_2_0 i, cell_nat S 10 (by decide) slices_S16x128_S1x1_10_0 i]
  rfl

end Cert.RelScore.K

end
-- ==== Proof.KFlush.lean ====
/-
  From the blocks the kernel writes back to the two result arrays.

  The score array (131072 × 1) is written back in 64 blocks of 2048 rows, block t at grid point t: what point t
  writes is the scores of rows 2048 t … 2048 t + 2047, which is block t of the score column, and row i is in the
  block of point i / 2048. So the score array ends holding the score column.

  The statistics array (16 × 128) has one block of 8 rows per core, written back at the core's last step only
  (points 31 and 63): what that point writes is the core's accumulator after its step 31, which is the core's block of
  the statistics, and row i of 16 is in the block of point 32 (i / 8) + 31. So the statistics array ends holding the
  two cores' five totals.

  The invariant of the points (what the staging blocks hold after each point) is a hypothesis here.
-/
import proofs.«119460_j32547262169374_2_alg».proof.Proof.KStats
import proofs.«119460_j32547262169374_2_alg».proof.Proof.KBlocks
import Idealize.ShloMosaic.Lib.Pipeline.Value

noncomputable section

namespace Cert.RelScore.K

open Idealize.ShloMosaic Idealize.ShloMosaic.TcCoe Idealize.SL.Sem Idealize.ShloMosaic.ValueIdx
open Idealize.ShloMosaic.Pipeline (Dat)
open Cert.KernelIdeal Cert.KernelIdeal.Gen Cert.RelScore

variable (m : (ℓ : Loc nD τ sig) → Buf (Elt Ideal) ℓ) (c : Dev nD)
  (hinv : ∀ (n : ℕ) (h : n < cfg0.N), Inv m c n h)

/-- The score column as contents of the score array. -/
abbrev scoreArr : Buf (Elt Ideal) ((c : Thread nD τ).loc main_v6_0) := scores (argsOf m c)

/-- The statistics as contents of the statistics array. -/
abbrev statsArr : Buf (Elt Ideal) ((c : Thread nD τ).loc main_v6_1) := statsOf m c

/-! ## The score array -/

include hinv in
/-- What point t writes back is block t of the score column. -/
theorem flushed9_eq (t : Fin cfg0.N) :
    (dats m 0 c).flushed 9 t = ((cfg0.win 9).blk t).view.read (Elt Ideal) (scoreArr m c) := by
  show (cfg0.win 9).cut (grid0.coords t) ((dats m 0 c).after 9 t) = _
  rw [after0_9, (hinv t.val t.isLt).1]
  funext j
  show score (argsOf m c) (rowAt ⟨t.val, t.isLt⟩ (j 0)) = scores (argsOf m c) (((cfg0.win 9).blk t).view.emb j)
  unfold scores
  refine congrArg (score (argsOf m c)) (Fin.ext ?_)
  show t.val * 2048 + (j 0).val = win0_9.index t 0 * 2048 + 1 * (j 0).val
  rw [(idx_outs t).1]; omega

/-- An index of the score array is in point t's block iff each coordinate is in the block's range on its axis. -/
theorem mem_blk9 (t : Fin cfg0.N) (i : S131072x1.Idx) :
    i ∈ ((cfg0.win 9).blk t).view.set ↔ ∀ a : Fin 2, win0_9.index t a * S2048x1.size a ≤ (i a).val ∧ (i a).val < win0_9.index t a * S2048x1.size a + S2048x1.size a := by
  show i ∈ ((View.whole main_v6_0).slice (win0_9.rect t)).set ↔ _
  rw [View.set_slice_whole, Rect.mem_set_unit]
  exact Iff.rfl

/-- Row i of the score array is in the block of point i / 2048. -/
theorem cover9 (i : S131072x1.Idx) :
    ∃ t : Fin cfg0.N, (cfg0.win 9).flush t = true ∧ i ∈ ((cfg0.win 9).blk t).view.set := by
  have hi0 : (i 0).val < 131072 := (i 0).isLt
  have hi1 : (i 1).val < 1 := (i 1).isLt
  obtain ⟨t, ht⟩ : ∃ t : Fin cfg0.N, t.val = (i 0).val / 2048 :=
    ⟨⟨(i 0).val / 2048, lt_of_lt_of_eq (by omega : (i 0).val / 2048 < 64) N_0.symm⟩, rfl⟩
  refine ⟨t, flush0_9 t, ?_⟩
  rw [mem_blk9]
  obtain ⟨e0, e1, -, -⟩ := idx_outs t
  intro a
  match a with
  | ⟨0, _⟩ => show win0_9.index t 0 * 2048 ≤ (i 0).val ∧ (i 0).val < win0_9.index t 0 * 2048 + 2048; omega
  | ⟨1, _⟩ => show win0_9.index t 1 * 1 ≤ (i 1).val ∧ (i 1).val < win0_9.index t 1 * 1 + 1; omega

include hinv in
/-- The score array after the run is the score column. -/
theorem final9 : (dats m 0 c).arrAt 9 cfg0.N = scores (argsOf m c) :=
  (dats m 0 c).arrAt_eq_of_cover 9 (scoreArr m c) (fun t _ => flushed9_eq m c hinv t) cover9

/-! ## The statistics array -/

/-- The statistics at row (n / 32) * 8 + r, for a core's last point n, is that core's accumulator at row r. -/
theorem statsOf_at (i : S16x128.Idx) (j : S8x128.Idx) (n : ℕ) (h31 : n % 32 = 31)
    (h0 : (i 0).val = n / 32 * 8 + (j 0).val) (h1 : (i 1).val = (j 1).val) :
    statsOf m c i = accOf (runAt m c n) j := by
  have hj0 : (j 0).val < 8 := (j 0).isLt
  have hq : (i 0).val / 8 = n / 32 := by omega
  have hy : (ix2 (⟨(i 0).val % 8, Nat.mod_lt _ (by decide)⟩ : Fin 8) (i 1) : S8x128.Idx) = j :=
    funext fun a => Fin.ext (by
      match a with
      | ⟨0, _⟩ => show (i 0).val % 8 = (j 0).val; omega
      | ⟨1, _⟩ => exact h1)
  unfold statsOf runAt
  rw [hy, hq, h31]

include hinv in
/-- What a core's last point writes back is that core's block of the statistics. -/
theorem flushed10_eq (t : Fin cfg0.N) (hf : (cfg0.win 10).flush t = true) :
    (dats m 0 c).flushed 10 t = ((cfg0.win 10).blk t).view.read (Elt Ideal) (statsArr m c) := by
  have h31 : t.val % 32 = 31 := (flush0_10 t).mp hf
  show (cfg0.win 10).cut (grid0.coords t) ((dats m 0 c).after 10 t) = _
  rw [after0_10, (hinv t.val t.isLt).2.1 h31]
  funext j
  show accOf (runAt m c t.val) j = statsOf m c (((cfg0.win 10).blk t).view.emb j)
  obtain ⟨-, -, e2, e3⟩ := idx_outs t
  refine (statsOf_at m c _ j t.val h31 ?_ ?_).symm
  · show win0_10.index t 0 * 8 + 1 * (j 0).val = t.val / 32 * 8 + (j 0).val; rw [e2]; omega
  · show win0_10.index t 1 * 128 + 1 * (j 1).val = (j 1).val; rw [e3]; omega

/-- An index of the statistics array is in point t's block iff each coordinate is in the block's range on its axis. -/
theorem mem_blk10 (t : Fin cfg0.N) (i : S16x128.Idx) :
    i ∈ ((cfg0.win 10).blk t).view.set ↔ ∀ a : Fin 2, win0_10.index t a * S8x128.size a ≤ (i a).val ∧ (i a).val < win0_10.index t a * S8x128.size a + S8x128.size a := by
  show i ∈ ((View.whole main_v6_1).slice (win0_10.rect t)).set ↔ _
  rw [View.set_slice_whole, Rect.mem_set_unit]
  exact Iff.rfl

/-- Row i of the statistics array is in the block of the last point of core i / 8. -/
theorem cover10 (i : S16x128.Idx) :
    ∃ t : Fin cfg0.N, (cfg0.win 10).flush t = true ∧ i ∈ ((cfg0.win 10).blk t).view.set := by
  have hi0 : (i 0).val < 16 := (i 0).isLt
  have hi1 : (i 1).val < 128 := (i 1).isLt
  obtain ⟨t, ht⟩ : ∃ t : Fin cfg0.N, t.val = 32 * ((i 0).val / 8) + 31 :=
    ⟨⟨32 * ((i 0).val / 8) + 31, lt_of_lt_of_eq (by omega : 32 * ((i 0).val / 8) + 31 < 64) N_0.symm⟩, rfl⟩
  refine ⟨t, (flush0_10 t).mpr (by omega), ?_⟩
  rw [mem_blk10]
  obtain ⟨-, -, e2, e3⟩ := idx_outs t
  intro a
  match a with
  | ⟨0, _⟩ => show win0_10.index t 0 * 8 ≤ (i 0).val ∧ (i 0).val < win0_10.index t 0 * 8 + 8; omega
  | ⟨1, _⟩ => show win0_10.index t 1 * 128 ≤ (i 1).val ∧ (i 1).val < win0_10.index t 1 * 128 + 128; omega

include hinv in
/-- The statistics array after the run holds the two cores' totals. -/
theorem final10 : (dats m 0 c).arrAt 10 cfg0.N = statsOf m c :=
  (dats m 0 c).arrAt_eq_of_cover 10 (statsArr m c) (flushed10_eq m c hinv) cover10

end Cert.RelScore.K

end
-- ==== Proof.KRun.lean ====
/-
  The kernel's run, read.

  The statistics array the kernel leaves holds core 0's five totals in rows 0-4 of column 0 and core 1's in rows 8-12.
  The lines after the region add the two cores' totals cell by cell and divide: the negated cross-entropy total by
  the row count, and the indicator counts by one another. Adding the two cores' blocked totals gives the plain sum
  over all rows, so the four quotients are the specification's loss and three ratios; the score array is the
  specification's score column; and the nine arguments end as they were launched.
-/
import proofs.«119460_j32547262169374_2_alg».proof.Proof.KStats
import proofs.«119460_j32547262169374_2_alg».proof.Proof.SumLaws
import proofs.«119460_j32547262169374_2_alg».proof.Proof.KInduct
import proofs.«119460_j32547262169374_2_alg».proof.Proof.KTail
import proofs.«119460_j32547262169374_2_alg».proof.Proof.KFlush
import Idealize.ShloMosaic.Lib.Pipeline.Value
import Idealize.ShloMosaic.Lib.ValueIdx

noncomputable section

namespace Cert.RelScore.K

open Idealize.ShloMosaic Idealize.ShloMosaic.TcCoe Idealize.SL.Sem Idealize.ShloMosaic.ValueIdx
open Cert.KernelIdeal Cert.KernelIdeal.Gen Cert.RelScore

variable (m : (ℓ : Loc nD τ sig) → Buf (Elt Ideal) ℓ)

/-! ## The statistics array's ten cells -/

/-- Row 0 of column 0: core 0's total of the negated cross-entropy terms. -/
theorem stats_0 (c : Dev nD) : statsOf m c (ix2 0 0) = running (termsOf (argsOf m c) 0) 0 31 := by
  unfold statsOf accOf
  split
  · rfl
  · rename_i h; exact absurd ⟨rfl, by decide⟩ h

/-- Row 1 of column 0: core 0's total of the positives. -/
theorem stats_1 (c : Dev nD) : statsOf m c (ix2 1 0) = running (termsOf (argsOf m c) 1) 0 31 := by
  unfold statsOf accOf
  split
  · rfl
  · rename_i h; exact absurd ⟨rfl, by decide⟩ h

/-- Row 2 of column 0: core 0's total of the negatives. -/
theorem stats_2 (c : Dev nD) : statsOf m c (ix2 2 0) = running (termsOf (argsOf m c) 2) 0 31 := by
  unfold statsOf accOf
  split
  · rfl
  · rename_i h; exact absurd ⟨rfl, by decide⟩ h

/-- Row 3 of column 0: core 0's total of the negatives scored at least one half. -/
theorem stats_3 (c : Dev nD) : statsOf m c (ix2 3 0) = running (termsOf (argsOf m c) 3) 0 31 := by
  unfold statsOf accOf
  split
  · rfl
  · rename_i h; exact absurd ⟨rfl, by decide⟩ h

/-- Row 4 of column 0: core 0's total of the positives scored below one half. -/
theorem stats_4 (c : Dev nD) : statsOf m c (ix2 4 0) = running (termsOf (argsOf m c) 4) 0 31 := by
  unfold statsOf accOf
  split
  · rfl
  · rename_i h; exact absurd ⟨rfl, by decide⟩ h

/-- Row 8 of column 0: core 1's total of the negated cross-entropy terms. -/
theorem stats_8 (c : Dev nD) : statsOf m c (ix2 8 0) = running (termsOf (argsOf m c) 0) 1 31 := by
  unfold statsOf accOf
  split
  · rfl
  · rename_i h; exact absurd ⟨rfl, by decide⟩ h

/-- Row 9 of column 0: core 1's total of the positives. -/
theorem stats_9 (c : Dev nD) : statsOf m c (ix2 9 0) = running (termsOf (argsOf m c) 1) 1 31 := by
  unfold statsOf accOf
  split
  · rfl
  · rename_i h; exact absurd ⟨rfl, by decide⟩ h

/-- Row 10 of column 0: core 1's total of the negatives. -/
theorem stats_10 (c : Dev nD) : statsOf m c (ix2 10 0) = running (termsOf (argsOf m c) 2) 1 31 := by
  unfold statsOf accOf
  split
  · rfl
  · rename_i h; exact absurd ⟨rfl, by decide⟩ h

/-- Row 11 of column 0: core 1's total of the negatives scored at least one half. -/
theorem stats_11 (c : Dev nD) : statsOf m c (ix2 11 0) = running (termsOf (argsOf m c) 3) 1 31 := by
  unfold statsOf accOf
  split
  · rfl
  · rename_i h; exact absurd ⟨rfl, by decide⟩ h

/-- Row 12 of column 0: core 1's total of the positives scored below one half. -/
theorem stats_12 (c : Dev nD) : statsOf m c (ix2 12 0) = running (termsOf (argsOf m c) 4) 1 31 := by
  unfold statsOf accOf
  split
  · rfl
  · rename_i h; exact absurd ⟨rfl, by decide⟩ h

/-! ## The four quotients of the statistics are the specification's results -/

/-- The two cores' totals of the negated terms, added and divided by the row count, are the loss. -/
theorem stats_loss (c : Dev nD) :
    Ideal.div (statsOf m c (ix2 0 0) + statsOf m c (ix2 8 0)) countW = loss (argsOf m c) := by
  rw [stats_0, stats_8]
  exact loss_eq (argsOf m c)

/-- Negatives scored high over positives. -/
theorem stats_ratio1 (c : Dev nD) :
    Ideal.div (statsOf m c (ix2 3 0) + statsOf m c (ix2 11 0)) (statsOf m c (ix2 1 0) + statsOf m c (ix2 9 0))
      = ratio1 (argsOf m c) := by
  rw [stats_3, stats_11, stats_1, stats_9, count_eq, count_eq]
  rfl

/-- Positives scored low over negatives. -/
theorem stats_ratio2 (c : Dev nD) :
    Ideal.div (statsOf m c (ix2 4 0) + statsOf m c (ix2 12 0)) (statsOf m c (ix2 2 0) + statsOf m c (ix2 10 0))
      = ratio2 (argsOf m c) := by
  rw [stats_4, stats_12, stats_2, stats_10, count_eq, count_eq]
  rfl

/-- All the wrongly scored rows over all rows. -/
theorem stats_ratio3 (c : Dev nD) :
    Ideal.div ((statsOf m c (ix2 3 0) + statsOf m c (ix2 11 0)) + (statsOf m c (ix2 4 0) + statsOf m c (ix2 12 0)))
        ((statsOf m c (ix2 1 0) + statsOf m c (ix2 9 0)) + (statsOf m c (ix2 2 0) + statsOf m c (ix2 10 0)))
      = ratio3 (argsOf m c) := by
  rw [stats_3, stats_11, stats_4, stats_12, stats_1, stats_9, stats_2, stats_10, count_eq, count_eq, count_eq, count_eq]
  rfl

/-! ## The run

  After the body at every point the two output blocks and the carried accumulator hold what `Inv` says (`inv_all`);
  hence the score array ends as the score column (`final9`) and the statistics array as `statsOf` (`final10`); the
  lines after the region compute, from the statistics array, the four quotients of its cells (`tail_loss`,
  `tail_ratio1`, `tail_ratio2`, `tail_ratio3`), which are the specification's (`stats_loss` … `stats_ratio3`). -/

/-- The kernel's run: it ends with the score column in the score array, the loss and the three ratios in the four
    scalar results, and the nine arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v6_0) = scores (argsOf m c)
      ∧ r.2.mem ((c.tc : Thread nD τ).loc main_v32) = (fun _ => loss (argsOf m c))
      ∧ r.2.mem ((c.tc : Thread nD τ).loc main_v33) = (fun _ => ratio1 (argsOf m c))
      ∧ r.2.mem ((c.tc : Thread nD τ).loc main_v34) = (fun _ => ratio2 (argsOf m c))
      ∧ r.2.mem ((c.tc : Thread nD τ).loc main_v37) = (fun _ => ratio3 (argsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    have hS := final10 m c (inv_all m c)
    ⟨((h c).1 9).trans (final9 m c (inv_all m c)),
      ((h c).2 main_v32 (Pipeline.mem_restRefs_of main_v32 (by decide) (by decide))).trans
        ((tail_loss m c _ hS).trans (funext fun _ => stats_loss m c)),
      ((h c).2 main_v33 (Pipeline.mem_restRefs_of main_v33 (by decide) (by decide))).trans
        ((tail_ratio1 m c _ hS).trans (funext fun _ => stats_ratio1 m c)),
      ((h c).2 main_v34 (Pipeline.mem_restRefs_of main_v34 (by decide) (by decide))).trans
        ((tail_ratio2 m c _ hS).trans (funext fun _ => stats_ratio2 m c)),
      ((h c).2 main_v37 (Pipeline.mem_restRefs_of main_v37 (by decide) (by decide))).trans
        ((tail_ratio3 m c _ hS).trans (funext fun _ => stats_ratio3 m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 7).trans (((dats m 0 c).arrAt_in 7 rfl _).trans ((A_eq m c 7).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.RelScore.K

end
-- ==== Proof.lean ====
/- The proof of `Cert.Claim`.

   The kernel scores 131072 subject/object pairs: eight box features (offsets over widths and heights, logarithms of
   size ratios) weighted and summed; a two-layer perceptron on the two 300-long feature rows (its 600-long first
   contraction done as two 300-long halves); the logistic of the sum of the two scores; and, from the scores and
   the labels, a clamped cross-entropy and four indicator counts. It works block by block — 64 blocks of 2048 rows,
   two cores of 32 steps — adding each block's five sums into an accumulator, and the lines after the call add the
   two cores' totals and divide. The reference computes the same quantities on the whole table at once.

   At exact arithmetic both end with one specification (Proof/Spec.lean) of the nine arguments:
     * the score column — the same formula row by row, a block's rows being rows of the table;
     * the loss — the kernel sums the NEGATED terms in the blocked order and divides, the reference negates the mean:
       equal because every term is a real number whatever the inputs (each logarithm is of a value clamped to
       [eps, 1]), and sums may be regrouped freely over the extended reals;
     * the three ratios — quotients of sums of 0/1 indicators, equal by regrouping alone.
   The precondition is not used. The idealization rewrote nothing, so `preserves` is trivial; the three frames are the
   generated ones (the reference's: its run with the results dropped). -/
import proofs.«119460_j32547262169374_2_alg».proof.Defs
import proofs.«119460_j32547262169374_2_alg».proof.Proof.Gen.Kernel
import proofs.«119460_j32547262169374_2_alg».proof.Proof.Gen.Kernel.Skeleton
import proofs.«119460_j32547262169374_2_alg».proof.Proof.Gen.Kernel.Launch
import proofs.«119460_j32547262169374_2_alg».proof.Proof.Gen.Kernel.Points
import proofs.«119460_j32547262169374_2_alg».proof.Proof.Gen.Kernel.Frame
import proofs.«119460_j32547262169374_2_alg».proof.Proof.Gen.KernelIdeal
import proofs.«119460_j32547262169374_2_alg».proof.Proof.Gen.KernelIdeal.Skeleton
import proofs.«119460_j32547262169374_2_alg».proof.Proof.Gen.KernelIdeal.Launch
import proofs.«119460_j32547262169374_2_alg».proof.Proof.Gen.KernelIdeal.Points
import proofs.«119460_j32547262169374_2_alg».proof.Proof.Gen.KernelIdeal.Frame
import proofs.«119460_j32547262169374_2_alg».proof.Proof.Gen.ReferenceIdeal
import proofs.«119460_j32547262169374_2_alg».proof.Proof.Gen.Pre_finite_inputs
import proofs.«119460_j32547262169374_2_alg».proof.Proof.RefReadP
import proofs.«119460_j32547262169374_2_alg».proof.Proof.RefSide
import proofs.«119460_j32547262169374_2_alg».proof.Proof.KRun
import Idealize.ShloMosaic.Adequacy
import Idealize.ShloMosaic.Init

noncomputable section

namespace Cert.Proof

open Idealize.ShloMosaic Idealize.SL.Sem Cert.RelScore

/-- The reference's nine arguments end unchanged: the last nine clauses of its run. -/
theorem frame_ReferenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2)
    (Cert.ReferenceIdeal.Value.run (F := Ideal) m ρ)

/-- Both programs, at exact arithmetic and from memories that agree on the nine arguments, end with the
    specification's five results of those arguments: the score column, the loss and the three ratios. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => scores (K.argsOf m c), fun c => (fun _ => loss (K.argsOf m c)),
    fun c => (fun _ => ratio1 (K.argsOf m c)), fun c => (fun _ => ratio2 (K.argsOf m c)),
    fun c => (fun _ => ratio3 (K.argsOf m c)),
    K.run m ρ, ?_⟩
  refine (θ_run Cert.ReferenceIdeal.defs _ _).mono (fun _ h c => ?_) (Cert.ReferenceIdeal.Value.run (F := Ideal) m' ρ')
  obtain ⟨h0, h1, h2, h3, h4, hargs⟩ := h c
  obtain ⟨e0, e1, e2, e3, e4, e5, e6, e7, e8⟩ := hagree c
  refine ⟨h0.trans ?_, h1.trans ?_, h2.trans ?_, h3.trans ?_, h4.trans ?_, hargs⟩
  · refine (Cert.ReferenceIdeal.Read.val_main_v86_eq m' c).trans ?_
    rw [e0, e1, e2, e3, e4, e5, e6, e7, e8]
    exact Cert.RelScore.Ref.ref_scores _ _ _ _ _ _ _ _ _
  · refine (Cert.ReferenceIdeal.Read.val_main_v108_eq m' c).trans ?_
    rw [e0, e1, e2, e3, e4, e5, e6, e7, e8]
    exact Cert.RelScore.Ref.ref_loss _ _ _ _ _ _ _ _ _
  · refine (Cert.ReferenceIdeal.Read.val_main_v126_eq m' c).trans ?_
    rw [e0, e1, e2, e3, e4, e5, e6, e7, e8]
    exact Cert.RelScore.Ref.ref_ratio1 _ _ _ _ _ _ _ _ _
  · refine (Cert.ReferenceIdeal.Read.val_main_v127_eq m' c).trans ?_
    rw [e0, e1, e2, e3, e4, e5, e6, e7, e8]
    exact Cert.RelScore.Ref.ref_ratio2 _ _ _ _ _ _ _ _ _
  · refine (Cert.ReferenceIdeal.Read.val_main_v130_eq m' c).trans ?_
    rw [e0, e1, e2, e3, e4, e5, e6, e7, e8]
    exact Cert.RelScore.Ref.ref_ratio3 _ _ _ _ _ _ _ _ _

/-- The five claims: three frames, the empty idealization, and the equality of results at exact arithmetic. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ReferenceIdeal, trivial, algebraic⟩

end Cert.Proof

end
